-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S128x300 : Shape := ⟨2, ![128, 300]⟩
abbrev S300 : Shape := ⟨1, ![300]⟩
abbrev S300x300 : Shape := ⟨2, ![300, 300]⟩
abbrev S8x300 : Shape := ⟨2, ![8, 300]⟩
abbrev S128x96 : Shape := ⟨2, ![128, 96]⟩
abbrev S96 : Shape := ⟨1, ![96]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x300 : S_.BroadcastsInDim S128x300 (![] : Fin 0 → Fin S128x300.rank)
  reducesTo_S128x300_S_d0_1 : S128x300.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S8x300 : S_.BroadcastsInDim S8x300 (![] : Fin 0 → Fin S8x300.rank)
  reducesTo_S8x300_S_d0_1 : S8x300.ReducesTo [0, 1] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_

variable [Facts]

def fn_part6 {F : FTy → Type} [FloatOps F] (main_arg21 : FVec F S96 .f32) (main_v98 : IVec S_ 1) (main_v101 : IVec S128x96 1) (main_c_39 : IVec S_ 1) : IVec S_ 1 :=
  let main_v102 : IVec S_ 1 := (fun x v => Host.reduce IntOp.andi x v reducesTo_S128x96_S_d0_1 h_S_) main_v101 main_c_39
  let main_v103 : IVec S_ 1 := andi main_v98 main_v102
  let main_v104 : FVec F S96 .f32 := Host.absf main_arg21
  let main_cst_40 : FVec F S_ .f32 := constant S_ .f32 0x7F800000#32
  let main_v105 : FVec F S96 .f32 := broadcastInDim S96 ![] bcast_S_S96 main_cst_40
  let main_v106 : IVec S96 1 := cmpf .olt main_v104 main_v105
  let main_c_41 : IVec S_ 1 := constantI S_ 1 1#1
  let main_v107 : IVec S_ 1 := (fun x v => Host.reduce IntOp.andi x v reducesTo_S96_S_d0 h_S_) main_v106 main_c_41
  let main_v108 : IVec S_ 1 := andi main_v103 main_v107
  main_v108

def fn_part5 {F : FTy → Type} [FloatOps F] (main_arg18 : FVec F S128x96 .f32) (main_arg19 : FVec F S96 .f32) (main_arg20 : FVec F S128x96 .f32) (main_arg21 : FVec F S96 .f32) (main_v83 : IVec S_ 1) (main_v84 : FVec F S8x300 .f32) (main_cst_32 : FVec F S_ .f32) : IVec S_ 1 :=
  let main_v85 : FVec F S8x300 .f32 := broadcastInDim S8x300 ![] bcast_S_S8x300 main_cst_32
  let main_v86 : IVec S8x300 1 := cmpf .olt main_v84 main_v85
  let main_c_33 : IVec S_ 1 := constantI S_ 1 1#1
  let main_v87 : IVec S_ 1 := (fun x v => Host.reduce IntOp.andi x v reducesTo_S8x300_S_d0_1 h_S_) main_v86 main_c_33
  let main_v88 : IVec S_ 1 := andi main_v83 main_v87
  let main_v89 : FVec F S128x96 .f32 := Host.absf main_arg18
  let main_cst_34 : FVec F S_ .f32 := constant S_ .f32 0x7F800000#32
  let main_v90 : FVec F S128x96 .f32 := broadcastInDim S128x96 ![] bcast_S_S128x96 main_cst_34
  let main_v91 : IVec S128x96 1 := cmpf .olt main_v89 main_v90
  let main_c_35 : IVec S_ 1 := constantI S_ 1 1#1
  let main_v92 : IVec S_ 1 := (fun x v => Host.reduce IntOp.andi x v reducesTo_S128x96_S_d0_1 h_S_) main_v91 main_c_35
  let main_v93 : IVec S_ 1 := andi main_v88 main_v92
  let main_v94 : FVec F S96 .f32 := Host.absf main_arg19
  let main_cst_36 : FVec F S_ .f32 := constant S_ .f32 0x7F800000#32
  let main_v95 : FVec F S96 .f32 := broadcastInDim S96 ![] bcast_S_S96 main_cst_36
  let main_v96 : IVec S96 1 := cmpf .olt main_v94 main_v95
  let main_c_37 : IVec S_ 1 := constantI S_ 1 1#1
  let main_v97 : IVec S_ 1 := (fun x v => Host.reduce IntOp.andi x v reducesTo_S96_S_d0 h_S_) main_v96 main_c_37
  let main_v98 : IVec S_ 1 := andi main_v93 main_v97
  let main_v99 : FVec F S128x96 .f32 := Host.absf main_arg20
  let main_cst_38 : FVec F S_ .f32 := constant S_ .f32 0x7F800000#32
  let main_v100 : FVec F S128x96 .f32 := broadcastInDim S128x96 ![] bcast_S_S128x96 main_cst_38
  let main_v101 : IVec S128x96 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S300x300 .f32) (main_arg15 : FVec F S300 .f32) (main_arg16 : FVec F S8x300 .f32) (main_arg17 : FVec F S8x300 .f32) (main_arg18 : FVec F S128x96 .f32) (main_arg19 : FVec F S96 .f32) (main_arg20 : FVec F S128x96 .f32) (main_arg21 : FVec F S96 .f32) (main_v63 : IVec S_ 1) (main_v67 : IVec S_ 1) : IVec S_ 1 :=
  let main_v68 : IVec S_ 1 := andi main_v63 main_v67
  let main_v69 : FVec F S300x300 .f32 := Host.absf main_arg14
  let main_cst_26 : FVec F S_ .f32 := constant S_ .f32 0x7F800000#32
  let main_v70 : FVec F S300x300 .f32 := broadcastInDim S300x300 ![] bcast_S_S300x300 main_cst_26
  let main_v71 : IVec S300x300 1 := cmpf .olt main_v69 main_v70
  let main_c_27 : IVec S_ 1 := constantI S_ 1 1#1
  let main_v72 : IVec S_ 1 := (fun x v => Host.reduce IntOp.andi x v reducesTo_S300x300_S_d0_1 h_S_) main_v71 main_c_27
  let main_v73 : IVec S_ 1 := andi main_v68 main_v72
  let main_v74 : FVec F S300 .f32 := Host.absf main_arg15
  let main_cst_28 : FVec F S_ .f32 := constant S_ .f32 0x7F800000#32
  let main_v75 : FVec F S300 .f32 := broadcastInDim S300 ![] bcast_S_S300 main_cst_28
  let main_v76 : IVec S300 1 := cmpf .olt main_v74 main_v75
  let main_c_29 : IVec S_ 1 := constantI S_ 1 1#1
  let main_v77 : IVec S_ 1 := (fun x v => Host.reduce IntOp.andi x v reducesTo_S300_S_d0 h_S_) main_v76 main_c_29
  let main_v78 : IVec S_ 1 := andi main_v73 main_v77
  let main_v79 : FVec F S8x300 .f32 := Host.absf main_arg16
  let main_cst_30 : FVec F S_ .f32 := constant S_ .f32 0x7F800000#32
  let main_v80 : FVec F S8x300 .f32 := broadcastInDim S8x300 ![] bcast_S_S8x300 main_cst_30
  let main_v81 : IVec S8x300 1 := cmpf .olt main_v79 main_v80
  let main_c_31 : IVec S_ 1 := constantI S_ 1 1#1
  let main_v82 : IVec S_ 1 := (fun x v => Host.reduce IntOp.andi x v reducesTo_S8x300_S_d0_1 h_S_) main_v81 main_c_31
  let main_v83 : IVec S_ 1 := andi main_v78 main_v82
  let main_v84 : FVec F S8x300 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S300 .f32) (main_arg12 : FVec F S300 .f32) (main_arg13 : FVec F S300 .f32) (main_arg14 : FVec F S300x300 .f32) (main_arg15 : FVec F S300 .f32) (main_arg16 : FVec F S8x300 .f32) (main_arg17 : FVec F S8x300 .f32) (main_arg18 : FVec F S128x96 .f32) (main_arg19 : FVec F S96 .f32) (main_arg20 : FVec F S128x96 .f32) (main_arg21 : FVec F S96 .f32) (main_v48 : IVec S_ 1) (main_v49 : FVec F S128x300 .f32) (main_v50 : FVec F S128x300 .f32) : IVec S_ 1 :=
  let main_v51 : IVec S128x300 1 := cmpf .olt main_v49 main_v50
  let main_c_19 : IVec S_ 1 := constantI S_ 1 1#1
  let main_v52 : IVec S_ 1 := (fun x v => Host.reduce IntOp.andi x v reducesTo_S128x300_S_d0_1 h_S_) main_v51 main_c_19
  let main_v53 : IVec S_ 1 := andi main_v48 main_v52
  let main_v54 : FVec F S300 .f32 := Host.absf main_arg11
  let main_cst_20 : FVec F S_ .f32 := constant S_ .f32 0x7F800000#32
  let main_v55 : FVec F S300 .f32 := broadcastInDim S300 ![] bcast_S_S300 main_cst_20
  let main_v56 : IVec S300 1 := cmpf .olt main_v54 main_v55
  let main_c_21 : IVec S_ 1 := constantI S_ 1 1#1
  let main_v57 : IVec S_ 1 := (fun x v => Host.reduce IntOp.andi x v reducesTo_S300_S_d0 h_S_) main_v56 main_c_21
  let main_v58 : IVec S_ 1 := andi main_v53 main_v57
  let main_v59 : FVec F S300 .f32 := Host.absf main_arg12
  let main_cst_22 : FVec F S_ .f32 := constant S_ .f32 0x7F800000#32
  let main_v60 : FVec F S300 .f32 := broadcastInDim S300 ![] bcast_S_S300 main_cst_22
  let main_v61 : IVec S300 1 := cmpf .olt main_v59 main_v60
  let main_c_23 : IVec S_ 1 := constantI S_ 1 1#1
  let main_v62 : IVec S_ 1 := (fun x v => Host.reduce IntOp.andi x v reducesTo_S300_S_d0 h_S_) main_v61 main_c_23
  let main_v63 : IVec S_ 1 := andi main_v58 main_v62
  let main_v64 : FVec F S300 .f32 := Host.absf main_arg13
  let main_cst_24 : FVec F S_ .f32 := constant S_ .f32 0x7F800000#32
  let main_v65 : FVec F S300 .f32 := broadcastInDim S300 ![] bcast_S_S300 main_cst_24
  let main_v66 : IVec S300 1 := cmpf .olt main_v64 main_v65
  let main_c_25 : IVec S_ 1 := constantI S_ 1 1#1
  let main_v67 : IVec S_ 1 := (fun x v => Host.reduce IntOp.andi x v reducesTo_S300_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S300 .f32) (main_arg8 : FVec F S300x300 .f32) (main_arg9 : FVec F S300 .f32) (main_arg10 : FVec F S128x300 .f32) (main_arg11 : FVec F S300 .f32) (main_arg12 : FVec F S300 .f32) (main_arg13 : FVec F S300 .f32) (main_arg14 : FVec F S300x300 .f32) (main_arg15 : FVec F S300 .f32) (main_arg16 : FVec F S8x300 .f32) (main_arg17 : FVec F S8x300 .f32) (main_arg18 : FVec F S128x96 .f32) (main_arg19 : FVec F S96 .f32) (main_arg20 : FVec F S128x96 .f32) (main_arg21 : FVec F S96 .f32) (main_v33 : IVec S_ 1) : IVec S_ 1 :=
  let main_v34 : FVec F S300 .f32 := Host.absf main_arg7
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  let main_v39 : FVec F S300x300 .f32 := Host.absf main_arg8
  let main_cst_14 : FVec F S_ .f32 := constant S_ .f32 0x7F800000#32
  let main_v40 : FVec F S300x300 .f32 := broadcastInDim S300x300 ![] bcast_S_S300x300 main_cst_14
  let main_v41 : IVec S300x300 1 := cmpf .olt main_v39 main_v40
  let main_c_15 : IVec S_ 1 := constantI S_ 1 1#1
  let main_v42 : IVec S_ 1 := (fun x v => Host.reduce IntOp.andi x v reducesTo_S300x300_S_d0_1 h_S_) main_v41 main_c_15
  let main_v43 : IVec S_ 1 := andi main_v38 main_v42
  let main_v44 : FVec F S300 .f32 := Host.absf main_arg9
  let main_cst_16 : FVec F S_ .f32 := constant S_ .f32 0x7F800000#32
  let main_v45 : FVec F S300 .f32 := broadcastInDim S300 ![] bcast_S_S300 main_cst_16
  let main_v46 : IVec S300 1 := cmpf .olt main_v44 main_v45
  let main_c_17 : IVec S_ 1 := constantI S_ 1 1#1
  let main_v47 : IVec S_ 1 := (fun x v => Host.reduce IntOp.andi x v reducesTo_S300_S_d0 h_S_) main_v46 main_c_17
  let main_v48 : IVec S_ 1 := andi main_v43 main_v47
  let main_v49 : FVec F S128x300 .f32 := Host.absf main_arg10
  let main_cst_18 : FVec F S_ .f32 := constant S_ .f32 0x7F800000#32
  let main_v50 : FVec F S128x300 .f32 := broadcastInDim S128x300 ![] bcast_S_S128x300 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S128x300 .f32) (main_arg5 : FVec F S300 .f32) (main_arg6 : FVec F S300 .f32) (main_arg7 : FVec F S300 .f32) (main_arg8 : FVec F S300x300 .f32) (main_arg9 : FVec F S300 .f32) (main_arg10 : FVec F S128x300 .f32) (main_arg11 : FVec F S300 .f32) (main_arg12 : FVec F S300 .f32) (main_arg13 : FVec F S300 .f32) (main_arg14 : FVec F S300x300 .f32) (main_arg15 : FVec F S300 .f32) (main_arg16 : FVec F S8x300 .f32) (main_arg17 : FVec F S8x300 .f32) (main_arg18 : FVec F S128x96 .f32) (main_arg19 : FVec F S96 .f32) (main_arg20 : FVec F S128x96 .f32) (main_arg21 : FVec F S96 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S128x300 .f32 := Host.absf main_arg4
  let main_cst_6 : FVec F S_ .f32 := constant S_ .f32 0x7F800000#32
  let main_v20 : FVec F S128x300 .f32 := broadcastInDim S128x300 ![] bcast_S_S128x300 main_cst_6
  let main_v21 : IVec S128x300 1 := cmpf .olt main_v19 main_v20
  let main_c_7 : IVec S_ 1 := constantI S_ 1 1#1
  let main_v22 : IVec S_ 1 := (fun x v => Host.reduce IntOp.andi x v reducesTo_S128x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300 .f32 := Host.absf main_arg6
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S4096x128 .f32) (main_arg1 : FVec F S4096x128 .f32) (main_arg2 : FVec F S4096x128 .f32) (main_arg3 : FVec F S4096x128 .f32) (main_arg4 : FVec F S128x300 .f32) (main_arg5 : FVec F S300 .f32) (main_arg6 : FVec F S300 .f32) (main_arg7 : FVec F S300 .f32) (main_arg8 : FVec F S300x300 .f32) (main_arg9 : FVec F S300 .f32) (main_arg10 : FVec F S128x300 .f32) (main_arg11 : FVec F S300 .f32) (main_arg12 : FVec F S300 .f32) (main_arg13 : FVec F S300 .f32) (main_arg14 : FVec F S300x300 .f32) (main_arg15 : FVec F S300 .f32) (main_arg16 : FVec F S8x300 .f32) (main_arg17 : FVec F S8x300 .f32) (main_arg18 : FVec F S128x96 .f32) (main_arg19 : FVec F S96 .f32) (main_arg20 : FVec F S128x96 .f32) (main_arg21 : FVec F S96 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S4096x128 : Shape := ⟨2, ![4096, 128]⟩
abbrev S128x300 : Shape := ⟨2, ![128, 300]⟩
abbrev S300 : Shape := ⟨1, ![300]⟩
abbrev S300x300 : Shape := ⟨2, ![300, 300]⟩
abbrev S8x300 : Shape := ⟨2, ![8, 300]⟩
abbrev S128x96 : Shape := ⟨2, ![128, 96]⟩
abbrev S96 : Shape := ⟨1, ![96]⟩
abbrev S8x8 : Shape := ⟨2, ![8, 8]⟩
abbrev S_ : Shape := ⟨0, ![]⟩
abbrev S8x8x12 : Shape := ⟨3, ![8, 8, 12]⟩
abbrev S8x96 : Shape := ⟨2, ![8, 96]⟩
abbrev S12x12 : Shape := ⟨2, ![12, 12]⟩
abbrev S1x12x1x12 : Shape := ⟨4, ![1, 12, 1, 12]⟩
abbrev S8x12x1x12 : Shape := ⟨4, ![8, 12, 1, 12]⟩
abbrev S96x12 : Shape := ⟨2, ![96, 12]⟩
abbrev S4096x12 : Shape := ⟨2, ![4096, 12]⟩
abbrev S4096x300 : Shape := ⟨2, ![4096, 300]⟩
abbrev S1x300 : Shape := ⟨2, ![1, 300]⟩
abbrev S4096x8 : Shape := ⟨2, ![4096, 8]⟩
abbrev S4096 : Shape := ⟨1, ![4096]⟩
abbrev S4096x1 : Shape := ⟨2, ![4096, 1]⟩
abbrev S4096x96 : Shape := ⟨2, ![4096, 96]⟩
abbrev S1x96 : Shape := ⟨2, ![1, 96]⟩

abbrev nBuf : Space → Nat
  | .hbm => 42
  | .vmem => 25
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S128x300, .f32⟩
  | .hbm, ⟨5, _⟩ => ⟨S300, .f32⟩
  | .hbm, ⟨6, _⟩ => ⟨S300, .f32⟩
  | .hbm, ⟨7, _⟩ => ⟨S300, .f32⟩
  | .hbm, ⟨8, _⟩ => ⟨S300x300, .f32⟩
  | .hbm, ⟨9, _⟩ => ⟨S300, .f32⟩
  | .hbm, ⟨10, _⟩ => ⟨S128x300, .f32⟩
  | .hbm, ⟨11, _⟩ => ⟨S300, .f32⟩
  | .hbm, ⟨12, _⟩ => ⟨S300, .f32⟩
  | .hbm, ⟨13, _⟩ => ⟨S300, .f32⟩
  | .hbm, ⟨14, _⟩ => ⟨S300x300, .f32⟩
  | .hbm, ⟨15, _⟩ => ⟨S300, .f32⟩
  | .hbm, ⟨16, _⟩ => ⟨S8x300, .f32⟩
  | .hbm, ⟨17, _⟩ => ⟨S8x300, .f32⟩
  | .hbm, ⟨18, _⟩ => ⟨S128x96, .f32⟩
  | .hbm, ⟨19, _⟩ => ⟨S96, .f32⟩
  | .hbm, ⟨20, _⟩ => ⟨S128x96, .f32⟩
  | .hbm, ⟨21, _⟩ => ⟨S96, .f32⟩
  | .hbm, ⟨22, _⟩ => ⟨S8x8, .i32⟩
  | .hbm, ⟨23, _⟩ => ⟨S8x8, .i32⟩
  | .hbm, ⟨24, _⟩ => ⟨S_, .i32⟩
  | .hbm, ⟨25, _⟩ => ⟨S8x8, .i32⟩
  | .hbm, ⟨26, _⟩ => ⟨S8x8, .i32⟩
  | .hbm, ⟨27, _⟩ => ⟨S8x8, .i1⟩
  | .hbm, ⟨28, _⟩ => ⟨S8x8, .f32⟩
  | .hbm, ⟨29, _⟩ => ⟨S8x8x12, .f32⟩
  | .hbm, ⟨30, _⟩ => ⟨S8x96, .f32⟩
  | .hbm, ⟨31, _⟩ => ⟨S12x12, .i32⟩
  | .hbm, ⟨32, _⟩ => ⟨S12x12, .i32⟩
  | .hbm, ⟨33, _⟩ => ⟨S_, .i32⟩
  | .hbm, ⟨34, _⟩ => ⟨S12x12, .i32⟩
  | .hbm, ⟨35, _⟩ => ⟨S12x12, .i32⟩
  | .hbm, ⟨36, _⟩ => ⟨S12x12, .i1⟩
  | .hbm, ⟨37, _⟩ => ⟨S12x12, .f32⟩
  | .hbm, ⟨38, _⟩ => ⟨S1x12x1x12, .f32⟩
  | .hbm, ⟨39, _⟩ => ⟨S8x12x1x12, .f32⟩
  | .hbm, ⟨40, _⟩ => ⟨S96x12, .f32⟩
  | .hbm, ⟨41, _⟩ => ⟨S4096x12, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x300, .f32⟩
  | .local _ .vmem, ⟨5, _⟩ => ⟨S300, .f32⟩
  | .local _ .vmem, ⟨6, _⟩ => ⟨S300, .f32⟩
  | .local _ .vmem, ⟨7, _⟩ => ⟨S300, .f32⟩
  | .local _ .vmem, ⟨8, _⟩ => ⟨S300x300, .f32⟩
  | .local _ .vmem, ⟨9, _⟩ => ⟨S300, .f32⟩
  | .local _ .vmem, ⟨10, _⟩ => ⟨S128x300, .f32⟩
  | .local _ .vmem, ⟨11, _⟩ => ⟨S300, .f32⟩
  | .local _ .vmem, ⟨12, _⟩ => ⟨S300, .f32⟩
  | .local _ .vmem, ⟨13, _⟩ => ⟨S300, .f32⟩
  | .local _ .vmem, ⟨14, _⟩ => ⟨S300x300, .f32⟩
  | .local _ .vmem, ⟨15, _⟩ => ⟨S300, .f32⟩
  | .local _ .vmem, ⟨16, _⟩ => ⟨S8x300, .f32⟩
  | .local _ .vmem, ⟨17, _⟩ => ⟨S8x300, .f32⟩
  | .local _ .vmem, ⟨18, _⟩ => ⟨S128x96, .f32⟩
  | .local _ .vmem, ⟨19, _⟩ => ⟨S96, .f32⟩
  | .local _ .vmem, ⟨20, _⟩ => ⟨S128x96, .f32⟩
  | .local _ .vmem, ⟨21, _⟩ => ⟨S96, .f32⟩
  | .local _ .vmem, ⟨22, _⟩ => ⟨S8x96, .f32⟩
  | .local _ .vmem, ⟨23, _⟩ => ⟨S96x12, .f32⟩
  | .local _ .vmem, ⟨24, _⟩ => ⟨S4096x12, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S300 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S300x300 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S300 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x300 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S300 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S300 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S300 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S300x300 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S300 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x300 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x300 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x96 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S96 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x96 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S96 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8x96 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S96x12 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4096x12 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

class Facts₀ : Prop where
  bcast_S_S8x8 : S_.BroadcastsInDim S8x8 (![] : Fin 0 → Fin S8x8.rank)
  bcast_S8x8_S8x8x12_0_1 : S8x8.BroadcastsInDim S8x8x12 (![0, 1] : Fin 2 → Fin S8x8x12.rank)
  shapeCasts_S8x8x12_S8x96 : S8x8x12.ShapeCasts S8x96
  bcast_S_S12x12 : S_.BroadcastsInDim S12x12 (![] : Fin 0 → Fin S12x12.rank)
  shapeCasts_S12x12_S1x12x1x12 : S12x12.ShapeCasts S1x12x1x12
  bcast_S1x12x1x12_S8x12x1x12_0_1_2_3 : S1x12x1x12.BroadcastsInDim S8x12x1x12 (![0, 1, 2, 3] : Fin 4 → Fin S8x12x1x12.rank)
  shapeCasts_S8x12x1x12_S96x12 : S8x12x1x12.ShapeCasts S96x12
  inb_S4096x128_S4096x128_0_0 : ∀ a, (![0, 0] : Fin 2 → Nat) a + S4096x128.size a ≤ S4096x128.size a
  h_S4096x128 : 0 < S4096x128.numel
  inb_S128x300_S128x300_0_0 : ∀ a, (![0, 0] : Fin 2 → Nat) a + S128x300.size a ≤ S128x300.size a
  h_S128x300 : 0 < S128x300.numel
  inb_S300_S300_0 : ∀ a, (![0] : Fin 1 → Nat) a + S300.size a ≤ S300.size a
  h_S300 : 0 < S300.numel
  inb_S300x300_S300x300_0_0 : ∀ a, (![0, 0] : Fin 2 → Nat) a + S300x300.size a ≤ S300x300.size a
  h_S300x300 : 0 < S300x300.numel
  inb_S8x300_S8x300_0_0 : ∀ a, (![0, 0] : Fin 2 → Nat) a + S8x300.size a ≤ S8x300.size a
  h_S8x300 : 0 < S8x300.numel
  inb_S128x96_S128x96_0_0 : ∀ a, (![0, 0] : Fin 2 → Nat) a + S128x96.size a ≤ S128x96.size a
  h_S128x96 : 0 < S128x96.numel
  inb_S96_S96_0 : ∀ a, (![0] : Fin 1 → Nat) a + S96.size a ≤ S96.size a
  h_S96 : 0 < S96.numel
  shapeCasts_S300_S1x300 : S300.ShapeCasts S1x300
  broadcasts_S1x300_S4096x300 : S1x300.Broadcasts S4096x300
  reduces_S4096x300_S300 : S4096x300.Reduces [0] S300
  reduces_S4096x8_S4096 : S4096x8.Reduces [1] S4096
  shapeCasts_S4096_S4096x1 : S4096.ShapeCasts S4096x1
  broadcasts_S4096x1_S4096x8 : S4096x1.Broadcasts S4096x8
  shapeCasts_S96_S1x96 : S96.ShapeCasts S1x96
  broadcasts_S1x96_S4096x96 : S1x96.Broadcasts S4096x96
  inb_S8x96_S8x96_0_0 : ∀ a, (![0, 0] : Fin 2 → Nat) a + S8x96.size a ≤ S8x96.size a
  h_S8x96 : 0 < S8x96.numel
  shapeCasts_S8x96_S8x96 : S8x96.ShapeCasts S8x96
  inb_S96x12_S96x12_0_0 : ∀ a, (![0, 0] : Fin 2 → Nat) a + S96x12.size a ≤ S96x12.size a
  h_S96x12 : 0 < S96x12.numel
  shapeCasts_S96x12_S96x12 : S96x12.ShapeCasts S96x12
  inb_S4096x12_S4096x12_0_0 : ∀ a, (![0, 0] : Fin 2 → Nat) a + S4096x12.size a ≤ S4096x12.size a
  h_S4096x12 : 0 < S4096x12.numel
  dot_S4096x128_S128x300_S4096x300_1_0_0_1_n_n_wf : DotDims.WF S4096x128 S128x300 S4096x300 [1] [0] [0] [1] [] []
  dot_S4096x300_S300x300_S4096x300_1_0_0_1_n_n_wf : DotDims.WF S4096x300 S300x300 S4096x300 [1] [0] [0] [1] [] []
  dot_S4096x300_S8x300_S4096x8_1_1_0_0_n_n_wf : DotDims.WF S4096x300 S8x300 S4096x8 [1] [1] [0] [0] [] []
  dot_S4096x128_S128x96_S4096x96_1_0_0_1_n_n_wf : DotDims.WF S4096x128 S128x96 S4096x96 [1] [0] [0] [1] [] []
  dot_S4096x8_S8x96_S4096x96_1_0_0_1_n_n_wf : DotDims.WF S4096x8 S8x96 S4096x96 [1] [0] [0] [1] [] []
  dot_S4096x96_S96x12_S4096x12_1_0_0_1_n_n_wf : DotDims.WF S4096x96 S96x12 S4096x12 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole
  hstage0_19 : ∀ j, (stage0_19 j).IsWhole
  hstage0_20 : ∀ j, (stage0_20 j).IsWhole
  hstage0_21 : ∀ j, (stage0_21 j).IsWhole
  hstage0_22 : ∀ j, (stage0_22 j).IsWhole
  hstage0_23 : ∀ j, (stage0_23 j).IsWhole
  hstage0_24 : ∀ j, (stage0_24 j).IsWhole

variable [Facts₀]

def dot_S4096x128_S128x300_S4096x300_1_0_0_1_n_n : DotDims S4096x128 S128x300 S4096x300 where
  lhsContracting := [1]
  rhsContracting := [0]
  lhsNonContracting := [0]
  rhsNonContracting := [1]
  lhsBatch := []
  rhsBatch := []
  wf := dot_S4096x128_S128x300_S4096x300_1_0_0_1_n_n_wf
def dot_S4096x300_S300x300_S4096x300_1_0_0_1_n_n : DotDims S4096x300 S300x300 S4096x300 where
  lhsContracting := [1]
  rhsContracting := [0]
  lhsNonContracting := [0]
  rhsNonContracting := [1]
  lhsBatch := []
  rhsBatch := []
  wf := dot_S4096x300_S300x300_S4096x300_1_0_0_1_n_n_wf
def dot_S4096x300_S8x300_S4096x8_1_1_0_0_n_n : DotDims S4096x300 S8x300 S4096x8 where
  lhsContracting := [1]
  rhsContracting := [1]
  lhsNonContracting := [0]
  rhsNonContracting := [0]
  lhsBatch := []
  rhsBatch := []
  wf := dot_S4096x300_S8x300_S4096x8_1_1_0_0_n_n_wf
def dot_S4096x128_S128x96_S4096x96_1_0_0_1_n_n : DotDims S4096x128 S128x96 S4096x96 where
  lhsContracting := [1]
  rhsContracting := [0]
  lhsNonContracting := [0]
  rhsNonContracting := [1]
  lhsBatch := []
  rhsBatch := []
  wf := dot_S4096x128_S128x96_S4096x96_1_0_0_1_n_n_wf
def dot_S4096x8_S8x96_S4096x96_1_0_0_1_n_n : DotDims S4096x8 S8x96 S4096x96 where
  lhsContracting := [1]
  rhsContracting := [0]
  lhsNonContracting := [0]
  rhsNonContracting := [1]
  lhsBatch := []
  rhsBatch := []
  wf := dot_S4096x8_S8x96_S4096x96_1_0_0_1_n_n_wf
def dot_S4096x96_S96x12_S4096x12_1_0_0_1_n_n : DotDims S4096x96 S96x12 S4096x12 where
  lhsContracting := [1]
  rhsContracting := [0]
  lhsNonContracting := [0]
  rhsNonContracting := [1]
  lhsBatch := []
  rhsBatch := []
  wf := dot_S4096x96_S96x12_S4096x12_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_arg0) false false (stage0_2 0) (sem0_2 0) (Memref.isWhole_whole _) (hstage0_2 0)

abbrev win0_3 : Pipeline.Window sig grid0 :=
  Pipeline.Window.whole (Memref.whole main_arg1) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_arg8) false false (stage0_8 0) (sem0_8 0) (Memref.isWhole_whole _) (hstage0_8 0)

abbrev win0_9 : Pipeline.Window sig grid0 :=
  Pipeline.Window.whole (Memref.whole main_arg9) false false (stage0_9 0) (sem0_9 0) (Memref.isWhole_whole _) (hstage0_9 0)

abbrev win0_10 : Pipeline.Window sig grid0 :=
  Pipeline.Window.whole (Memref.whole main_arg10) false false (stage0_10 0) (sem0_10 0) (Memref.isWhole_whole _) (hstage0_10 0)

abbrev win0_11 : Pipeline.Window sig grid0 :=
  Pipeline.Window.whole (Memref.whole main_arg11) false false (stage0_11 0) (sem0_11 0) (Memref.isWhole_whole _) (hstage0_11 0)

abbrev win0_12 : Pipeline.Window sig grid0 :=
  Pipeline.Window.whole (Memref.whole main_arg12) false false (stage0_12 0) (sem0_12 0) (Memref.isWhole_whole _) (hstage0_12 0)

abbrev win0_13 : Pipeline.Window sig grid0 :=
  Pipeline.Window.whole (Memref.whole main_arg13) false false (stage0_13 0) (sem0_13 0) (Memref.isWhole_whole _) (hstage0_13 0)

abbrev win0_14 : Pipeline.Window sig grid0 :=
  Pipeline.Window.whole (Memref.whole main_arg14) false false (stage0_14 0) (sem0_14 0) (Memref.isWhole_whole _) (hstage0_14 0)

abbrev win0_15 : Pipeline.Window sig grid0 :=
  Pipeline.Window.whole (Memref.whole main_arg15) false false (stage0_15 0) (sem0_15 0) (Memref.isWhole_whole _) (hstage0_15 0)

abbrev win0_16 : Pipeline.Window sig grid0 :=
  Pipeline.Window.whole (Memref.whole main_arg16) false false (stage0_16 0) (sem0_16 0) (Memref.isWhole_whole _) (hstage0_16 0)

abbrev win0_17 : Pipeline.Window sig grid0 :=
  Pipeline.Window.whole (Memref.whole main_arg17) false false (stage0_17 0) (sem0_17 0) (Memref.isWhole_whole _) (hstage0_17 0)

abbrev win0_18 : Pipeline.Window sig grid0 :=
  Pipeline.Window.whole (Memref.whole main_arg18) false false (stage0_18 0) (sem0_18 0) (Memref.isWhole_whole _) (hstage0_18 0)

abbrev win0_19 : Pipeline.Window sig grid0 :=
  Pipeline.Window.whole (Memref.whole main_arg19) false false (stage0_19 0) (sem0_19 0) (Memref.isWhole_whole _) (hstage0_19 0)

abbrev win0_20 : Pipeline.Window sig grid0 :=
  Pipeline.Window.whole (Memref.whole main_arg20) false false (stage0_20 0) (sem0_20 0) (Memref.isWhole_whole _) (hstage0_20 0)

abbrev win0_21 : Pipeline.Window sig grid0 :=
  Pipeline.Window.whole (Memref.whole main_arg21) false false (stage0_21 0) (sem0_21 0) (Memref.isWhole_whole _) (hstage0_21 0)

abbrev win0_22 : Pipeline.Window sig grid0 :=
  Pipeline.Window.whole (Memref.whole main_v7) false false (stage0_22 0) (sem0_22 0) (Memref.isWhole_whole _) (hstage0_22 0)

abbrev win0_23 : Pipeline.Window sig grid0 :=
  Pipeline.Window.whole (Memref.whole main_v16) false false (stage0_23 0) (sem0_23 0) (Memref.isWhole_whole _) (hstage0_23 0)

abbrev win0_24 : Pipeline.Window sig grid0 :=
  Pipeline.Window.whole (Memref.whole main_v17) true false (stage0_24 0) (sem0_24 0) (Memref.isWhole_whole _) (hstage0_24 0)

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S4096x128 : Shape := ⟨2, ![4096, 128]⟩
abbrev S128x300 : Shape := ⟨2, ![128, 300]⟩
abbrev S300 : Shape := ⟨1, ![300]⟩
abbrev S300x300 : Shape := ⟨2, ![300, 300]⟩
abbrev S8x300 : Shape := ⟨2, ![8, 300]⟩
abbrev S128x96 : Shape := ⟨2, ![128, 96]⟩
abbrev S96 : Shape := ⟨1, ![96]⟩
abbrev S4096x300 : Shape := ⟨2, ![4096, 300]⟩
abbrev S1x300 : Shape := ⟨2, ![1, 300]⟩
abbrev S_ : Shape := ⟨0, ![]⟩
abbrev S300x8 : Shape := ⟨2, ![300, 8]⟩
abbrev S4096x8 : Shape := ⟨2, ![4096, 8]⟩
abbrev S4096 : Shape := ⟨1, ![4096]⟩
abbrev S4096x1 : Shape := ⟨2, ![4096, 1]⟩
abbrev S4096x128x1 : Shape := ⟨3, ![4096, 128, 1]⟩
abbrev S4096x128x96 : Shape := ⟨3, ![4096, 128, 96]⟩
abbrev S1x128x96 : Shape := ⟨3, ![1, 128, 96]⟩
abbrev S4096x96 : Shape := ⟨2, ![4096, 96]⟩
abbrev S1x96 : Shape := ⟨2, ![1, 96]⟩
abbrev S4096x8x12 : Shape := ⟨3, ![4096, 8, 12]⟩
abbrev S4096x8x1 : Shape := ⟨3, ![4096, 8, 1]⟩
abbrev S4096x12 : Shape := ⟨2, ![4096, 12]⟩

abbrev nBuf : Space → Nat
  | .hbm => 206
  | .vmem => 0
  | .smem => 0
  | _ => 0

abbrev hbmTy0_0 (i : Nat) : BufTy := match i % 128 with
  | 0 => ⟨S4096x128, .f32⟩
  | 1 => ⟨S4096x128, .f32⟩
  | 2 => ⟨S4096x128, .f32⟩
  | 3 => ⟨S4096x128, .f32⟩
  | 4 => ⟨S128x300, .f32⟩
  | 5 => ⟨S300, .f32⟩
  | 6 => ⟨S300, .f32⟩
  | 7 => ⟨S300, .f32⟩
  | 8 => ⟨S300x300, .f32⟩
  | 9 => ⟨S300, .f32⟩
  | 10 => ⟨S128x300, .f32⟩
  | 11 => ⟨S300, .f32⟩
  | 12 => ⟨S300, .f32⟩
  | 13 => ⟨S300, .f32⟩
  | 14 => ⟨S300x300, .f32⟩
  | 15 => ⟨S300, .f32⟩
  | 16 => ⟨S8x300, .f32⟩
  | 17 => ⟨S8x300, .f32⟩
  | 18 => ⟨S128x96, .f32⟩
  | 19 => ⟨S96, .f32⟩
  | 20 => ⟨S128x96, .f32⟩
  | 21 => ⟨S96, .f32⟩
  | 22 => ⟨S4096x300, .f32⟩
  | 23 => ⟨S1x300, .f32⟩
  | 24 => ⟨S4096x300, .f32⟩
  | 25 => ⟨S4096x300, .f32⟩
  | 26 => ⟨S_, .f32⟩
  | 27 => ⟨S300, .f32⟩
  | 28 => ⟨S_, .f32⟩
  | 29 => ⟨S300, .f32⟩
  | 30 => ⟨S300, .f32⟩
  | 31 => ⟨S_, .i32⟩
  | 32 => ⟨S_, .f32⟩
  | 33 => ⟨S300, .f32⟩
  | 34 => ⟨S1x300, .f32⟩
  | 35 => ⟨S_, .f32⟩
  | 36 => ⟨S1x300, .f32⟩
  | 37 => ⟨S1x300, .f32⟩
  | 38 => ⟨S4096x300, .f32⟩
  | 39 => ⟨S4096x300, .f32⟩
  | 40 => ⟨S4096x300, .f32⟩
  | 41 => ⟨S_, .f32⟩
  | 42 => ⟨S_, .f32⟩
  | 43 => ⟨S_, .f32⟩
  | 44 => ⟨S_, .f32⟩
  | 45 => ⟨S300, .f32⟩
  | 46 => ⟨S300, .f32⟩
  | 47 => ⟨S300, .f32⟩
  | 48 => ⟨S_, .f32⟩
  | 49 => ⟨S_, .i1⟩
  | 50 => ⟨S_, .f32⟩
  | 51 => ⟨S_, .f32⟩
  | 52 => ⟨S300, .f32⟩
  | 53 => ⟨S300, .f32⟩
  | 54 => ⟨S1x300, .f32⟩
  | 55 => ⟨S4096x300, .f32⟩
  | 56 => ⟨S4096x300, .f32⟩
  | 57 => ⟨S_, .f32⟩
  | 58 => ⟨S300, .f32⟩
  | 59 => ⟨S300, .f32⟩
  | 60 => ⟨S300, .f32⟩
  | 61 => ⟨S1x300, .f32⟩
  | 62 => ⟨S4096x300, .f32⟩
  | 63 => ⟨S4096x300, .f32⟩
  | 64 => ⟨S1x300, .f32⟩
  | 65 => ⟨S4096x300, .f32⟩
  | 66 => ⟨S4096x300, .f32⟩
  | 67 => ⟨S1x300, .f32⟩
  | 68 => ⟨S4096x300, .f32⟩
  | 69 => ⟨S4096x300, .f32⟩
  | 70 => ⟨S_, .f32⟩
  | 71 => ⟨S4096x300, .f32⟩
  | 72 => ⟨S4096x300, .f32⟩
  | 73 => ⟨S4096x300, .f32⟩
  | 74 => ⟨S1x300, .f32⟩
  | 75 => ⟨S4096x300, .f32⟩
  | 76 => ⟨S4096x300, .f32⟩
  | 77 => ⟨S4096x300, .f32⟩
  | 78 => ⟨S1x300, .f32⟩
  | 79 => ⟨S4096x300, .f32⟩
  | 80 => ⟨S4096x300, .f32⟩
  | 81 => ⟨S_, .f32⟩
  | 82 => ⟨S300, .f32⟩
  | 83 => ⟨S_, .f32⟩
  | 84 => ⟨S300, .f32⟩
  | 85 => ⟨S300, .f32⟩
  | 86 => ⟨S_, .i32⟩
  | 87 => ⟨S_, .f32⟩
  | 88 => ⟨S300, .f32⟩
  | 89 => ⟨S1x300, .f32⟩
  | 90 => ⟨S_, .f32⟩
  | 91 => ⟨S1x300, .f32⟩
  | 92 => ⟨S1x300, .f32⟩
  | 93 => ⟨S4096x300, .f32⟩
  | 94 => ⟨S4096x300, .f32⟩
  | 95 => ⟨S4096x300, .f32⟩
  | 96 => ⟨S_, .f32⟩
  | 97 => ⟨S_, .f32⟩
  | 98 => ⟨S_, .f32⟩
  | 99 => ⟨S_, .f32⟩
  | 100 => ⟨S300, .f32⟩
  | 101 => ⟨S300, .f32⟩
  | 102 => ⟨S300, .f32⟩
  | 103 => ⟨S_, .f32⟩
  | 104 => ⟨S_, .i1⟩
  | 105 => ⟨S_, .f32⟩
  | 106 => ⟨S_, .f32⟩
  | 107 => ⟨S300, .f32⟩
  | 108 => ⟨S300, .f32⟩
  | 109 => ⟨S1x300, .f32⟩
  | 110 => ⟨S4096x300, .f32⟩
  | 111 => ⟨S4096x300, .f32⟩
  | 112 => ⟨S_, .f32⟩
  | 113 => ⟨S300, .f32⟩
  | 114 => ⟨S300, .f32⟩
  | 115 => ⟨S300, .f32⟩
  | 116 => ⟨S1x300, .f32⟩
  | 117 => ⟨S4096x300, .f32⟩
  | 118 => ⟨S4096x300, .f32⟩
  | 119 => ⟨S1x300, .f32⟩
  | 120 => ⟨S4096x300, .f32⟩
  | 121 => ⟨S4096x300, .f32⟩
  | 122 => ⟨S1x300, .f32⟩
  | 123 => ⟨S4096x300, .f32⟩
  | 124 => ⟨S4096x300, .f32⟩
  | 125 => ⟨S_, .f32⟩
  | 126 => ⟨S4096x300, .f32⟩
  | 127 => ⟨S4096x300, .f32⟩
  | _ => ⟨S4096x128, .f32⟩

abbrev hbmTy0_1 (i : Nat) : BufTy := match i % 128 with
  | 0 => ⟨S4096x300, .f32⟩
  | 1 => ⟨S1x300, .f32⟩
  | 2 => ⟨S4096x300, .f32⟩
  | 3 => ⟨S4096x300, .f32⟩
  | 4 => ⟨S300x8, .f32⟩
  | 5 => ⟨S4096x8, .f32⟩
  | 6 => ⟨S_, .f32⟩
  | 7 => ⟨S4096x8, .f32⟩
  | 8 => ⟨S4096x8, .f32⟩
  | 9 => ⟨S_, .f32⟩
  | 10 => ⟨S4096, .f32⟩
  | 11 => ⟨S_, .f32⟩
  | 12 => ⟨S4096, .f32⟩
  | 13 => ⟨S4096, .f32⟩
  | 14 => ⟨S4096x1, .f32⟩
  | 15 => ⟨S4096x8, .f32⟩
  | 16 => ⟨S4096x8, .f32⟩
  | 17 => ⟨S4096x8, .f32⟩
  | 18 => ⟨S_, .f32⟩
  | 19 => ⟨S4096, .f32⟩
  | 20 => ⟨S4096x1, .f32⟩
  | 21 => ⟨S4096x8, .f32⟩
  | 22 => ⟨S4096x8, .f32⟩
  | 23 => ⟨S300x8, .f32⟩
  | 24 => ⟨S4096x8, .f32⟩
  | 25 => ⟨S_, .f32⟩
  | 26 => ⟨S4096x8, .f32⟩
  | 27 => ⟨S4096x8, .f32⟩
  | 28 => ⟨S_, .f32⟩
  | 29 => ⟨S4096, .f32⟩
  | 30 => ⟨S_, .f32⟩
  | 31 => ⟨S4096, .f32⟩
  | 32 => ⟨S4096, .f32⟩
  | 33 => ⟨S4096x1, .f32⟩
  | 34 => ⟨S4096x8, .f32⟩
  | 35 => ⟨S4096x8, .f32⟩
  | 36 => ⟨S4096x8, .f32⟩
  | 37 => ⟨S_, .f32⟩
  | 38 => ⟨S4096, .f32⟩
  | 39 => ⟨S4096x1, .f32⟩
  | 40 => ⟨S4096x8, .f32⟩
  | 41 => ⟨S4096x8, .f32⟩
  | 42 => ⟨S4096x128x1, .f32⟩
  | 43 => ⟨S4096x128x96, .f32⟩
  | 44 => ⟨S1x128x96, .f32⟩
  | 45 => ⟨S4096x128x96, .f32⟩
  | 46 => ⟨S4096x128x96, .f32⟩
  | 47 => ⟨S_, .f32⟩
  | 48 => ⟨S4096x96, .f32⟩
  | 49 => ⟨S1x96, .f32⟩
  | 50 => ⟨S4096x96, .f32⟩
  | 51 => ⟨S4096x96, .f32⟩
  | 52 => ⟨S4096x8x12, .f32⟩
  | 53 => ⟨S4096x8x1, .f32⟩
  | 54 => ⟨S4096x8x12, .f32⟩
  | 55 => ⟨S4096x8x12, .f32⟩
  | 56 => ⟨S_, .f32⟩
  | 57 => ⟨S4096x12, .f32⟩
  | 58 => ⟨S4096x128x1, .f32⟩
  | 59 => ⟨S4096x128x96, .f32⟩
  | 60 => ⟨S1x128x96, .f32⟩
  | 61 => ⟨S4096x128x96, .f32⟩
  | 62 => ⟨S4096x128x96, .f32⟩
  | 63 => ⟨S_, .f32⟩
  | 64 => ⟨S4096x96, .f32⟩
  | 65 => ⟨S1x96, .f32⟩
  | 66 => ⟨S4096x96, .f32⟩
  | 67 => ⟨S4096x96, .f32⟩
  | 68 => ⟨S4096x8x12, .f32⟩
  | 69 => ⟨S4096x8x1, .f32⟩
  | 70 => ⟨S4096x8x12, .f32⟩
  | 71 => ⟨S4096x8x12, .f32⟩
  | 72 => ⟨S_, .f32⟩
  | 73 => ⟨S4096x12, .f32⟩
  | 74 => ⟨S4096x12, .f32⟩
  | 75 => ⟨S_, .f32⟩
  | 76 => ⟨S4096x12, .f32⟩
  | 77 => ⟨S4096x12, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_cst_3 : Ref sig .tc := ⟨.hbm, 48, rfl⟩
abbrev main_call0_v12 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_cst_1 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_call1_cst : Ref sig .tc := ⟨.hbm, 70, rfl⟩
abbrev main_call1_v0 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst_2 : Ref sig .tc := ⟨.hbm, 81, rfl⟩
abbrev main_v32 : Ref sig .tc := ⟨.hbm, 82, rfl⟩
abbrev main_cst_3 : Ref sig .tc := ⟨.hbm, 83, rfl⟩
abbrev main_v33 : Ref sig .tc := ⟨.hbm, 84, rfl⟩
abbrev main_v34 : Ref sig .tc := ⟨.hbm, 85, rfl⟩
abbrev main_c_4 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_cst_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_cst_1 : Ref sig .tc := ⟨.hbm, 97, rfl⟩
abbrev main_call2_v8 : Ref sig .tc := ⟨.hbm, 98, rfl⟩
abbrev main_call2_cst_2 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_cst_3 : Ref sig .tc := ⟨.hbm, 103, rfl⟩
abbrev main_call2_v12 : Ref sig .tc := ⟨.hbm, 104, rfl⟩
abbrev main_call2_cst_4 : Ref sig .tc := ⟨.hbm, 105, rfl⟩
abbrev main_call2_call0_v0 : Ref sig .tc := ⟨.hbm, 106, rfl⟩
abbrev main_call2_call0_v1 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_cst_5 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_call3_cst : Ref sig .tc := ⟨.hbm, 125, rfl⟩
abbrev main_call3_v0 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_cst_6 : Ref sig .tc := ⟨.hbm, 134, rfl⟩
abbrev main_v58 : Ref sig .tc := ⟨.hbm, 135, rfl⟩
abbrev main_v59 : Ref sig .tc := ⟨.hbm, 136, rfl⟩
abbrev main_cst_7 : Ref sig .tc := ⟨.hbm, 137, rfl⟩
abbrev main_v60 : Ref sig .tc := ⟨.hbm, 138, rfl⟩
abbrev main_cst_8 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_cst_9 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_cst_10 : Ref sig .tc := ⟨.hbm, 153, rfl⟩
abbrev main_v73 : Ref sig .tc := ⟨.hbm, 154, rfl⟩
abbrev main_v74 : Ref sig .tc := ⟨.hbm, 155, rfl⟩
abbrev main_cst_11 : Ref sig .tc := ⟨.hbm, 156, rfl⟩
abbrev main_v75 : Ref sig .tc := ⟨.hbm, 157, rfl⟩
abbrev main_cst_12 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_cst_13 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_cst_14 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_cst_15 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_cst_16 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_cst_17 : Ref sig .tc := ⟨.hbm, 200, rfl⟩
abbrev main_v113 : Ref sig .tc := ⟨.hbm, 201, rfl⟩
abbrev main_v114 : Ref sig .tc := ⟨.hbm, 202, rfl⟩
abbrev main_cst_18 : Ref sig .tc := ⟨.hbm, 203, rfl⟩
abbrev main_v115 : Ref sig .tc := ⟨.hbm, 204, rfl⟩
abbrev main_v116 : Ref sig .tc := ⟨.hbm, 205, rfl⟩

abbrev nD : Nat := 1
abbrev τ : Topo := Topo.v7x

variable {F : FTy → Type} [FloatOps F]

class Facts₀ : Prop where
  bcast_S300_S1x300_1 : S300.BroadcastsInDim S1x300 (![1] : Fin 1 → Fin S1x300.rank)
  bcast_S1x300_S4096x300_0_1 : S1x300.BroadcastsInDim S4096x300 (![0, 1] : Fin 2 → Fin S4096x300.rank)
  reducesTo_S4096x300_S300_d0 : S4096x300.ReducesTo [0] S300
  h_S_ : 0 < S_.numel
  bcast_S_S300 : S_.BroadcastsInDim S300 (![] : Fin 0 → Fin S300.rank)
  bcast_S_S1x300 : S_.BroadcastsInDim S1x300 (![] : Fin 0 → Fin S1x300.rank)
  bcast_S_S4096x300 : S_.BroadcastsInDim S4096x300 (![] : Fin 0 → Fin S4096x300.rank)
  transposes_S8x300_S300x8_1_0 : S8x300.Transposes [1, 0] S300x8
  bcast_S_S4096x8 : S_.BroadcastsInDim S4096x8 (![] : Fin 0 → Fin S4096x8.rank)
  reducesTo_S4096x8_S4096_d1 : S4096x8.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x8_0_1 : S4096x1.BroadcastsInDim S4096x8 (![0, 1] : Fin 2 → Fin S4096x8.rank)
  bcast_S4096x128_S4096x128x1_0_1 : S4096x128.BroadcastsInDim S4096x128x1 (![0, 1] : Fin 2 → Fin S4096x128x1.rank)
  bcast_S4096x128x1_S4096x128x96_0_1_2 : S4096x128x1.BroadcastsInDim S4096x128x96 (![0, 1, 2] : Fin 3 → Fin S4096x128x96.rank)
  bcast_S128x96_S1x128x96_1_2 : S128x96.BroadcastsInDim S1x128x96 (![1, 2] : Fin 2 → Fin S1x128x96.rank)
  bcast_S1x128x96_S4096x128x96_0_1_2 : S1x128x96.BroadcastsInDim S4096x128x96 (![0, 1, 2] : Fin 3 → Fin S4096x128x96.rank)
  reducesTo_S4096x128x96_S4096x96_d1 : S4096x128x96.ReducesTo [1] S4096x96
  bcast_S96_S1x96_1 : S96.BroadcastsInDim S1x96 (![1] : Fin 1 → Fin S1x96.rank)
  bcast_S1x96_S4096x96_0_1 : S1x96.BroadcastsInDim S4096x96 (![0, 1] : Fin 2 → Fin S4096x96.rank)
  shapeCasts_S4096x96_S4096x8x12 : S4096x96.ShapeCasts S4096x8x12
  bcast_S4096x8_S4096x8x1_0_1 : S4096x8.BroadcastsInDim S4096x8x1 (![0, 1] : Fin 2 → Fin S4096x8x1.rank)
  bcast_S4096x8x1_S4096x8x12_0_1_2 : S4096x8x1.BroadcastsInDim S4096x8x12 (![0, 1, 2] : Fin 3 → Fin S4096x8x12.rank)
  reducesTo_S4096x8x12_S4096x12_d1 : S4096x8x12.ReducesTo [1] S4096x12
  bcast_S_S4096x12 : S_.BroadcastsInDim S4096x12 (![] : Fin 0 → Fin S4096x12.rank)
  dot_S4096x128_S128x300_S4096x300_1_0_0_1_n_n_wf : DotDims.WF S4096x128 S128x300 S4096x300 [1] [0] [0] [1] [] []
  dot_S4096x300_S300x300_S4096x300_1_0_0_1_n_n_wf : DotDims.WF S4096x300 S300x300 S4096x300 [1] [0] [0] [1] [] []
  dot_S4096x300_S300x8_S4096x8_1_0_0_1_n_n_wf : DotDims.WF S4096x300 S300x8 S4096x8 [1] [0] [0] [1] [] []

variable [Facts₀]

def dot_S4096x128_S128x300_S4096x300_1_0_0_1_n_n : DotDims S4096x128 S128x300 S4096x300 where
  lhsContracting := [1]
  rhsContracting := [0]
  lhsNonContracting := [0]
  rhsNonContracting := [1]
  lhsBatch := []
  rhsBatch := []
  wf := dot_S4096x128_S128x300_S4096x300_1_0_0_1_n_n_wf
def dot_S4096x300_S300x300_S4096x300_1_0_0_1_n_n : DotDims S4096x300 S300x300 S4096x300 where
  lhsContracting := [1]
  rhsContracting := [0]
  lhsNonContracting := [0]
  rhsNonContracting := [1]
  lhsBatch := []
  rhsBatch := []
  wf := dot_S4096x300_S300x300_S4096x300_1_0_0_1_n_n_wf
def dot_S4096x300_S300x8_S4096x8_1_0_0_1_n_n : DotDims S4096x300 S300x8 S4096x8 where
  lhsContracting := [1]
  rhsContracting := [0]
  lhsNonContracting := [0]
  rhsNonContracting := [1]
  lhsBatch := []
  rhsBatch := []
  wf := dot_S4096x300_S300x8_S4096x8_1_0_0_1_n_n_wf

class Facts : Prop extends Facts₀ where

variable [Facts]
-- ==== Proof.KernelValue.lean ====
/-
  The value the program computes, as one function of its argument arrays.

  The program launches one body at a single grid point. Each of its 25 windows is the whole of its array: windows 0 to 21
  stage the 22 arguments, windows 22 and 23 stage two constant matrices that the operations before the launch build from
  iotas and comparisons (an 8 × 8 identity with every entry repeated along twelve columns, and a 12 × 12 identity stacked
  eight times), and window 24 is the 4096 × 12 result. The body loads every input whole, computes, and stores the result
  whole, so the result array after the run is the store's payload applied to the input arrays: `pay`. Nothing here looks
  inside the payloads; the arithmetic they stand for is read elsewhere.
-/
import proofs.«150749_g69896297775690_cont_9to1c4b_828_3_alg».proof.Proof.Gen.KernelIdeal.Value
import Idealize.ShloMosaic.Lib.Pipeline.Value
import Idealize.ShloMosaic.Lib.StableHlo.Run

noncomputable section

namespace Cert.KernelIdeal.KVal

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The two matrices the host operations build before the region -/

/-- The 8 × 96 matrix with a one at (h, 12 h' + d) exactly when h = h': the 8 × 8 identity, each entry repeated along
    twelve columns. -/
def expandMat : FVec F S8x96 .f32 :=
  shapeCast S8x96
    (broadcastInDim (s := S8x8) S8x8x12 ![0, 1] Gen.bcast_S8x8_S8x8x12_0_1
      (uitofp .f32 (cmpi .eq (addi (iotaInDim S8x8 32 0) (broadcastInDim (s := S_) S8x8 ![] Gen.bcast_S_S8x8 (constantI S_ 32 0#32))) (iotaInDim S8x8 32 1))))
    Gen.shapeCasts_S8x8x12_S8x96

/-- The 96 × 12 matrix with a one at (12 h + d, d') exactly when d = d': the 12 × 12 identity stacked eight times. -/
def gatherMat : FVec F S96x12 .f32 :=
  shapeCast S96x12
    (broadcastInDim (s := S1x12x1x12) S8x12x1x12 ![0, 1, 2, 3] Gen.bcast_S1x12x1x12_S8x12x1x12_0_1_2_3
      (shapeCast S1x12x1x12
        (uitofp .f32 (cmpi .eq (addi (iotaInDim S12x12 32 0) (broadcastInDim (s := S_) S12x12 ![] Gen.bcast_S_S12x12 (constantI S_ 32 0#32))) (iotaInDim S12x12 32 1)))
        Gen.shapeCasts_S12x12_S1x12x1x12))
    Gen.shapeCasts_S8x12x1x12_S96x12

/-- The region finds the first of them in the array its window 22 stages. -/
theorem V_main_v7 (c : Dev nD) : (V m c main_v7 : S8x96.Idx → F .f32) = expandMat := by
  dsimp only [Gen.V, Gen.hostOps0]; after_results; rfl

/-- The region finds the second in the array its window 23 stages. -/
theorem V_main_v16 (c : Dev nD) : (V m c main_v16 : S96x12.Idx → F .f32) = gatherMat := by
  dsimp only [Gen.V, Gen.hostOps0]; after_results; rfl

/-! ## The body's one store as a function of the 24 whole arrays -/

/-- The value the body stores, as a function of the arrays its 24 input windows stage (`xw` is window `w`'s array):
    the store's payload over the six payloads it is built from. -/
def pay (x0 : Vec F S4096x128 .f32) (x1 : Vec F S4096x128 .f32) (x2 : Vec F S4096x128 .f32) (x3 : Vec F S4096x128 .f32) (x4 : Vec F S128x300 .f32) (x5 : Vec F S300 .f32) (x6 : Vec F S300 .f32) (x7 : Vec F S300 .f32) (x8 : Vec F S300x300 .f32) (x9 : Vec F S300 .f32) (x10 : Vec F S128x300 .f32) (x11 : Vec F S300 .f32) (x12 : Vec F S300 .f32) (x13 : Vec F S300 .f32) (x14 : Vec F S300x300 .f32) (x15 : Vec F S300 .f32) (x16 : Vec F S8x300 .f32) (x17 : Vec F S8x300 .f32) (x18 : Vec F S128x96 .f32) (x19 : Vec F S96 .f32) (x20 : Vec F S128x96 .f32) (x21 : Vec F S96 .f32) (x22 : Vec F S8x96 .f32) (x23 : Vec F S96x12 .f32) : FVec F S4096x12 .f32 :=
  k0_pay1 (k0_pay4 x2 x8 x9 x16 x18 x19 (k0_pay2 x0 x4 x5 x6) (k0_pay3 x7) x22 x23) x3 x20 x21 (k0_pay5 x1 x10 x11 x12 x13 x14 x15 x17) (k0_pay6 x1 x10 x11 x12 x13 x14 x15 x17) x22 x23

theorem zero2 : (![0, 0] : Fin 2 → Nat) = fun _ => 0 := funext fun a => by fin_cases a <;> rfl
theorem zero1 : (![0] : Fin 1 → Nat) = fun _ => 0 := funext fun a => by fin_cases a; rfl

/-! ## Every block is its whole array -/

/-- Window 0's block at the one grid point is the whole of its array. -/
theorem blk0 (c : Dev nD) (t : Fin cfg0.N) : (iblk m c 0 t : Vec F S4096x128 .f32) = V m c main_arg2 := by
  funext y
  show V m c main_arg2 (((cfg0.win 0).blk t).view.emb y) = V m c main_arg2 y
  refine congrArg (V m c main_arg2) ?_
  funext a; apply Fin.ext
  match a with
  | ⟨0, _⟩ => show win0_0.index t (0 : Fin 2) * 4096 + 1 * (y 0).val = (y 0).val; show 0 * 4096 + 1 * (y 0).val = (y 0).val; omega
  | ⟨1, _⟩ => show win0_0.index t (1 : Fin 2) * 128 + 1 * (y 1).val = (y 1).val; show 0 * 128 + 1 * (y 1).val = (y 1).val; omega

/-- Window 1's block at the one grid point is the whole of its array. -/
theorem blk1 (c : Dev nD) (t : Fin cfg0.N) : (iblk m c 1 t : Vec F S4096x128 .f32) = V m c main_arg3 := by
  funext y
  show V m c main_arg3 (((cfg0.win 1).blk t).view.emb y) = V m c main_arg3 y
  refine congrArg (V m c main_arg3) ?_
  funext a; apply Fin.ext
  match a with
  | ⟨0, _⟩ => show win0_1.index t (0 : Fin 2) * 4096 + 1 * (y 0).val = (y 0).val; show 0 * 4096 + 1 * (y 0).val = (y 0).val; omega
  | ⟨1, _⟩ => show win0_1.index t (1 : Fin 2) * 128 + 1 * (y 1).val = (y 1).val; show 0 * 128 + 1 * (y 1).val = (y 1).val; omega

/-- Window 2's block at the one grid point is the whole of its array. -/
theorem blk2 (c : Dev nD) (t : Fin cfg0.N) : (iblk m c 2 t : Vec F S4096x128 .f32) = V m c main_arg0 := by
  funext y
  show V m c main_arg0 (((cfg0.win 2).blk t).view.emb y) = V m c main_arg0 y
  refine congrArg (V m c main_arg0) ?_
  funext a; apply Fin.ext
  match a with
  | ⟨0, _⟩ => show win0_2.index t (0 : Fin 2) * 4096 + 1 * (y 0).val = (y 0).val; show 0 * 4096 + 1 * (y 0).val = (y 0).val; omega
  | ⟨1, _⟩ => show win0_2.index t (1 : Fin 2) * 128 + 1 * (y 1).val = (y 1).val; show 0 * 128 + 1 * (y 1).val = (y 1).val; omega

/-- Window 3's block at the one grid point is the whole of its array. -/
theorem blk3 (c : Dev nD) (t : Fin cfg0.N) : (iblk m c 3 t : Vec F S4096x128 .f32) = V m c main_arg1 := by
  funext y
  show V m c main_arg1 (((cfg0.win 3).blk t).view.emb y) = V m c main_arg1 y
  refine congrArg (V m c main_arg1) ?_
  funext a; apply Fin.ext
  match a with
  | ⟨0, _⟩ => show win0_3.index t (0 : Fin 2) * 4096 + 1 * (y 0).val = (y 0).val; show 0 * 4096 + 1 * (y 0).val = (y 0).val; omega
  | ⟨1, _⟩ => show win0_3.index t (1 : Fin 2) * 128 + 1 * (y 1).val = (y 1).val; show 0 * 128 + 1 * (y 1).val = (y 1).val; omega

/-- Window 4's block at the one grid point is the whole of its array. -/
theorem blk4 (c : Dev nD) (t : Fin cfg0.N) : (iblk m c 4 t : Vec F S128x300 .f32) = V m c main_arg4 := by
  funext y
  show V m c main_arg4 (((cfg0.win 4).blk t).view.emb y) = V m c main_arg4 y
  refine congrArg (V m c main_arg4) ?_
  funext a; apply Fin.ext
  match a with
  | ⟨0, _⟩ => show win0_4.index t (0 : Fin 2) * 128 + 1 * (y 0).val = (y 0).val; show 0 * 128 + 1 * (y 0).val = (y 0).val; omega
  | ⟨1, _⟩ => show win0_4.index t (1 : Fin 2) * 300 + 1 * (y 1).val = (y 1).val; show 0 * 300 + 1 * (y 1).val = (y 1).val; omega

/-- Window 5's block at the one grid point is the whole of its array. -/
theorem blk5 (c : Dev nD) (t : Fin cfg0.N) : (iblk m c 5 t : Vec F S300 .f32) = V m c main_arg5 := by
  funext y
  show V m c main_arg5 (((cfg0.win 5).blk t).view.emb y) = V m c main_arg5 y
  refine congrArg (V m c main_arg5) ?_
  funext a; apply Fin.ext
  match a with
  | ⟨0, _⟩ => show win0_5.index t (0 : Fin 1) * 300 + 1 * (y 0).val = (y 0).val; show 0 * 300 + 1 * (y 0).val = (y 0).val; omega

/-- Window 6's block at the one grid point is the whole of its array. -/
theorem blk6 (c : Dev nD) (t : Fin cfg0.N) : (iblk m c 6 t : Vec F S300 .f32) = V m c main_arg6 := by
  funext y
  show V m c main_arg6 (((cfg0.win 6).blk t).view.emb y) = V m c main_arg6 y
  refine congrArg (V m c main_arg6) ?_
  funext a; apply Fin.ext
  match a with
  | ⟨0, _⟩ => show win0_6.index t (0 : Fin 1) * 300 + 1 * (y 0).val = (y 0).val; show 0 * 300 + 1 * (y 0).val = (y 0).val; omega

/-- Window 7's block at the one grid point is the whole of its array. -/
theorem blk7 (c : Dev nD) (t : Fin cfg0.N) : (iblk m c 7 t : Vec F S300 .f32) = V m c main_arg7 := by
  funext y
  show V m c main_arg7 (((cfg0.win 7).blk t).view.emb y) = V m c main_arg7 y
  refine congrArg (V m c main_arg7) ?_
  funext a; apply Fin.ext
  match a with
  | ⟨0, _⟩ => show win0_7.index t (0 : Fin 1) * 300 + 1 * (y 0).val = (y 0).val; show 0 * 300 + 1 * (y 0).val = (y 0).val; omega

/-- Window 8's block at the one grid point is the whole of its array. -/
theorem blk8 (c : Dev nD) (t : Fin cfg0.N) : (iblk m c 8 t : Vec F S300x300 .f32) = V m c main_arg8 := by
  funext y
  show V m c main_arg8 (((cfg0.win 8).blk t).view.emb y) = V m c main_arg8 y
  refine congrArg (V m c main_arg8) ?_
  funext a; apply Fin.ext
  match a with
  | ⟨0, _⟩ => show win0_8.index t (0 : Fin 2) * 300 + 1 * (y 0).val = (y 0).val; show 0 * 300 + 1 * (y 0).val = (y 0).val; omega
  | ⟨1, _⟩ => show win0_8.index t (1 : Fin 2) * 300 + 1 * (y 1).val = (y 1).val; show 0 * 300 + 1 * (y 1).val = (y 1).val; omega

/-- Window 9's block at the one grid point is the whole of its array. -/
theorem blk9 (c : Dev nD) (t : Fin cfg0.N) : (iblk m c 9 t : Vec F S300 .f32) = V m c main_arg9 := by
  funext y
  show V m c main_arg9 (((cfg0.win 9).blk t).view.emb y) = V m c main_arg9 y
  refine congrArg (V m c main_arg9) ?_
  funext a; apply Fin.ext
  match a with
  | ⟨0, _⟩ => show win0_9.index t (0 : Fin 1) * 300 + 1 * (y 0).val = (y 0).val; show 0 * 300 + 1 * (y 0).val = (y 0).val; omega

/-- Window 10's block at the one grid point is the whole of its array. -/
theorem blk10 (c : Dev nD) (t : Fin cfg0.N) : (iblk m c 10 t : Vec F S128x300 .f32) = V m c main_arg10 := by
  funext y
  show V m c main_arg10 (((cfg0.win 10).blk t).view.emb y) = V m c main_arg10 y
  refine congrArg (V m c main_arg10) ?_
  funext a; apply Fin.ext
  match a with
  | ⟨0, _⟩ => show win0_10.index t (0 : Fin 2) * 128 + 1 * (y 0).val = (y 0).val; show 0 * 128 + 1 * (y 0).val = (y 0).val; omega
  | ⟨1, _⟩ => show win0_10.index t (1 : Fin 2) * 300 + 1 * (y 1).val = (y 1).val; show 0 * 300 + 1 * (y 1).val = (y 1).val; omega

/-- Window 11's block at the one grid point is the whole of its array. -/
theorem blk11 (c : Dev nD) (t : Fin cfg0.N) : (iblk m c 11 t : Vec F S300 .f32) = V m c main_arg11 := by
  funext y
  show V m c main_arg11 (((cfg0.win 11).blk t).view.emb y) = V m c main_arg11 y
  refine congrArg (V m c main_arg11) ?_
  funext a; apply Fin.ext
  match a with
  | ⟨0, _⟩ => show win0_11.index t (0 : Fin 1) * 300 + 1 * (y 0).val = (y 0).val; show 0 * 300 + 1 * (y 0).val = (y 0).val; omega

/-- Window 12's block at the one grid point is the whole of its array. -/
theorem blk12 (c : Dev nD) (t : Fin cfg0.N) : (iblk m c 12 t : Vec F S300 .f32) = V m c main_arg12 := by
  funext y
  show V m c main_arg12 (((cfg0.win 12).blk t).view.emb y) = V m c main_arg12 y
  refine congrArg (V m c main_arg12) ?_
  funext a; apply Fin.ext
  match a with
  | ⟨0, _⟩ => show win0_12.index t (0 : Fin 1) * 300 + 1 * (y 0).val = (y 0).val; show 0 * 300 + 1 * (y 0).val = (y 0).val; omega

/-- Window 13's block at the one grid point is the whole of its array. -/
theorem blk13 (c : Dev nD) (t : Fin cfg0.N) : (iblk m c 13 t : Vec F S300 .f32) = V m c main_arg13 := by
  funext y
  show V m c main_arg13 (((cfg0.win 13).blk t).view.emb y) = V m c main_arg13 y
  refine congrArg (V m c main_arg13) ?_
  funext a; apply Fin.ext
  match a with
  | ⟨0, _⟩ => show win0_13.index t (0 : Fin 1) * 300 + 1 * (y 0).val = (y 0).val; show 0 * 300 + 1 * (y 0).val = (y 0).val; omega

/-- Window 14's block at the one grid point is the whole of its array. -/
theorem blk14 (c : Dev nD) (t : Fin cfg0.N) : (iblk m c 14 t : Vec F S300x300 .f32) = V m c main_arg14 := by
  funext y
  show V m c main_arg14 (((cfg0.win 14).blk t).view.emb y) = V m c main_arg14 y
  refine congrArg (V m c main_arg14) ?_
  funext a; apply Fin.ext
  match a with
  | ⟨0, _⟩ => show win0_14.index t (0 : Fin 2) * 300 + 1 * (y 0).val = (y 0).val; show 0 * 300 + 1 * (y 0).val = (y 0).val; omega
  | ⟨1, _⟩ => show win0_14.index t (1 : Fin 2) * 300 + 1 * (y 1).val = (y 1).val; show 0 * 300 + 1 * (y 1).val = (y 1).val; omega

/-- Window 15's block at the one grid point is the whole of its array. -/
theorem blk15 (c : Dev nD) (t : Fin cfg0.N) : (iblk m c 15 t : Vec F S300 .f32) = V m c main_arg15 := by
  funext y
  show V m c main_arg15 (((cfg0.win 15).blk t).view.emb y) = V m c main_arg15 y
  refine congrArg (V m c main_arg15) ?_
  funext a; apply Fin.ext
  match a with
  | ⟨0, _⟩ => show win0_15.index t (0 : Fin 1) * 300 + 1 * (y 0).val = (y 0).val; show 0 * 300 + 1 * (y 0).val = (y 0).val; omega

/-- Window 16's block at the one grid point is the whole of its array. -/
theorem blk16 (c : Dev nD) (t : Fin cfg0.N) : (iblk m c 16 t : Vec F S8x300 .f32) = V m c main_arg16 := by
  funext y
  show V m c main_arg16 (((cfg0.win 16).blk t).view.emb y) = V m c main_arg16 y
  refine congrArg (V m c main_arg16) ?_
  funext a; apply Fin.ext
  match a with
  | ⟨0, _⟩ => show win0_16.index t (0 : Fin 2) * 8 + 1 * (y 0).val = (y 0).val; show 0 * 8 + 1 * (y 0).val = (y 0).val; omega
  | ⟨1, _⟩ => show win0_16.index t (1 : Fin 2) * 300 + 1 * (y 1).val = (y 1).val; show 0 * 300 + 1 * (y 1).val = (y 1).val; omega

/-- Window 17's block at the one grid point is the whole of its array. -/
theorem blk17 (c : Dev nD) (t : Fin cfg0.N) : (iblk m c 17 t : Vec F S8x300 .f32) = V m c main_arg17 := by
  funext y
  show V m c main_arg17 (((cfg0.win 17).blk t).view.emb y) = V m c main_arg17 y
  refine congrArg (V m c main_arg17) ?_
  funext a; apply Fin.ext
  match a with
  | ⟨0, _⟩ => show win0_17.index t (0 : Fin 2) * 8 + 1 * (y 0).val = (y 0).val; show 0 * 8 + 1 * (y 0).val = (y 0).val; omega
  | ⟨1, _⟩ => show win0_17.index t (1 : Fin 2) * 300 + 1 * (y 1).val = (y 1).val; show 0 * 300 + 1 * (y 1).val = (y 1).val; omega

/-- Window 18's block at the one grid point is the whole of its array. -/
theorem blk18 (c : Dev nD) (t : Fin cfg0.N) : (iblk m c 18 t : Vec F S128x96 .f32) = V m c main_arg18 := by
  funext y
  show V m c main_arg18 (((cfg0.win 18).blk t).view.emb y) = V m c main_arg18 y
  refine congrArg (V m c main_arg18) ?_
  funext a; apply Fin.ext
  match a with
  | ⟨0, _⟩ => show win0_18.index t (0 : Fin 2) * 128 + 1 * (y 0).val = (y 0).val; show 0 * 128 + 1 * (y 0).val = (y 0).val; omega
  | ⟨1, _⟩ => show win0_18.index t (1 : Fin 2) * 96 + 1 * (y 1).val = (y 1).val; show 0 * 96 + 1 * (y 1).val = (y 1).val; omega

/-- Window 19's block at the one grid point is the whole of its array. -/
theorem blk19 (c : Dev nD) (t : Fin cfg0.N) : (iblk m c 19 t : Vec F S96 .f32) = V m c main_arg19 := by
  funext y
  show V m c main_arg19 (((cfg0.win 19).blk t).view.emb y) = V m c main_arg19 y
  refine congrArg (V m c main_arg19) ?_
  funext a; apply Fin.ext
  match a with
  | ⟨0, _⟩ => show win0_19.index t (0 : Fin 1) * 96 + 1 * (y 0).val = (y 0).val; show 0 * 96 + 1 * (y 0).val = (y 0).val; omega

/-- Window 20's block at the one grid point is the whole of its array. -/
theorem blk20 (c : Dev nD) (t : Fin cfg0.N) : (iblk m c 20 t : Vec F S128x96 .f32) = V m c main_arg20 := by
  funext y
  show V m c main_arg20 (((cfg0.win 20).blk t).view.emb y) = V m c main_arg20 y
  refine congrArg (V m c main_arg20) ?_
  funext a; apply Fin.ext
  match a with
  | ⟨0, _⟩ => show win0_20.index t (0 : Fin 2) * 128 + 1 * (y 0).val = (y 0).val; show 0 * 128 + 1 * (y 0).val = (y 0).val; omega
  | ⟨1, _⟩ => show win0_20.index t (1 : Fin 2) * 96 + 1 * (y 1).val = (y 1).val; show 0 * 96 + 1 * (y 1).val = (y 1).val; omega

/-- Window 21's block at the one grid point is the whole of its array. -/
theorem blk21 (c : Dev nD) (t : Fin cfg0.N) : (iblk m c 21 t : Vec F S96 .f32) = V m c main_arg21 := by
  funext y
  show V m c main_arg21 (((cfg0.win 21).blk t).view.emb y) = V m c main_arg21 y
  refine congrArg (V m c main_arg21) ?_
  funext a; apply Fin.ext
  match a with
  | ⟨0, _⟩ => show win0_21.index t (0 : Fin 1) * 96 + 1 * (y 0).val = (y 0).val; show 0 * 96 + 1 * (y 0).val = (y 0).val; omega

/-- Window 22's block at the one grid point is the whole of its array. -/
theorem blk22 (c : Dev nD) (t : Fin cfg0.N) : (iblk m c 22 t : Vec F S8x96 .f32) = V m c main_v7 := by
  funext y
  show V m c main_v7 (((cfg0.win 22).blk t).view.emb y) = V m c main_v7 y
  refine congrArg (V m c main_v7) ?_
  funext a; apply Fin.ext
  match a with
  | ⟨0, _⟩ => show win0_22.index t (0 : Fin 2) * 8 + 1 * (y 0).val = (y 0).val; show 0 * 8 + 1 * (y 0).val = (y 0).val; omega
  | ⟨1, _⟩ => show win0_22.index t (1 : Fin 2) * 96 + 1 * (y 1).val = (y 1).val; show 0 * 96 + 1 * (y 1).val = (y 1).val; omega

/-- Window 23's block at the one grid point is the whole of its array. -/
theorem blk23 (c : Dev nD) (t : Fin cfg0.N) : (iblk m c 23 t : Vec F S96x12 .f32) = V m c main_v16 := by
  funext y
  show V m c main_v16 (((cfg0.win 23).blk t).view.emb y) = V m c main_v16 y
  refine congrArg (V m c main_v16) ?_
  funext a; apply Fin.ext
  match a with
  | ⟨0, _⟩ => show win0_23.index t (0 : Fin 2) * 96 + 1 * (y 0).val = (y 0).val; show 0 * 96 + 1 * (y 0).val = (y 0).val; omega
  | ⟨1, _⟩ => show win0_23.index t (1 : Fin 2) * 12 + 1 * (y 1).val = (y 1).val; show 0 * 12 + 1 * (y 1).val = (y 1).val; omega

/-- The output window's block, written back, lands on the whole of its array: what is cut from the staging buffer and
    what the block reads of an array are the same function. -/
theorem out_whole (t : Fin cfg0.N) (P : Vec F S4096x12 .f32) :
    (cfg0.win 24).cut (grid0.coords t) P = ((cfg0.win 24).blk t).view.read (Elt F) P := by
  funext j
  show P ((cfg0.win 24).xinj (grid0.coords t) j) = P (((cfg0.win 24).blk t).view.emb j)
  refine congrArg P ?_
  funext a; apply Fin.ext
  match a with
  | ⟨0, _⟩ => show (j 0).val = win0_24.index t (0 : Fin 2) * 4096 + 1 * (j 0).val; show (j 0).val = 0 * 4096 + 1 * (j 0).val; omega
  | ⟨1, _⟩ => show (j 1).val = win0_24.index t (1 : Fin 2) * 12 + 1 * (j 1).val; show (j 1).val = 0 * 12 + 1 * (j 1).val; omega

/-- The body's one store covers its buffer, and every load reads a whole buffer: what the body leaves is `pay` of the
    buffers' contents. -/
theorem out_eq (x0 : Vec F S4096x128 .f32) (x1 : Vec F S4096x128 .f32) (x2 : Vec F S4096x128 .f32) (x3 : Vec F S4096x128 .f32) (x4 : Vec F S128x300 .f32) (x5 : Vec F S300 .f32) (x6 : Vec F S300 .f32) (x7 : Vec F S300 .f32) (x8 : Vec F S300x300 .f32) (x9 : Vec F S300 .f32) (x10 : Vec F S128x300 .f32) (x11 : Vec F S300 .f32) (x12 : Vec F S300 .f32) (x13 : Vec F S300 .f32) (x14 : Vec F S300x300 .f32) (x15 : Vec F S300 .f32) (x16 : Vec F S8x300 .f32) (x17 : Vec F S8x300 .f32) (x18 : Vec F S128x96 .f32) (x19 : Vec F S96 .f32) (x20 : Vec F S128x96 .f32) (x21 : Vec F S96 .f32) (x22 : Vec F S8x96 .f32) (x23 : Vec F S96x12 .f32) :
    out0_24 x0 x1 x2 x3 x4 x5 x6 x7 x8 x9 x10 x11 x12 x13 x14 x15 x16 x17 x18 x19 x20 x21 x22 x23 = pay x0 x1 x2 x3 x4 x5 x6 x7 x8 x9 x10 x11 x12 x13 x14 x15 x16 x17 x18 x19 x20 x21 x22 x23 := by
  unfold Gen.out0_24 pay
  rw [View.canon_unit_zero zero2]
  simp only [View.ld_unit_zero (S := S4096x128) zero2, View.ld_unit_zero (S := S128x300) zero2, View.ld_unit_zero (S := S300) zero1, View.ld_unit_zero (S := S300x300) zero2, View.ld_unit_zero (S := S8x300) zero2, View.ld_unit_zero (S := S128x96) zero2, View.ld_unit_zero (S := S96) zero1, View.ld_unit_zero (S := S8x96) zero2, View.ld_unit_zero (S := S96x12) zero2]

/-- `pay` respects equality of its arguments. -/
theorem pay_congr {x0 y0 x1 y1 x2 y2 x3 y3 x4 y4 x5 y5 x6 y6 x7 y7 x8 y8 x9 y9 x10 y10 x11 y11 x12 y12 x13 y13 x14 y14 x15 y15 x16 y16 x17 y17 x18 y18 x19 y19 x20 y20 x21 y21 x22 y22 x23 y23 : _} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) :
    (pay x0 x1 x2 x3 x4 x5 x6 x7 x8 x9 x10 x11 x12 x13 x14 x15 x16 x17 x18 x19 x20 x21 x22 x23 : FVec F S4096x12 .f32) = pay y0 y1 y2 y3 y4 y5 y6 y7 y8 y9 y10 y11 y12 y13 y14 y15 y16 y17 y18 y19 y20 y21 y22 y23 := by
  subst_vars; rfl

/-- What the one grid point writes back, over buffers equal to whole arrays, is the output block of `pay` of the arrays. -/
theorem flushed_of (t : Fin cfg0.N) (x0 : Vec F S4096x128 .f32) (x1 : Vec F S4096x128 .f32) (x2 : Vec F S4096x128 .f32) (x3 : Vec F S4096x128 .f32) (x4 : Vec F S128x300 .f32) (x5 : Vec F S300 .f32) (x6 : Vec F S300 .f32) (x7 : Vec F S300 .f32) (x8 : Vec F S300x300 .f32) (x9 : Vec F S300 .f32) (x10 : Vec F S128x300 .f32) (x11 : Vec F S300 .f32) (x12 : Vec F S300 .f32) (x13 : Vec F S300 .f32) (x14 : Vec F S300x300 .f32) (x15 : Vec F S300 .f32) (x16 : Vec F S8x300 .f32) (x17 : Vec F S8x300 .f32) (x18 : Vec F S128x96 .f32) (x19 : Vec F S96 .f32) (x20 : Vec F S128x96 .f32) (x21 : Vec F S96 .f32) (x22 : Vec F S8x96 .f32) (x23 : Vec F S96x12 .f32) (y0 : Vec F S4096x128 .f32) (y1 : Vec F S4096x128 .f32) (y2 : Vec F S4096x128 .f32) (y3 : Vec F S4096x128 .f32) (y4 : Vec F S128x300 .f32) (y5 : Vec F S300 .f32) (y6 : Vec F S300 .f32) (y7 : Vec F S300 .f32) (y8 : Vec F S300x300 .f32) (y9 : Vec F S300 .f32) (y10 : Vec F S128x300 .f32) (y11 : Vec F S300 .f32) (y12 : Vec F S300 .f32) (y13 : Vec F S300 .f32) (y14 : Vec F S300x300 .f32) (y15 : Vec F S300 .f32) (y16 : Vec F S8x300 .f32) (y17 : Vec F S8x300 .f32) (y18 : Vec F S128x96 .f32) (y19 : Vec F S96 .f32) (y20 : Vec F S128x96 .f32) (y21 : Vec F S96 .f32) (y22 : Vec F S8x96 .f32) (y23 : Vec F S96x12 .f32) (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) :
    (cfg0.win 24).cut (grid0.coords t) (out0_24 x0 x1 x2 x3 x4 x5 x6 x7 x8 x9 x10 x11 x12 x13 x14 x15 x16 x17 x18 x19 x20 x21 x22 x23) = ((cfg0.win 24).blk t).view.read (Elt F) (pay y0 y1 y2 y3 y4 y5 y6 y7 y8 y9 y10 y11 y12 y13 y14 y15 y16 y17 y18 y19 y20 y21 y22 y23) := by
  rw [out_eq, pay_congr h0 h1 h2 h3 h4 h5 h6 h7 h8 h9 h10 h11 h12 h13 h14 h15 h16 h17 h18 h19 h20 h21 h22 h23]
  exact out_whole t _

/-- What the one grid point writes back is the block of `pay` of the arrays as the region finds them. -/
theorem flushed_eq (c : Dev nD) (t : Fin cfg0.N) :
    (dats m 0 c).flushed 24 t = ((cfg0.win 24).blk t).view.read (Elt F) (pay (V m c main_arg2) (V m c main_arg3) (V m c main_arg0) (V m c main_arg1) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_v7) (V m c main_v16)) :=
  (Value.flushed24 m c t).trans (flushed_of t _ _ _ _ _ _ _ _ _ _ _ _ _ _ _ _ _ _ _ _ _ _ _ _ _ _ _ _ _ _ _ _ _ _ _ _ _ _ _ _ _ _ _ _ _ _ _ _ (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t))

/-- An index of the output array is in the point's block iff each coordinate is in the block's range on its axis. -/
theorem mem_out_blk (t : Fin cfg0.N) (i : S4096x12.Idx) :
    i ∈ ((cfg0.win 24).blk t).view.set ↔ ∀ a : Fin 2, win0_24.index t a * S4096x12.size a ≤ (i a).val ∧ (i a).val < win0_24.index t a * S4096x12.size a + S4096x12.size a := by
  show i ∈ ((View.whole main_v17).slice (win0_24.rect t)).set ↔ _
  rw [View.set_slice_whole, Rect.mem_set_unit]
  exact Iff.rfl

/-- The one block covers the output array. -/
theorem cover (i : S4096x12.Idx) : ∃ t : Fin cfg0.N, (cfg0.win 24).flush t = true ∧ i ∈ ((cfg0.win 24).blk t).view.set := by
  refine ⟨t0_0, flush0_24 t0_0, ?_⟩
  rw [mem_out_blk]
  intro a
  match a with
  | ⟨0, _⟩ => show win0_24.index t0_0 (0 : Fin 2) * 4096 ≤ (i 0).val ∧ (i 0).val < win0_24.index t0_0 (0 : Fin 2) * 4096 + 4096; show 0 * 4096 ≤ (i 0).val ∧ (i 0).val < 0 * 4096 + 4096; have hi : (i 0).val < 4096 := (i 0).isLt; omega
  | ⟨1, _⟩ => show win0_24.index t0_0 (1 : Fin 2) * 12 ≤ (i 1).val ∧ (i 1).val < win0_24.index t0_0 (1 : Fin 2) * 12 + 12; show 0 * 12 ≤ (i 1).val ∧ (i 1).val < 0 * 12 + 12; have hi : (i 1).val < 12 := (i 1).isLt; omega

/-! ## The array after the run, and the run -/

/-- The output array after the run is `pay` of the 22 argument arrays and the two host-built matrices. -/
theorem final (c : Dev nD) : (dats m 0 c).arrAt 24 cfg0.N = pay (m ((c : Thread nD τ).loc main_arg2)) (m ((c : Thread nD τ).loc main_arg3)) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) expandMat gatherMat := by
  refine ((dats m 0 c).arrAt_eq_of_cover 24 (pay (V m c main_arg2) (V m c main_arg3) (V m c main_arg0) (V m c main_arg1) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_v7) (V m c main_v16)) (fun t _ => flushed_eq m c t) cover).trans ?_
  exact pay_congr (V_main_arg2 m c) (V_main_arg3 m c) (V_main_arg0 m c) (V_main_arg1 m c) (V_main_arg4 m c) (V_main_arg5 m c) (V_main_arg6 m c) (V_main_arg7 m c) (V_main_arg8 m c) (V_main_arg9 m c) (V_main_arg10 m c) (V_main_arg11 m c) (V_main_arg12 m c) (V_main_arg13 m c) (V_main_arg14 m c) (V_main_arg15 m c) (V_main_arg16 m c) (V_main_arg17 m c) (V_main_arg18 m c) (V_main_arg19 m c) (V_main_arg20 m c) (V_main_arg21 m c) (V_main_v7 m c) (V_main_v16 m c)

/-- Every weakly fair execution of the program terminates with the result array at `pay` of the arguments and the two
    matrices, and the arguments as launched. -/
theorem run : θ_run defs (onTc (τ := τ) (main (F := F))) ⟨m, fun _ => 0, ρ⟩ (fun r => ∀ c : Dev nD,
      r.2.mem ((c : Thread nD τ).loc main_v17) = pay (m ((c : Thread nD τ).loc main_arg2)) (m ((c : Thread nD τ).loc main_arg3)) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) expandMat gatherMat
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)) :=
  (θ_run defs _ _).mono (fun r h c => ⟨(h c).1.trans (final m c), (h c).2⟩) (Value.run_blocks m ρ)

end Cert.KernelIdeal.KVal

end
-- ==== Proof.RefRun.Ops.lean ====
/- The reference program's @main as ONE list of host operations: its 134 own lines in order, and each call
   (`_var` twice, each with its inner `_where`; `relu` twice) replaced by the callee's lines over that call's
   buffers — 184 operations, cut into 9 consecutive pieces. `main = seq ops`, the signature scopes nothing,
   and every operation touches TensorCore references only. -/
import proofs.«150749_g69896297775690_cont_9to1c4b_828_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 22 of 184 (a piece of `main_part0`). -/
abbrev p1 : List (HloOp τ sig (Elt F)) :=
  [ binary main_arg2 main_arg4 main_v0 ((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)),
    unary main_arg5 main_v1 (broadcastInDim S1x300 ![1] bcast_S300_S1x300_1 : (⟨S300, .f32⟩ : BufTy).Contents (Elt F) → (⟨S1x300, .f32⟩ : BufTy).Contents (Elt F)),
    unary main_v1 main_v2 (broadcastInDim S4096x300 ![0, 1] bcast_S1x300_S4096x300_0_1 : (⟨S1x300, .f32⟩ : BufTy).Contents (Elt F) → (⟨S4096x300, .f32⟩ : BufTy).Contents (Elt F)),
    binary main_v0 main_v2 main_v3 (addf : (⟨S4096x300, .f32⟩ : BufTy).Contents (Elt F) → (⟨S4096x300, .f32⟩ : BufTy).Contents (Elt F) → (⟨S4096x300, .f32⟩ : BufTy).Contents (Elt F)),
    nullary main_cst (constant S_ .f32 0x00000000#32),
    binary main_v3 main_cst main_v4 ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)),
    nullary main_cst_0 (constant S_ .f32 0x45800000#32),
    unary main_cst_0 main_v5 (broadcastInDim S300 ![] bcast_S_S300 : (⟨S_, .f32⟩ : BufTy).Contents (Elt F) → (⟨S300, .f32⟩ : BufTy).Contents (Elt F)),
    binary main_v4 main_v5 main_v6 (Host.divf : (⟨S300, .f32⟩ : BufTy).Contents (Elt F) → (⟨S300, .f32⟩ : BufTy).Contents (Elt F) → (⟨S300, .f32⟩ : BufTy).Contents (Elt F)),
    nullary main_c (constantI S_ 32 0#32),
    TRef.nullary main_call0.cst (constant S_ .f32 0x00000000#32 : (⟨S_, .f32⟩ : BufTy).Contents (Elt F)),
    TRef.binary (.of main_v3 : TRef sig ⟨S4096x300, .f32⟩) main_call0.cst main_call0.v0 ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)),
    TRef.unary main_call0.v0 main_call0.v1 ((broadcastInDim S1x300 ![1] bcast_S300_S1x300_1) : (⟨S300, .f32⟩ : BufTy).Contents (Elt F) → (⟨S1x300, .f32⟩ : BufTy).Contents (Elt F)),
    TRef.nullary main_call0.cst_0 (constant S_ .f32 0x45800000#32 : (⟨S_, .f32⟩ : BufTy).Contents (Elt F)),
    TRef.unary main_call0.cst_0 main_call0.v2 ((broadcastInDim S1x300 ![] bcast_S_S1x300) : (⟨S_, .f32⟩ : BufTy).Contents (Elt F) → (⟨S1x300, .f32⟩ : BufTy).Contents (Elt F)),
    TRef.binary main_call0.v1 main_call0.v2 main_call0.v3 (Host.divf : (⟨S1x300, .f32⟩ : BufTy).Contents (Elt F) → (⟨S1x300, .f32⟩ : BufTy).Contents (Elt F) → (⟨S1x300, .f32⟩ : BufTy).Contents (Elt F)),
    TRef.unary main_call0.v3 main_call0.v4 ((broadcastInDim S4096x300 ![0, 1] bcast_S1x300_S4096x300_0_1) : (⟨S1x300, .f32⟩ : BufTy).Contents (Elt F) → (⟨S4096x300, .f32⟩ : BufTy).Contents (Elt F)),
    TRef.binary (.of main_v3 : TRef sig ⟨S4096x300, .f32⟩) main_call0.v4 main_call0.v5 (subf : (⟨S4096x300, .f32⟩ : BufTy).Contents (Elt F) → (⟨S4096x300, .f32⟩ : BufTy).Contents (Elt F) → (⟨S4096x300, .f32⟩ : BufTy).Contents (Elt F)),
    TRef.binary main_call0.v5 main_call0.v5 main_call0.v6 (mulf : (⟨S4096x300, .f32⟩ : BufTy).Contents (Elt F) → (⟨S4096x300, .f32⟩ : BufTy).Contents (Elt F) → (⟨S4096x300, .f32⟩ : BufTy).Contents (Elt F)),
    TRef.unary (.of main_c : TRef sig ⟨S_, .i32⟩) main_call0.v7 ((sitofp .f32) : (⟨S_, .i32⟩ : BufTy).Contents (Elt F) → (⟨S_, .f32⟩ : BufTy).Contents (Elt F)),
    TRef.nullary main_call0.cst_1 (constant S_ .f32 0x45800000#32 : (⟨S_, .f32⟩ : BufTy).Contents (Elt F)),
    TRef.binary main_call0.cst_1 main_call0.v7 main_call0.v8 (subf : (⟨S_, .f32⟩ : BufTy).Contents (Elt F) → (⟨S_, .f32⟩ : BufTy).Contents (Elt F) → (⟨S_, .f32⟩ : BufTy).Contents (Elt F)) ]

/-- Operations 23 … 44 of 184 (a piece of `main_part0`). -/
abbrev p2 : List (HloOp τ sig (Elt F)) :=
  [ TRef.nullary main_call0.cst_2 (constant S_ .f32 0x00000000#32 : (⟨S_, .f32⟩ : BufTy).Contents (Elt F)),
    TRef.binary main_call0.v6 main_call0.cst_2 main_call0.v9 ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)),
    TRef.unary main_call0.v8 main_call0.v10 ((broadcastInDim S300 ![] bcast_S_S300) : (⟨S_, .f32⟩ : BufTy).Contents (Elt F) → (⟨S300, .f32⟩ : BufTy).Contents (Elt F)),
    TRef.binary main_call0.v9 main_call0.v10 main_call0.v11 (Host.divf : (⟨S300, .f32⟩ : BufTy).Contents (Elt F) → (⟨S300, .f32⟩ : BufTy).Contents (Elt F) → (⟨S300, .f32⟩ : BufTy).Contents (Elt F)),
    TRef.nullary main_call0.cst_3 (constant S_ .f32 0x00000000#32 : (⟨S_, .f32⟩ : BufTy).Contents (Elt F)),
    TRef.binary main_call0.v8 main_call0.cst_3 main_call0.v12 ((cmpf .ogt) : (⟨S_, .f32⟩ : BufTy).Contents (Elt F) → (⟨S_, .f32⟩ : BufTy).Contents (Elt F) → (⟨S_, .i1⟩ : BufTy).Contents (Elt F)),
    TRef.nullary main_call0.cst_4 (constant S_ .f32 0x7FC00000#32 : (⟨S_, .f32⟩ : BufTy).Contents (Elt F)),
    TRef.unary main_call0.cst_4 main_call0.call0.v0 (id : (⟨S_, .f32⟩ : BufTy).Contents (Elt F) → (⟨S_, .f32⟩ : BufTy).Contents (Elt F)),
    TRef.unary main_call0.call0.v0 main_call0.call0.v1 ((broadcastInDim S300 ![] bcast_S_S300) : (⟨S_, .f32⟩ : BufTy).Contents (Elt F) → (⟨S300, .f32⟩ : BufTy).Contents (Elt F)),
    TRef.ternary main_call0.v12 main_call0.v11 main_call0.call0.v1 main_call0.call0.v2 ((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)),
    unary main_v6 main_v8 (broadcastInDim S1x300 ![1] bcast_S300_S1x300_1 : (⟨S300, .f32⟩ : BufTy).Contents (Elt F) → (⟨S1x300, .f32⟩ : BufTy).Contents (Elt F)),
    unary main_v8 main_v9 (broadcastInDim S4096x300 ![0, 1] bcast_S1x300_S4096x300_0_1 : (⟨S1x300, .f32⟩ : BufTy).Contents (Elt F) → (⟨S4096x300, .f32⟩ : BufTy).Contents (Elt F)),
    binary main_v3 main_v9 main_v10 (subf : (⟨S4096x300, .f32⟩ : BufTy).Contents (Elt F) → (⟨S4096x300, .f32⟩ : BufTy).Contents (Elt F) → (⟨S4096x300, .f32⟩ : BufTy).Contents (Elt F)),
    nullary main_cst_1 (constant S_ .f32 0x3727C5AC#32),
    unary main_cst_1 main_v11 (broadcastInDim S300 ![] bcast_S_S300 : (⟨S_, .f32⟩ : BufTy).Contents (Elt F) → (⟨S300, .f32⟩ : BufTy).Contents (Elt F)),
    binary main_v7 main_v11 main_v12 (addf : (⟨S300, .f32⟩ : BufTy).Contents (Elt F) → (⟨S300, .f32⟩ : BufTy).Contents (Elt F) → (⟨S300, .f32⟩ : BufTy).Contents (Elt F)),
    unary main_v12 main_v13 (Host.sqrt : (⟨S300, .f32⟩ : BufTy).Contents (Elt F) → (⟨S300, .f32⟩ : BufTy).Contents (Elt F)),
    unary main_v13 main_v14 (broadcastInDim S1x300 ![1] bcast_S300_S1x300_1 : (⟨S300, .f32⟩ : BufTy).Contents (Elt F) → (⟨S1x300, .f32⟩ : BufTy).Contents (Elt F)),
    unary main_v14 main_v15 (broadcastInDim S4096x300 ![0, 1] bcast_S1x300_S4096x300_0_1 : (⟨S1x300, .f32⟩ : BufTy).Contents (Elt F) → (⟨S4096x300, .f32⟩ : BufTy).Contents (Elt F)),
    binary main_v10 main_v15 main_v16 (Host.divf : (⟨S4096x300, .f32⟩ : BufTy).Contents (Elt F) → (⟨S4096x300, .f32⟩ : BufTy).Contents (Elt F) → (⟨S4096x300, .f32⟩ : BufTy).Contents (Elt F)),
    unary main_arg6 main_v17 (broadcastInDim S1x300 ![1] bcast_S300_S1x300_1 : (⟨S300, .f32⟩ : BufTy).Contents (Elt F) → (⟨S1x300, .f32⟩ : BufTy).Contents (Elt F)),
    unary main_v17 main_v18 (broadcastInDim S4096x300 ![0, 1] bcast_S1x300_S4096x300_0_1 : (⟨S1x300, .f32⟩ : BufTy).Contents (Elt F) → (⟨S4096x300, .f32⟩ : BufTy).Contents (Elt F)) ]

/-- Operations 45 … 66 of 184 (a piece of `main_part0`). -/
abbrev p3 : List (HloOp τ sig (Elt F)) :=
  [ binary main_v16 main_v18 main_v19 (mulf : (⟨S4096x300, .f32⟩ : BufTy).Contents (Elt F) → (⟨S4096x300, .f32⟩ : BufTy).Contents (Elt F) → (⟨S4096x300, .f32⟩ : BufTy).Contents (Elt F)),
    unary main_arg7 main_v20 (broadcastInDim S1x300 ![1] bcast_S300_S1x300_1 : (⟨S300, .f32⟩ : BufTy).Contents (Elt F) → (⟨S1x300, .f32⟩ : BufTy).Contents (Elt F)),
    unary main_v20 main_v21 (broadcastInDim S4096x300 ![0, 1] bcast_S1x300_S4096x300_0_1 : (⟨S1x300, .f32⟩ : BufTy).Contents (Elt F) → (⟨S4096x300, .f32⟩ : BufTy).Contents (Elt F)),
    binary main_v19 main_v21 main_v22 (addf : (⟨S4096x300, .f32⟩ : BufTy).Contents (Elt F) → (⟨S4096x300, .f32⟩ : BufTy).Contents (Elt F) → (⟨S4096x300, .f32⟩ : BufTy).Contents (Elt F)),
    TRef.nullary main_call1.cst (constant S_ .f32 0x00000000#32 : (⟨S_, .f32⟩ : BufTy).Contents (Elt F)),
    TRef.unary main_call1.cst main_call1.v0 ((broadcastInDim S4096x300 ![] bcast_S_S4096x300) : (⟨S_, .f32⟩ : BufTy).Contents (Elt F) → (⟨S4096x300, .f32⟩ : BufTy).Contents (Elt F)),
    TRef.binary (.of main_v22 : TRef sig ⟨S4096x300, .f32⟩) main_call1.v0 main_call1.v1 (maximumf : (⟨S4096x300, .f32⟩ : BufTy).Contents (Elt F) → (⟨S4096x300, .f32⟩ : BufTy).Contents (Elt F) → (⟨S4096x300, .f32⟩ : BufTy).Contents (Elt F)),
    binary main_v23 main_arg8 main_v24 ((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)),
    unary main_arg9 main_v25 (broadcastInDim S1x300 ![1] bcast_S300_S1x300_1 : (⟨S300, .f32⟩ : BufTy).Contents (Elt F) → (⟨S1x300, .f32⟩ : BufTy).Contents (Elt F)),
    unary main_v25 main_v26 (broadcastInDim S4096x300 ![0, 1] bcast_S1x300_S4096x300_0_1 : (⟨S1x300, .f32⟩ : BufTy).Contents (Elt F) → (⟨S4096x300, .f32⟩ : BufTy).Contents (Elt F)),
    binary main_v24 main_v26 main_v27 (addf : (⟨S4096x300, .f32⟩ : BufTy).Contents (Elt F) → (⟨S4096x300, .f32⟩ : BufTy).Contents (Elt F) → (⟨S4096x300, .f32⟩ : BufTy).Contents (Elt F)),
    binary main_arg3 main_arg10 main_v28 ((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)),
    unary main_arg11 main_v29 (broadcastInDim S1x300 ![1] bcast_S300_S1x300_1 : (⟨S300, .f32⟩ : BufTy).Contents (Elt F) → (⟨S1x300, .f32⟩ : BufTy).Contents (Elt F)),
    unary main_v29 main_v30 (broadcastInDim S4096x300 ![0, 1] bcast_S1x300_S4096x300_0_1 : (⟨S1x300, .f32⟩ : BufTy).Contents (Elt F) → (⟨S4096x300, .f32⟩ : BufTy).Contents (Elt F)),
    binary main_v28 main_v30 main_v31 (addf : (⟨S4096x300, .f32⟩ : BufTy).Contents (Elt F) → (⟨S4096x300, .f32⟩ : BufTy).Contents (Elt F) → (⟨S4096x300, .f32⟩ : BufTy).Contents (Elt F)),
    nullary main_cst_2 (constant S_ .f32 0x00000000#32),
    binary main_v31 main_cst_2 main_v32 ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)),
    nullary main_cst_3 (constant S_ .f32 0x45800000#32),
    unary main_cst_3 main_v33 (broadcastInDim S300 ![] bcast_S_S300 : (⟨S_, .f32⟩ : BufTy).Contents (Elt F) → (⟨S300, .f32⟩ : BufTy).Contents (Elt F)),
    binary main_v32 main_v33 main_v34 (Host.divf : (⟨S300, .f32⟩ : BufTy).Contents (Elt F) → (⟨S300, .f32⟩ : BufTy).Contents (Elt F) → (⟨S300, .f32⟩ : BufTy).Contents (Elt F)),
    nullary main_c_4 (constantI S_ 32 0#32),
    TRef.nullary main_call2.cst (constant S_ .f32 0x00000000#32 : (⟨S_, .f32⟩ : BufTy).Contents (Elt F)) ]

/-- Operations 67 … 88 of 184 (a piece of `main_part0`). -/
abbrev p4 : List (HloOp τ sig (Elt F)) :=
  [ TRef.binary (.of main_v31 : TRef sig ⟨S4096x300, .f32⟩) main_call2.cst main_call2.v0 ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)),
    TRef.unary main_call2.v0 main_call2.v1 ((broadcastInDim S1x300 ![1] bcast_S300_S1x300_1) : (⟨S300, .f32⟩ : BufTy).Contents (Elt F) → (⟨S1x300, .f32⟩ : BufTy).Contents (Elt F)),
    TRef.nullary main_call2.cst_0 (constant S_ .f32 0x45800000#32 : (⟨S_, .f32⟩ : BufTy).Contents (Elt F)),
    TRef.unary main_call2.cst_0 main_call2.v2 ((broadcastInDim S1x300 ![] bcast_S_S1x300) : (⟨S_, .f32⟩ : BufTy).Contents (Elt F) → (⟨S1x300, .f32⟩ : BufTy).Contents (Elt F)),
    TRef.binary main_call2.v1 main_call2.v2 main_call2.v3 (Host.divf : (⟨S1x300, .f32⟩ : BufTy).Contents (Elt F) → (⟨S1x300, .f32⟩ : BufTy).Contents (Elt F) → (⟨S1x300, .f32⟩ : BufTy).Contents (Elt F)),
    TRef.unary main_call2.v3 main_call2.v4 ((broadcastInDim S4096x300 ![0, 1] bcast_S1x300_S4096x300_0_1) : (⟨S1x300, .f32⟩ : BufTy).Contents (Elt F) → (⟨S4096x300, .f32⟩ : BufTy).Contents (Elt F)),
    TRef.binary (.of main_v31 : TRef sig ⟨S4096x300, .f32⟩) main_call2.v4 main_call2.v5 (subf : (⟨S4096x300, .f32⟩ : BufTy).Contents (Elt F) → (⟨S4096x300, .f32⟩ : BufTy).Contents (Elt F) → (⟨S4096x300, .f32⟩ : BufTy).Contents (Elt F)),
    TRef.binary main_call2.v5 main_call2.v5 main_call2.v6 (mulf : (⟨S4096x300, .f32⟩ : BufTy).Contents (Elt F) → (⟨S4096x300, .f32⟩ : BufTy).Contents (Elt F) → (⟨S4096x300, .f32⟩ : BufTy).Contents (Elt F)),
    TRef.unary (.of main_c_4 : TRef sig ⟨S_, .i32⟩) main_call2.v7 ((sitofp .f32) : (⟨S_, .i32⟩ : BufTy).Contents (Elt F) → (⟨S_, .f32⟩ : BufTy).Contents (Elt F)),
    TRef.nullary main_call2.cst_1 (constant S_ .f32 0x45800000#32 : (⟨S_, .f32⟩ : BufTy).Contents (Elt F)),
    TRef.binary main_call2.cst_1 main_call2.v7 main_call2.v8 (subf : (⟨S_, .f32⟩ : BufTy).Contents (Elt F) → (⟨S_, .f32⟩ : BufTy).Contents (Elt F) → (⟨S_, .f32⟩ : BufTy).Contents (Elt F)),
    TRef.nullary main_call2.cst_2 (constant S_ .f32 0x00000000#32 : (⟨S_, .f32⟩ : BufTy).Contents (Elt F)),
    TRef.binary main_call2.v6 main_call2.cst_2 main_call2.v9 ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)),
    TRef.unary main_call2.v8 main_call2.v10 ((broadcastInDim S300 ![] bcast_S_S300) : (⟨S_, .f32⟩ : BufTy).Contents (Elt F) → (⟨S300, .f32⟩ : BufTy).Contents (Elt F)),
    TRef.binary main_call2.v9 main_call2.v10 main_call2.v11 (Host.divf : (⟨S300, .f32⟩ : BufTy).Contents (Elt F) → (⟨S300, .f32⟩ : BufTy).Contents (Elt F) → (⟨S300, .f32⟩ : BufTy).Contents (Elt F)),
    TRef.nullary main_call2.cst_3 (constant S_ .f32 0x00000000#32 : (⟨S_, .f32⟩ : BufTy).Contents (Elt F)),
    TRef.binary main_call2.v8 main_call2.cst_3 main_call2.v12 ((cmpf .ogt) : (⟨S_, .f32⟩ : BufTy).Contents (Elt F) → (⟨S_, .f32⟩ : BufTy).Contents (Elt F) → (⟨S_, .i1⟩ : BufTy).Contents (Elt F)),
    TRef.nullary main_call2.cst_4 (constant S_ .f32 0x7FC00000#32 : (⟨S_, .f32⟩ : BufTy).Contents (Elt F)),
    TRef.unary main_call2.cst_4 main_call2.call0.v0 (id : (⟨S_, .f32⟩ : BufTy).Contents (Elt F) → (⟨S_, .f32⟩ : BufTy).Contents (Elt F)),
    TRef.unary main_call2.call0.v0 main_call2.call0.v1 ((broadcastInDim S300 ![] bcast_S_S300) : (⟨S_, .f32⟩ : BufTy).Contents (Elt F) → (⟨S300, .f32⟩ : BufTy).Contents (Elt F)),
    TRef.ternary main_call2.v12 main_call2.v11 main_call2.call0.v1 main_call2.call0.v2 ((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)),
    unary main_v34 main_v36 (broadcastInDim S1x300 ![1] bcast_S300_S1x300_1 : (⟨S300, .f32⟩ : BufTy).Contents (Elt F) → (⟨S1x300, .f32⟩ : BufTy).Contents (Elt F)) ]

/-- Operations 89 … 106 of 184 (a piece of `main_part0`). -/
abbrev p5 : List (HloOp τ sig (Elt F)) :=
  [ unary main_v36 main_v37 (broadcastInDim S4096x300 ![0, 1] bcast_S1x300_S4096x300_0_1 : (⟨S1x300, .f32⟩ : BufTy).Contents (Elt F) → (⟨S4096x300, .f32⟩ : BufTy).Contents (Elt F)),
    binary main_v31 main_v37 main_v38 (subf : (⟨S4096x300, .f32⟩ : BufTy).Contents (Elt F) → (⟨S4096x300, .f32⟩ : BufTy).Contents (Elt F) → (⟨S4096x300, .f32⟩ : BufTy).Contents (Elt F)),
    nullary main_cst_5 (constant S_ .f32 0x3727C5AC#32),
    unary main_cst_5 main_v39 (broadcastInDim S300 ![] bcast_S_S300 : (⟨S_, .f32⟩ : BufTy).Contents (Elt F) → (⟨S300, .f32⟩ : BufTy).Contents (Elt F)),
    binary main_v35 main_v39 main_v40 (addf : (⟨S300, .f32⟩ : BufTy).Contents (Elt F) → (⟨S300, .f32⟩ : BufTy).Contents (Elt F) → (⟨S300, .f32⟩ : BufTy).Contents (Elt F)),
    unary main_v40 main_v41 (Host.sqrt : (⟨S300, .f32⟩ : BufTy).Contents (Elt F) → (⟨S300, .f32⟩ : BufTy).Contents (Elt F)),
    unary main_v41 main_v42 (broadcastInDim S1x300 ![1] bcast_S300_S1x300_1 : (⟨S300, .f32⟩ : BufTy).Contents (Elt F) → (⟨S1x300, .f32⟩ : BufTy).Contents (Elt F)),
    unary main_v42 main_v43 (broadcastInDim S4096x300 ![0, 1] bcast_S1x300_S4096x300_0_1 : (⟨S1x300, .f32⟩ : BufTy).Contents (Elt F) → (⟨S4096x300, .f32⟩ : BufTy).Contents (Elt F)),
    binary main_v38 main_v43 main_v44 (Host.divf : (⟨S4096x300, .f32⟩ : BufTy).Contents (Elt F) → (⟨S4096x300, .f32⟩ : BufTy).Contents (Elt F) → (⟨S4096x300, .f32⟩ : BufTy).Contents (Elt F)),
    unary main_arg12 main_v45 (broadcastInDim S1x300 ![1] bcast_S300_S1x300_1 : (⟨S300, .f32⟩ : BufTy).Contents (Elt F) → (⟨S1x300, .f32⟩ : BufTy).Contents (Elt F)),
    unary main_v45 main_v46 (broadcastInDim S4096x300 ![0, 1] bcast_S1x300_S4096x300_0_1 : (⟨S1x300, .f32⟩ : BufTy).Contents (Elt F) → (⟨S4096x300, .f32⟩ : BufTy).Contents (Elt F)),
    binary main_v44 main_v46 main_v47 (mulf : (⟨S4096x300, .f32⟩ : BufTy).Contents (Elt F) → (⟨S4096x300, .f32⟩ : BufTy).Contents (Elt F) → (⟨S4096x300, .f32⟩ : BufTy).Contents (Elt F)),
    unary main_arg13 main_v48 (broadcastInDim S1x300 ![1] bcast_S300_S1x300_1 : (⟨S300, .f32⟩ : BufTy).Contents (Elt F) → (⟨S1x300, .f32⟩ : BufTy).Contents (Elt F)),
    unary main_v48 main_v49 (broadcastInDim S4096x300 ![0, 1] bcast_S1x300_S4096x300_0_1 : (⟨S1x300, .f32⟩ : BufTy).Contents (Elt F) → (⟨S4096x300, .f32⟩ : BufTy).Contents (Elt F)),
    binary main_v47 main_v49 main_v50 (addf : (⟨S4096x300, .f32⟩ : BufTy).Contents (Elt F) → (⟨S4096x300, .f32⟩ : BufTy).Contents (Elt F) → (⟨S4096x300, .f32⟩ : BufTy).Contents (Elt F)),
    TRef.nullary main_call3.cst (constant S_ .f32 0x00000000#32 : (⟨S_, .f32⟩ : BufTy).Contents (Elt F)),
    TRef.unary main_call3.cst main_call3.v0 ((broadcastInDim S4096x300 ![] bcast_S_S4096x300) : (⟨S_, .f32⟩ : BufTy).Contents (Elt F) → (⟨S4096x300, .f32⟩ : BufTy).Contents (Elt F)),
    TRef.binary (.of main_v50 : TRef sig ⟨S4096x300, .f32⟩) main_call3.v0 main_call3.v1 (maximumf : (⟨S4096x300, .f32⟩ : BufTy).Contents (Elt F) → (⟨S4096x300, .f32⟩ : BufTy).Contents (Elt F) → (⟨S4096x300, .f32⟩ : BufTy).Contents (Elt F)) ]

/-- Operations 107 … 126 of 184 (a piece of `main_part1`). -/
abbrev p6 : List (HloOp τ sig (Elt F)) :=
  [ binary main_v51 main_arg14 main_v52 ((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)),
    unary main_arg15 main_v53 (broadcastInDim S1x300 ![1] bcast_S300_S1x300_1 : (⟨S300, .f32⟩ : BufTy).Contents (Elt F) → (⟨S1x300, .f32⟩ : BufTy).Contents (Elt F)),
    unary main_v53 main_v54 (broadcastInDim S4096x300 ![0, 1] bcast_S1x300_S4096x300_0_1 : (⟨S1x300, .f32⟩ : BufTy).Contents (Elt F) → (⟨S4096x300, .f32⟩ : BufTy).Contents (Elt F)),
    binary main_v52 main_v54 main_v55 (addf : (⟨S4096x300, .f32⟩ : BufTy).Contents (Elt F) → (⟨S4096x300, .f32⟩ : BufTy).Contents (Elt F) → (⟨S4096x300, .f32⟩ : BufTy).Contents (Elt F)),
    unary main_arg16 main_v56 ((transpose S300x8 [1, 0] · transposes_S8x300_S300x8_1_0) : (⟨S8x300, .f32⟩ : BufTy).Contents (Elt F) → (⟨S300x8, .f32⟩ : BufTy).Contents (Elt F)),
    binary main_v27 main_v56 main_v57 ((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)),
    nullary main_cst_6 (constant S_ .f32 0x3F800000#32),
    unary main_cst_6 main_v58 (broadcastInDim S4096x8 ![] bcast_S_S4096x8 : (⟨S_, .f32⟩ : BufTy).Contents (Elt F) → (⟨S4096x8, .f32⟩ : BufTy).Contents (Elt F)),
    binary main_v57 main_v58 main_v59 (Host.divf : (⟨S4096x8, .f32⟩ : BufTy).Contents (Elt F) → (⟨S4096x8, .f32⟩ : BufTy).Contents (Elt F) → (⟨S4096x8, .f32⟩ : BufTy).Contents (Elt F)),
    nullary main_cst_7 (constant S_ .f32 0xFF800000#32),
    binary main_v59 main_cst_7 main_v60 ((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)),
    nullary main_cst_8 (constant S_ .f32 0xFF800000#32),
    unary main_cst_8 main_v61 (broadcastInDim S4096 ![] bcast_S_S4096 : (⟨S_, .f32⟩ : BufTy).Contents (Elt F) → (⟨S4096, .f32⟩ : BufTy).Contents (Elt F)),
    binary main_v61 main_v60 main_v62 (maximumf : (⟨S4096, .f32⟩ : BufTy).Contents (Elt F) → (⟨S4096, .f32⟩ : BufTy).Contents (Elt F) → (⟨S4096, .f32⟩ : BufTy).Contents (Elt F)),
    unary main_v62 main_v63 (broadcastInDim S4096x1 ![0] bcast_S4096_S4096x1_0 : (⟨S4096, .f32⟩ : BufTy).Contents (Elt F) → (⟨S4096x1, .f32⟩ : BufTy).Contents (Elt F)),
    unary main_v63 main_v64 (broadcastInDim S4096x8 ![0, 1] bcast_S4096x1_S4096x8_0_1 : (⟨S4096x1, .f32⟩ : BufTy).Contents (Elt F) → (⟨S4096x8, .f32⟩ : BufTy).Contents (Elt F)),
    binary main_v59 main_v64 main_v65 (subf : (⟨S4096x8, .f32⟩ : BufTy).Contents (Elt F) → (⟨S4096x8, .f32⟩ : BufTy).Contents (Elt F) → (⟨S4096x8, .f32⟩ : BufTy).Contents (Elt F)),
    unary main_v65 main_v66 (Host.exp : (⟨S4096x8, .f32⟩ : BufTy).Contents (Elt F) → (⟨S4096x8, .f32⟩ : BufTy).Contents (Elt F)),
    nullary main_cst_9 (constant S_ .f32 0x00000000#32),
    binary main_v66 main_cst_9 main_v67 ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) ]

/-- Operations 127 … 146 of 184 (a piece of `main_part1`). -/
abbrev p7 : List (HloOp τ sig (Elt F)) :=
  [ unary main_v67 main_v68 (broadcastInDim S4096x1 ![0] bcast_S4096_S4096x1_0 : (⟨S4096, .f32⟩ : BufTy).Contents (Elt F) → (⟨S4096x1, .f32⟩ : BufTy).Contents (Elt F)),
    unary main_v68 main_v69 (broadcastInDim S4096x8 ![0, 1] bcast_S4096x1_S4096x8_0_1 : (⟨S4096x1, .f32⟩ : BufTy).Contents (Elt F) → (⟨S4096x8, .f32⟩ : BufTy).Contents (Elt F)),
    binary main_v66 main_v69 main_v70 (Host.divf : (⟨S4096x8, .f32⟩ : BufTy).Contents (Elt F) → (⟨S4096x8, .f32⟩ : BufTy).Contents (Elt F) → (⟨S4096x8, .f32⟩ : BufTy).Contents (Elt F)),
    unary main_arg17 main_v71 ((transpose S300x8 [1, 0] · transposes_S8x300_S300x8_1_0) : (⟨S8x300, .f32⟩ : BufTy).Contents (Elt F) → (⟨S300x8, .f32⟩ : BufTy).Contents (Elt F)),
    binary main_v55 main_v71 main_v72 ((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)),
    nullary main_cst_10 (constant S_ .f32 0x3F800000#32),
    unary main_cst_10 main_v73 (broadcastInDim S4096x8 ![] bcast_S_S4096x8 : (⟨S_, .f32⟩ : BufTy).Contents (Elt F) → (⟨S4096x8, .f32⟩ : BufTy).Contents (Elt F)),
    binary main_v72 main_v73 main_v74 (Host.divf : (⟨S4096x8, .f32⟩ : BufTy).Contents (Elt F) → (⟨S4096x8, .f32⟩ : BufTy).Contents (Elt F) → (⟨S4096x8, .f32⟩ : BufTy).Contents (Elt F)),
    nullary main_cst_11 (constant S_ .f32 0xFF800000#32),
    binary main_v74 main_cst_11 main_v75 ((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)),
    nullary main_cst_12 (constant S_ .f32 0xFF800000#32),
    unary main_cst_12 main_v76 (broadcastInDim S4096 ![] bcast_S_S4096 : (⟨S_, .f32⟩ : BufTy).Contents (Elt F) → (⟨S4096, .f32⟩ : BufTy).Contents (Elt F)),
    binary main_v76 main_v75 main_v77 (maximumf : (⟨S4096, .f32⟩ : BufTy).Contents (Elt F) → (⟨S4096, .f32⟩ : BufTy).Contents (Elt F) → (⟨S4096, .f32⟩ : BufTy).Contents (Elt F)),
    unary main_v77 main_v78 (broadcastInDim S4096x1 ![0] bcast_S4096_S4096x1_0 : (⟨S4096, .f32⟩ : BufTy).Contents (Elt F) → (⟨S4096x1, .f32⟩ : BufTy).Contents (Elt F)),
    unary main_v78 main_v79 (broadcastInDim S4096x8 ![0, 1] bcast_S4096x1_S4096x8_0_1 : (⟨S4096x1, .f32⟩ : BufTy).Contents (Elt F) → (⟨S4096x8, .f32⟩ : BufTy).Contents (Elt F)),
    binary main_v74 main_v79 main_v80 (subf : (⟨S4096x8, .f32⟩ : BufTy).Contents (Elt F) → (⟨S4096x8, .f32⟩ : BufTy).Contents (Elt F) → (⟨S4096x8, .f32⟩ : BufTy).Contents (Elt F)),
    unary main_v80 main_v81 (Host.exp : (⟨S4096x8, .f32⟩ : BufTy).Contents (Elt F) → (⟨S4096x8, .f32⟩ : BufTy).Contents (Elt F)),
    nullary main_cst_13 (constant S_ .f32 0x00000000#32),
    binary main_v81 main_cst_13 main_v82 ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)),
    unary main_v82 main_v83 (broadcastInDim S4096x1 ![0] bcast_S4096_S4096x1_0 : (⟨S4096, .f32⟩ : BufTy).Contents (Elt F) → (⟨S4096x1, .f32⟩ : BufTy).Contents (Elt F)) ]

/-- Operations 147 … 166 of 184 (a piece of `main_part1`). -/
abbrev p8 : List (HloOp τ sig (Elt F)) :=
  [ unary main_v83 main_v84 (broadcastInDim S4096x8 ![0, 1] bcast_S4096x1_S4096x8_0_1 : (⟨S4096x1, .f32⟩ : BufTy).Contents (Elt F) → (⟨S4096x8, .f32⟩ : BufTy).Contents (Elt F)),
    binary main_v81 main_v84 main_v85 (Host.divf : (⟨S4096x8, .f32⟩ : BufTy).Contents (Elt F) → (⟨S4096x8, .f32⟩ : BufTy).Contents (Elt F) → (⟨S4096x8, .f32⟩ : BufTy).Contents (Elt F)),
    unary main_arg0 main_v86 (broadcastInDim S4096x128x1 ![0, 1] bcast_S4096x128_S4096x128x1_0_1 : (⟨S4096x128, .f32⟩ : BufTy).Contents (Elt F) → (⟨S4096x128x1, .f32⟩ : BufTy).Contents (Elt F)),
    unary main_v86 main_v87 (broadcastInDim S4096x128x96 ![0, 1, 2] bcast_S4096x128x1_S4096x128x96_0_1_2 : (⟨S4096x128x1, .f32⟩ : BufTy).Contents (Elt F) → (⟨S4096x128x96, .f32⟩ : BufTy).Contents (Elt F)),
    unary main_arg18 main_v88 (broadcastInDim S1x128x96 ![1, 2] bcast_S128x96_S1x128x96_1_2 : (⟨S128x96, .f32⟩ : BufTy).Contents (Elt F) → (⟨S1x128x96, .f32⟩ : BufTy).Contents (Elt F)),
    unary main_v88 main_v89 (broadcastInDim S4096x128x96 ![0, 1, 2] bcast_S1x128x96_S4096x128x96_0_1_2 : (⟨S1x128x96, .f32⟩ : BufTy).Contents (Elt F) → (⟨S4096x128x96, .f32⟩ : BufTy).Contents (Elt F)),
    binary main_v87 main_v89 main_v90 (mulf : (⟨S4096x128x96, .f32⟩ : BufTy).Contents (Elt F) → (⟨S4096x128x96, .f32⟩ : BufTy).Contents (Elt F) → (⟨S4096x128x96, .f32⟩ : BufTy).Contents (Elt F)),
    nullary main_cst_14 (constant S_ .f32 0x00000000#32),
    binary main_v90 main_cst_14 main_v91 ((fun x v => Host.reduceAdd x v reducesTo_S4096x128x96_S4096x96_d1 h_S_) : (⟨S4096x128x96, .f32⟩ : BufTy).Contents (Elt F) → (⟨S_, .f32⟩ : BufTy).Contents (Elt F) → (⟨S4096x96, .f32⟩ : BufTy).Contents (Elt F)),
    unary main_arg19 main_v92 (broadcastInDim S1x96 ![1] bcast_S96_S1x96_1 : (⟨S96, .f32⟩ : BufTy).Contents (Elt F) → (⟨S1x96, .f32⟩ : BufTy).Contents (Elt F)),
    unary main_v92 main_v93 (broadcastInDim S4096x96 ![0, 1] bcast_S1x96_S4096x96_0_1 : (⟨S1x96, .f32⟩ : BufTy).Contents (Elt F) → (⟨S4096x96, .f32⟩ : BufTy).Contents (Elt F)),
    binary main_v91 main_v93 main_v94 (addf : (⟨S4096x96, .f32⟩ : BufTy).Contents (Elt F) → (⟨S4096x96, .f32⟩ : BufTy).Contents (Elt F) → (⟨S4096x96, .f32⟩ : BufTy).Contents (Elt F)),
    reshape main_v94 main_v95 rfl shapeCasts_S4096x96_S4096x8x12,
    unary main_v70 main_v96 (broadcastInDim S4096x8x1 ![0, 1] bcast_S4096x8_S4096x8x1_0_1 : (⟨S4096x8, .f32⟩ : BufTy).Contents (Elt F) → (⟨S4096x8x1, .f32⟩ : BufTy).Contents (Elt F)),
    unary main_v96 main_v97 (broadcastInDim S4096x8x12 ![0, 1, 2] bcast_S4096x8x1_S4096x8x12_0_1_2 : (⟨S4096x8x1, .f32⟩ : BufTy).Contents (Elt F) → (⟨S4096x8x12, .f32⟩ : BufTy).Contents (Elt F)),
    binary main_v97 main_v95 main_v98 (mulf : (⟨S4096x8x12, .f32⟩ : BufTy).Contents (Elt F) → (⟨S4096x8x12, .f32⟩ : BufTy).Contents (Elt F) → (⟨S4096x8x12, .f32⟩ : BufTy).Contents (Elt F)),
    nullary main_cst_15 (constant S_ .f32 0x00000000#32),
    binary main_v98 main_cst_15 main_v99 ((fun x v => Host.reduceAdd x v reducesTo_S4096x8x12_S4096x12_d1 h_S_) : (⟨S4096x8x12, .f32⟩ : BufTy).Contents (Elt F) → (⟨S_, .f32⟩ : BufTy).Contents (Elt F) → (⟨S4096x12, .f32⟩ : BufTy).Contents (Elt F)),
    unary main_arg1 main_v100 (broadcastInDim S4096x128x1 ![0, 1] bcast_S4096x128_S4096x128x1_0_1 : (⟨S4096x128, .f32⟩ : BufTy).Contents (Elt F) → (⟨S4096x128x1, .f32⟩ : BufTy).Contents (Elt F)),
    unary main_v100 main_v101 (broadcastInDim S4096x128x96 ![0, 1, 2] bcast_S4096x128x1_S4096x128x96_0_1_2 : (⟨S4096x128x1, .f32⟩ : BufTy).Contents (Elt F) → (⟨S4096x128x96, .f32⟩ : BufTy).Contents (Elt F)) ]

/-- Operations 167 … 184 of 184 (a piece of `main_part2`). -/
abbrev p9 : List (HloOp τ sig (Elt F)) :=
  [ unary main_arg20 main_v102 (broadcastInDim S1x128x96 ![1, 2] bcast_S128x96_S1x128x96_1_2 : (⟨S128x96, .f32⟩ : BufTy).Contents (Elt F) → (⟨S1x128x96, .f32⟩ : BufTy).Contents (Elt F)),
    unary main_v102 main_v103 (broadcastInDim S4096x128x96 ![0, 1, 2] bcast_S1x128x96_S4096x128x96_0_1_2 : (⟨S1x128x96, .f32⟩ : BufTy).Contents (Elt F) → (⟨S4096x128x96, .f32⟩ : BufTy).Contents (Elt F)),
    binary main_v101 main_v103 main_v104 (mulf : (⟨S4096x128x96, .f32⟩ : BufTy).Contents (Elt F) → (⟨S4096x128x96, .f32⟩ : BufTy).Contents (Elt F) → (⟨S4096x128x96, .f32⟩ : BufTy).Contents (Elt F)),
    nullary main_cst_16 (constant S_ .f32 0x00000000#32),
    binary main_v104 main_cst_16 main_v105 ((fun x v => Host.reduceAdd x v reducesTo_S4096x128x96_S4096x96_d1 h_S_) : (⟨S4096x128x96, .f32⟩ : BufTy).Contents (Elt F) → (⟨S_, .f32⟩ : BufTy).Contents (Elt F) → (⟨S4096x96, .f32⟩ : BufTy).Contents (Elt F)),
    unary main_arg21 main_v106 (broadcastInDim S1x96 ![1] bcast_S96_S1x96_1 : (⟨S96, .f32⟩ : BufTy).Contents (Elt F) → (⟨S1x96, .f32⟩ : BufTy).Contents (Elt F)),
    unary main_v106 main_v107 (broadcastInDim S4096x96 ![0, 1] bcast_S1x96_S4096x96_0_1 : (⟨S1x96, .f32⟩ : BufTy).Contents (Elt F) → (⟨S4096x96, .f32⟩ : BufTy).Contents (Elt F)),
    binary main_v105 main_v107 main_v108 (addf : (⟨S4096x96, .f32⟩ : BufTy).Contents (Elt F) → (⟨S4096x96, .f32⟩ : BufTy).Contents (Elt F) → (⟨S4096x96, .f32⟩ : BufTy).Contents (Elt F)),
    reshape main_v108 main_v109 rfl shapeCasts_S4096x96_S4096x8x12,
    unary main_v85 main_v110 (broadcastInDim S4096x8x1 ![0, 1] bcast_S4096x8_S4096x8x1_0_1 : (⟨S4096x8, .f32⟩ : BufTy).Contents (Elt F) → (⟨S4096x8x1, .f32⟩ : BufTy).Contents (Elt F)),
    unary main_v110 main_v111 (broadcastInDim S4096x8x12 ![0, 1, 2] bcast_S4096x8x1_S4096x8x12_0_1_2 : (⟨S4096x8x1, .f32⟩ : BufTy).Contents (Elt F) → (⟨S4096x8x12, .f32⟩ : BufTy).Contents (Elt F)),
    binary main_v111 main_v109 main_v112 (mulf : (⟨S4096x8x12, .f32⟩ : BufTy).Contents (Elt F) → (⟨S4096x8x12, .f32⟩ : BufTy).Contents (Elt F) → (⟨S4096x8x12, .f32⟩ : BufTy).Contents (Elt F)),
    nullary main_cst_17 (constant S_ .f32 0x00000000#32),
    binary main_v112 main_cst_17 main_v113 ((fun x v => Host.reduceAdd x v reducesTo_S4096x8x12_S4096x12_d1 h_S_) : (⟨S4096x8x12, .f32⟩ : BufTy).Contents (Elt F) → (⟨S_, .f32⟩ : BufTy).Contents (Elt F) → (⟨S4096x12, .f32⟩ : BufTy).Contents (Elt F)),
    binary main_v99 main_v113 main_v114 (addf : (⟨S4096x12, .f32⟩ : BufTy).Contents (Elt F) → (⟨S4096x12, .f32⟩ : BufTy).Contents (Elt F) → (⟨S4096x12, .f32⟩ : BufTy).Contents (Elt F)),
    nullary main_cst_18 (constant S_ .f32 0x3F000000#32),
    unary main_cst_18 main_v115 (broadcastInDim S4096x12 ![] bcast_S_S4096x12 : (⟨S_, .f32⟩ : BufTy).Contents (Elt F) → (⟨S4096x12, .f32⟩ : BufTy).Contents (Elt F)),
    binary main_v115 main_v114 main_v116 (mulf : (⟨S4096x12, .f32⟩ : BufTy).Contents (Elt F) → (⟨S4096x12, .f32⟩ : BufTy).Contents (Elt F) → (⟨S4096x12, .f32⟩ : BufTy).Contents (Elt F)) ]

/-- The operations of `main_part0`. -/
abbrev ops_main_part0 : List (HloOp τ sig (Elt F)) := p1 ++ (p2 ++ (p3 ++ (p4 ++ (p5))))

/-- The operations of `main_part1`. -/
abbrev ops_main_part1 : List (HloOp τ sig (Elt F)) := p6 ++ (p7 ++ (p8))

/-- The operations of `main_part2`. -/
abbrev ops_main_part2 : List (HloOp τ sig (Elt F)) := p9

/-- @main's 184 operations, in order, the calls unfolded. -/
abbrev ops : List (HloOp τ sig (Elt F)) := p1 ++ (p2 ++ (p3 ++ (p4 ++ (p5 ++ (p6 ++ (p7 ++ (p8 ++ (p9))))))))

set_option maxRecDepth 8192 in
set_option maxHeartbeats 4000000 in
/-- `main_part0` is the straight line of its operations: the callees' bodies unfold at their calls. -/
theorem main_part0_eq (c : Dev nD) : main_part0 (F := F) c = seq ops_main_part0 := rfl

set_option maxRecDepth 8192 in
set_option maxHeartbeats 4000000 in
/-- `main_part1` is the straight line of its operations: the callees' bodies unfold at their calls. -/
theorem main_part1_eq (c : Dev nD) : main_part1 (F := F) c = seq ops_main_part1 := rfl

set_option maxRecDepth 8192 in
set_option maxHeartbeats 4000000 in
/-- `main_part2` is the straight line of its operations: the callees' bodies unfold at their calls. -/
theorem main_part2_eq (c : Dev nD) : main_part2 (F := F) c = seq ops_main_part2 := rfl

set_option maxRecDepth 8192 in
/-- @main runs its three windows in order; each is the line of its operations, and lines concatenate (`seq_append`). -/
theorem main_eq (c : Dev nD) : main (F := F) c = seq ops := by
  have h : main (F := F) c = (main_part0 (F := F) c >>= fun _ => main_part1 (F := F) c >>= fun _ => main_part2 (F := F) c) := rfl
  rw [h, main_part0_eq, main_part1_eq, main_part2_eq]
  simp only [ops, ops_main_part0, ops_main_part1, ops_main_part2, seq_append, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem p1_sub : (p1 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub ..⟩

set_option maxRecDepth 8192 in
theorem p2_sub : (p2 : List (HloOp τ sig (Elt F))).Forall fun op => op.bufs ⊆ tcRefs τ sig :=
  ⟨nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩

set_option maxRecDepth 8192 in
theorem p3_sub : (p3 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub ..⟩

set_option maxRecDepth 8192 in
theorem p4_sub : (p4 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩

set_option maxRecDepth 8192 in
theorem p5_sub : (p5 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem p6_sub : (p6 : List (HloOp τ sig (Elt F))).Forall fun op => op.bufs ⊆ tcRefs τ sig :=
  ⟨binary_bufs_sub .., unary_bufs_sub .., unary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub ..⟩

set_option maxRecDepth 8192 in
theorem p7_sub : (p7 : List (HloOp τ sig (Elt F))).Forall fun op => op.bufs ⊆ tcRefs τ sig :=
  ⟨unary_bufs_sub .., unary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub ..⟩

set_option maxRecDepth 8192 in
theorem p8_sub : (p8 : List (HloOp τ sig (Elt F))).Forall fun op => op.bufs ⊆ tcRefs τ sig :=
  ⟨unary_bufs_sub .., binary_bufs_sub .., unary_bufs_sub .., unary_bufs_sub .., unary_bufs_sub .., unary_bufs_sub .., binary_bufs_sub .., nullary_bufs_sub .., binary_bufs_sub .., unary_bufs_sub .., unary_bufs_sub .., binary_bufs_sub .., reshape_bufs_sub .., unary_bufs_sub .., unary_bufs_sub .., binary_bufs_sub .., nullary_bufs_sub .., binary_bufs_sub .., unary_bufs_sub .., unary_bufs_sub ..⟩

set_option maxRecDepth 8192 in
theorem p9_sub : (p9 : List (HloOp τ sig (Elt F))).Forall fun op => op.bufs ⊆ tcRefs τ sig :=
  ⟨unary_bufs_sub .., unary_bufs_sub .., binary_bufs_sub .., nullary_bufs_sub .., binary_bufs_sub .., unary_bufs_sub .., unary_bufs_sub .., binary_bufs_sub .., reshape_bufs_sub .., unary_bufs_sub .., unary_bufs_sub .., binary_bufs_sub .., nullary_bufs_sub .., binary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp p1_sub op h, List.forall_iff_forall_mem.mp p2_sub op h, List.forall_iff_forall_mem.mp p3_sub op h, List.forall_iff_forall_mem.mp p4_sub op h, List.forall_iff_forall_mem.mp p5_sub op h, List.forall_iff_forall_mem.mp p6_sub op h, List.forall_iff_forall_mem.mp p7_sub op h, List.forall_iff_forall_mem.mp p8_sub op h, List.forall_iff_forall_mem.mp p9_sub op h]

/-- Running two lines one after the other from contents `V` is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.RefRun

end
-- ==== Proof.RefRun.Vals.lean ====
/- What each buffer holds after each piece of the operation list, as a term of the contents the line starts from:
   piece by piece, a buffer written in the piece read off its operations' results, any other kept. -/
import proofs.«150749_g69896297775690_cont_9to1c4b_828_3_alg».proof.Proof.RefRun.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before the first piece. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl
theorem val0_main_arg20 (V0 : Valuation τ sig (Elt F)) : val0 V0 (no_index (Proc.devRef .tc main_arg20)) = V0 (Proc.devRef .tc main_arg20) := rfl
theorem val0_main_arg21 (V0 : Valuation τ sig (Elt F)) : val0 V0 (no_index (Proc.devRef .tc main_arg21)) = V0 (Proc.devRef .tc main_arg21) := rfl

/-- The device's buffer contents after the first 1 piece. -/
def val1 (V0 : Valuation τ sig (Elt F)) : Valuation τ sig (Elt F) := after p1 (val0 V0)
/-- The buffers that piece 1's operations write. -/
abbrev p1_W : List (Ref sig .tc) := [main_v0, main_v1, main_v2, main_v3, main_cst, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8]
set_option maxRecDepth 8192 in
theorem p1_writes : (p1 : List (HloOp τ sig (Elt F))).Forall fun op => op.writes ⊆ (p1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that piece 1 does not write keeps its contents through it. -/
theorem val1_keep (V0 : Valuation τ sig (Elt F)) (r : Ref sig .tc) (h : r ∉ p1_W) :
    val1 V0 (Proc.devRef .tc r) = val0 V0 (Proc.devRef .tc r) :=
  after_of_writes_sub p1 _ p1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
theorem val1_main_arg19 (V0 : Valuation τ sig (Elt F)) : val1 V0 (no_index (Proc.devRef .tc main_arg19)) = V0 (Proc.devRef .tc main_arg19) :=
  (val1_keep V0 main_arg19 (by decide)).trans (val0_main_arg19 V0)
theorem val1_main_arg20 (V0 : Valuation τ sig (Elt F)) : val1 V0 (no_index (Proc.devRef .tc main_arg20)) = V0 (Proc.devRef .tc main_arg20) :=
  (val1_keep V0 main_arg20 (by decide)).trans (val0_main_arg20 V0)
theorem val1_main_arg21 (V0 : Valuation τ sig (Elt F)) : val1 V0 (no_index (Proc.devRef .tc main_arg21)) = V0 (Proc.devRef .tc main_arg21) :=
  (val1_keep V0 main_arg21 (by decide)).trans (val0_main_arg21 V0)
set_option maxRecDepth 8192 in
set_option maxHeartbeats 2000000 in
theorem val1_main_v3 (V0 : Valuation τ sig (Elt F)) : val1 V0 (no_index (Proc.devRef .tc main_v3)) = (addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5)))) := by
  unfold val1
  simp only [p1]
  after_results_simp
  simp only [val0_main_arg5, val0_main_arg4, val0_main_arg2] <;> rfl
set_option maxRecDepth 8192 in
set_option maxHeartbeats 2000000 in
theorem val1_main_v6 (V0 : Valuation τ sig (Elt F)) : val1 V0 (no_index (Proc.devRef .tc main_v6)) = (Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))) := by
  unfold val1
  simp only [p1]
  after_results_simp
  simp only [val0_main_arg5, val0_main_arg4, val0_main_arg2] <;> rfl
set_option maxRecDepth 8192 in
set_option maxHeartbeats 2000000 in
theorem val1_main_call0_v6 (V0 : Valuation τ sig (Elt F)) : val1 V0 (no_index (Proc.devRef .tc main_call0_v6)) = (mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) := by
  unfold val1
  simp only [p1]
  after_results_simp
  simp only [val0_main_arg5, val0_main_arg4, val0_main_arg2] <;> rfl
set_option maxRecDepth 8192 in
set_option maxHeartbeats 2000000 in
theorem val1_main_call0_v8 (V0 : Valuation τ sig (Elt F)) : val1 V0 (no_index (Proc.devRef .tc main_call0_v8)) = (subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F)))) := by
  unfold val1
  simp only [p1]
  after_results_simp
  all_goals rfl

/-- The device's buffer contents after the first 2 pieces. -/
def val2 (V0 : Valuation τ sig (Elt F)) : Valuation τ sig (Elt F) := after p2 (val1 V0)
/-- The buffers that piece 2's operations write. -/
abbrev p2_W : List (Ref sig .tc) := [main_call0_cst_2, main_call0_v9, main_call0_v10, main_call0_v11, main_call0_cst_3, main_call0_v12, main_call0_cst_4, main_call0_call0_v0, main_call0_call0_v1, main_v7, main_v8, main_v9, main_v10, main_cst_1, main_v11, main_v12, main_v13, main_v14, main_v15, main_v16, main_v17, main_v18]
set_option maxRecDepth 8192 in
theorem p2_writes : (p2 : List (HloOp τ sig (Elt F))).Forall fun op => op.writes ⊆ (p2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that piece 2 does not write keeps its contents through it. -/
theorem val2_keep (V0 : Valuation τ sig (Elt F)) (r : Ref sig .tc) (h : r ∉ p2_W) :
    val2 V0 (Proc.devRef .tc r) = val1 V0 (Proc.devRef .tc r) :=
  after_of_writes_sub p2 _ p2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_arg20 (V0 : Valuation τ sig (Elt F)) : val2 V0 (no_index (Proc.devRef .tc main_arg20)) = V0 (Proc.devRef .tc main_arg20) :=
  (val2_keep V0 main_arg20 (by decide)).trans (val1_main_arg20 V0)
theorem val2_main_arg21 (V0 : Valuation τ sig (Elt F)) : val2 V0 (no_index (Proc.devRef .tc main_arg21)) = V0 (Proc.devRef .tc main_arg21) :=
  (val2_keep V0 main_arg21 (by decide)).trans (val1_main_arg21 V0)
set_option maxRecDepth 8192 in
set_option maxHeartbeats 2000000 in
theorem val2_main_v16 (V0 : Valuation τ sig (Elt F)) : val2 V0 (no_index (Proc.devRef .tc main_v16)) = (Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F)))))))) := by
  unfold val2
  simp only [p2]
  after_results_simp
  simp only [val1_main_call0_v8, val1_main_call0_v6, val1_main_v6, val1_main_v3] <;> rfl
set_option maxRecDepth 8192 in
set_option maxHeartbeats 2000000 in
theorem val2_main_v18 (V0 : Valuation τ sig (Elt F)) : val2 V0 (no_index (Proc.devRef .tc main_v18)) = (broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))) := by
  unfold val2
  simp only [p2]
  after_results_simp
  simp only [val1_main_arg6] <;> rfl

/-- The device's buffer contents after the first 3 pieces. -/
def val3 (V0 : Valuation τ sig (Elt F)) : Valuation τ sig (Elt F) := after p3 (val2 V0)
/-- The buffers that piece 3's operations write. -/
abbrev p3_W : List (Ref sig .tc) := [main_v19, main_v20, main_v21, main_v22, main_call1_cst, main_call1_v0, main_v23, main_v24, main_v25, main_v26, main_v27, main_v28, main_v29, main_v30, main_v31, main_cst_2, main_v32, main_cst_3, main_v33, main_v34, main_c_4, main_call2_cst]
set_option maxRecDepth 8192 in
theorem p3_writes : (p3 : List (HloOp τ sig (Elt F))).Forall fun op => op.writes ⊆ (p3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that piece 3 does not write keeps its contents through it. -/
theorem val3_keep (V0 : Valuation τ sig (Elt F)) (r : Ref sig .tc) (h : r ∉ p3_W) :
    val3 V0 (Proc.devRef .tc r) = val2 V0 (Proc.devRef .tc r) :=
  after_of_writes_sub p3 _ p3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_arg20 (V0 : Valuation τ sig (Elt F)) : val3 V0 (no_index (Proc.devRef .tc main_arg20)) = V0 (Proc.devRef .tc main_arg20) :=
  (val3_keep V0 main_arg20 (by decide)).trans (val2_main_arg20 V0)
theorem val3_main_arg21 (V0 : Valuation τ sig (Elt F)) : val3 V0 (no_index (Proc.devRef .tc main_arg21)) = V0 (Proc.devRef .tc main_arg21) :=
  (val3_keep V0 main_arg21 (by decide)).trans (val2_main_arg21 V0)
set_option maxRecDepth 8192 in
set_option maxHeartbeats 2000000 in
theorem val3_main_v27 (V0 : Valuation τ sig (Elt F)) : val3 V0 (no_index (Proc.devRef .tc main_v27)) = (addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9)))) := by
  unfold val3
  simp only [p3]
  after_results_simp
  simp only [val2_main_arg9, val2_main_arg8, val2_main_arg7, val2_main_v18, val2_main_v16] <;> rfl
set_option maxRecDepth 8192 in
set_option maxHeartbeats 2000000 in
theorem val3_main_v31 (V0 : Valuation τ sig (Elt F)) : val3 V0 (no_index (Proc.devRef .tc main_v31)) = (addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11)))) := by
  unfold val3
  simp only [p3]
  after_results_simp
  simp only [val2_main_arg11, val2_main_arg10, val2_main_arg3] <;> rfl
set_option maxRecDepth 8192 in
set_option maxHeartbeats 2000000 in
theorem val3_main_v34 (V0 : Valuation τ sig (Elt F)) : val3 V0 (no_index (Proc.devRef .tc main_v34)) = (Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))) := by
  unfold val3
  simp only [p3]
  after_results_simp
  simp only [val2_main_arg11, val2_main_arg10, val2_main_arg3] <;> rfl
set_option maxRecDepth 8192 in
set_option maxHeartbeats 2000000 in
theorem val3_main_c_4 (V0 : Valuation τ sig (Elt F)) : val3 V0 (no_index (Proc.devRef .tc main_c_4)) = (constantI S_ 32 0#32 : (⟨S_, .i32⟩ : BufTy).Contents (Elt F)) := by
  unfold val3
  simp only [p3]
  after_results_simp
  all_goals rfl
set_option maxRecDepth 8192 in
set_option maxHeartbeats 2000000 in
theorem val3_main_call2_cst (V0 : Valuation τ sig (Elt F)) : val3 V0 (no_index (Proc.devRef .tc main_call2_cst)) = (constant S_ .f32 0x00000000#32 : (⟨S_, .f32⟩ : BufTy).Contents (Elt F)) := by
  unfold val3
  simp only [p3]
  after_results_simp
  all_goals rfl

/-- The device's buffer contents after the first 4 pieces. -/
def val4 (V0 : Valuation τ sig (Elt F)) : Valuation τ sig (Elt F) := after p4 (val3 V0)
/-- The buffers that piece 4's operations write. -/
abbrev p4_W : List (Ref sig .tc) := [main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v35, main_v36]
set_option maxRecDepth 8192 in
theorem p4_writes : (p4 : List (HloOp τ sig (Elt F))).Forall fun op => op.writes ⊆ (p4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that piece 4 does not write keeps its contents through it. -/
theorem val4_keep (V0 : Valuation τ sig (Elt F)) (r : Ref sig .tc) (h : r ∉ p4_W) :
    val4 V0 (Proc.devRef .tc r) = val3 V0 (Proc.devRef .tc r) :=
  after_of_writes_sub p4 _ p4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_arg20 (V0 : Valuation τ sig (Elt F)) : val4 V0 (no_index (Proc.devRef .tc main_arg20)) = V0 (Proc.devRef .tc main_arg20) :=
  (val4_keep V0 main_arg20 (by decide)).trans (val3_main_arg20 V0)
theorem val4_main_arg21 (V0 : Valuation τ sig (Elt F)) : val4 V0 (no_index (Proc.devRef .tc main_arg21)) = V0 (Proc.devRef .tc main_arg21) :=
  (val4_keep V0 main_arg21 (by decide)).trans (val3_main_arg21 V0)
theorem val4_main_v27 (V0 : Valuation τ sig (Elt F)) : val4 V0 (no_index (Proc.devRef .tc main_v27)) = (addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9)))) :=
  (val4_keep V0 main_v27 (by decide)).trans (val3_main_v27 V0)
theorem val4_main_v31 (V0 : Valuation τ sig (Elt F)) : val4 V0 (no_index (Proc.devRef .tc main_v31)) = (addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11)))) :=
  (val4_keep V0 main_v31 (by decide)).trans (val3_main_v31 V0)
set_option maxRecDepth 8192 in
set_option maxHeartbeats 2000000 in
theorem val4_main_v35 (V0 : Valuation τ sig (Elt F)) : val4 V0 (no_index (Proc.devRef .tc main_v35)) = ((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F))))) := by
  unfold val4
  simp only [p4]
  after_results_simp
  simp only [val3_main_c_4, val3_main_call2_cst, val3_main_v31] <;> rfl
set_option maxRecDepth 8192 in
set_option maxHeartbeats 2000000 in
theorem val4_main_v36 (V0 : Valuation τ sig (Elt F)) : val4 V0 (no_index (Proc.devRef .tc main_v36)) = (broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F))))) := by
  unfold val4
  simp only [p4]
  after_results_simp
  simp only [val3_main_v34] <;> rfl

/-- The device's buffer contents after the first 5 pieces. -/
def val5 (V0 : Valuation τ sig (Elt F)) : Valuation τ sig (Elt F) := after p5 (val4 V0)
/-- The buffers that piece 5's operations write. -/
abbrev p5_W : List (Ref sig .tc) := [main_v37, main_v38, main_cst_5, main_v39, main_v40, main_v41, main_v42, main_v43, main_v44, main_v45, main_v46, main_v47, main_v48, main_v49, main_v50, main_call3_cst, main_call3_v0, main_v51]
set_option maxRecDepth 8192 in
theorem p5_writes : (p5 : List (HloOp τ sig (Elt F))).Forall fun op => op.writes ⊆ (p5_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that piece 5 does not write keeps its contents through it. -/
theorem val5_keep (V0 : Valuation τ sig (Elt F)) (r : Ref sig .tc) (h : r ∉ p5_W) :
    val5 V0 (Proc.devRef .tc r) = val4 V0 (Proc.devRef .tc r) :=
  after_of_writes_sub p5 _ p5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_arg19 (V0 : Valuation τ sig (Elt F)) : val5 V0 (no_index (Proc.devRef .tc main_arg19)) = V0 (Proc.devRef .tc main_arg19) :=
  (val5_keep V0 main_arg19 (by decide)).trans (val4_main_arg19 V0)
theorem val5_main_arg20 (V0 : Valuation τ sig (Elt F)) : val5 V0 (no_index (Proc.devRef .tc main_arg20)) = V0 (Proc.devRef .tc main_arg20) :=
  (val5_keep V0 main_arg20 (by decide)).trans (val4_main_arg20 V0)
theorem val5_main_arg21 (V0 : Valuation τ sig (Elt F)) : val5 V0 (no_index (Proc.devRef .tc main_arg21)) = V0 (Proc.devRef .tc main_arg21) :=
  (val5_keep V0 main_arg21 (by decide)).trans (val4_main_arg21 V0)
theorem val5_main_v27 (V0 : Valuation τ sig (Elt F)) : val5 V0 (no_index (Proc.devRef .tc main_v27)) = (addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9)))) :=
  (val5_keep V0 main_v27 (by decide)).trans (val4_main_v27 V0)
set_option maxRecDepth 8192 in
set_option maxHeartbeats 2000000 in
theorem val5_main_v51 (V0 : Valuation τ sig (Elt F)) : val5 V0 (no_index (Proc.devRef .tc main_v51)) = (maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F)))) := by
  unfold val5
  simp only [p5]
  after_results_simp
  simp only [val4_main_arg13, val4_main_arg12, val4_main_v35, val4_main_v36, val4_main_v31] <;> rfl

/-- The device's buffer contents after the first 6 pieces. -/
def val6 (V0 : Valuation τ sig (Elt F)) : Valuation τ sig (Elt F) := after p6 (val5 V0)
/-- The buffers that piece 6's operations write. -/
abbrev p6_W : List (Ref sig .tc) := [main_v52, main_v53, main_v54, main_v55, main_v56, main_v57, main_cst_6, main_v58, main_v59, main_cst_7, main_v60, main_cst_8, main_v61, main_v62, main_v63, main_v64, main_v65, main_v66, main_cst_9, main_v67]
set_option maxRecDepth 8192 in
theorem p6_writes : (p6 : List (HloOp τ sig (Elt F))).Forall fun op => op.writes ⊆ (p6_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that piece 6 does not write keeps its contents through it. -/
theorem val6_keep (V0 : Valuation τ sig (Elt F)) (r : Ref sig .tc) (h : r ∉ p6_W) :
    val6 V0 (Proc.devRef .tc r) = val5 V0 (Proc.devRef .tc r) :=
  after_of_writes_sub p6 _ p6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
theorem val6_main_arg19 (V0 : Valuation τ sig (Elt F)) : val6 V0 (no_index (Proc.devRef .tc main_arg19)) = V0 (Proc.devRef .tc main_arg19) :=
  (val6_keep V0 main_arg19 (by decide)).trans (val5_main_arg19 V0)
theorem val6_main_arg20 (V0 : Valuation τ sig (Elt F)) : val6 V0 (no_index (Proc.devRef .tc main_arg20)) = V0 (Proc.devRef .tc main_arg20) :=
  (val6_keep V0 main_arg20 (by decide)).trans (val5_main_arg20 V0)
theorem val6_main_arg21 (V0 : Valuation τ sig (Elt F)) : val6 V0 (no_index (Proc.devRef .tc main_arg21)) = V0 (Proc.devRef .tc main_arg21) :=
  (val6_keep V0 main_arg21 (by decide)).trans (val5_main_arg21 V0)
set_option maxRecDepth 8192 in
set_option maxHeartbeats 2000000 in
theorem val6_main_v55 (V0 : Valuation τ sig (Elt F)) : val6 V0 (no_index (Proc.devRef .tc main_v55)) = (addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15)))) := by
  unfold val6
  simp only [p6]
  after_results_simp
  simp only [val5_main_arg15, val5_main_arg14, val5_main_v51] <;> rfl
set_option maxRecDepth 8192 in
set_option maxHeartbeats 2000000 in
theorem val6_main_v66 (V0 : Valuation τ sig (Elt F)) : val6 V0 (no_index (Proc.devRef .tc main_v66)) = (Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F)))))))) := by
  unfold val6
  simp only [p6]
  after_results_simp
  simp only [val5_main_arg16, val5_main_v27] <;> rfl
set_option maxRecDepth 8192 in
set_option maxHeartbeats 2000000 in
theorem val6_main_v67 (V0 : Valuation τ sig (Elt F)) : val6 V0 (no_index (Proc.devRef .tc main_v67)) = ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((constant S_ .f32 0x00000000#32 : (⟨S_, .f32⟩ : BufTy).Contents (Elt F))) := by
  unfold val6
  simp only [p6]
  after_results_simp
  simp only [val5_main_arg16, val5_main_v27] <;> rfl

/-- The device's buffer contents after the first 7 pieces. -/
def val7 (V0 : Valuation τ sig (Elt F)) : Valuation τ sig (Elt F) := after p7 (val6 V0)
/-- The buffers that piece 7's operations write. -/
abbrev p7_W : List (Ref sig .tc) := [main_v68, main_v69, main_v70, main_v71, main_v72, main_cst_10, main_v73, main_v74, main_cst_11, main_v75, main_cst_12, main_v76, main_v77, main_v78, main_v79, main_v80, main_v81, main_cst_13, main_v82, main_v83]
set_option maxRecDepth 8192 in
theorem p7_writes : (p7 : List (HloOp τ sig (Elt F))).Forall fun op => op.writes ⊆ (p7_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that piece 7 does not write keeps its contents through it. -/
theorem val7_keep (V0 : Valuation τ sig (Elt F)) (r : Ref sig .tc) (h : r ∉ p7_W) :
    val7 V0 (Proc.devRef .tc r) = val6 V0 (Proc.devRef .tc r) :=
  after_of_writes_sub p7 _ p7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_arg18 (V0 : Valuation τ sig (Elt F)) : val7 V0 (no_index (Proc.devRef .tc main_arg18)) = V0 (Proc.devRef .tc main_arg18) :=
  (val7_keep V0 main_arg18 (by decide)).trans (val6_main_arg18 V0)
theorem val7_main_arg19 (V0 : Valuation τ sig (Elt F)) : val7 V0 (no_index (Proc.devRef .tc main_arg19)) = V0 (Proc.devRef .tc main_arg19) :=
  (val7_keep V0 main_arg19 (by decide)).trans (val6_main_arg19 V0)
theorem val7_main_arg20 (V0 : Valuation τ sig (Elt F)) : val7 V0 (no_index (Proc.devRef .tc main_arg20)) = V0 (Proc.devRef .tc main_arg20) :=
  (val7_keep V0 main_arg20 (by decide)).trans (val6_main_arg20 V0)
theorem val7_main_arg21 (V0 : Valuation τ sig (Elt F)) : val7 V0 (no_index (Proc.devRef .tc main_arg21)) = V0 (Proc.devRef .tc main_arg21) :=
  (val7_keep V0 main_arg21 (by decide)).trans (val6_main_arg21 V0)
set_option maxRecDepth 8192 in
set_option maxHeartbeats 2000000 in
theorem val7_main_v70 (V0 : Valuation τ sig (Elt F)) : val7 V0 (no_index (Proc.devRef .tc main_v70)) = (Host.divf : (⟨S4096x8, .f32⟩ : BufTy).Contents (Elt F) → (⟨S4096x8, .f32⟩ : BufTy).Contents (Elt F) → (⟨S4096x8, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) (((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((constant S_ .f32 0x00000000#32 : (⟨S_, .f32⟩ : BufTy).Contents (Elt F)))))) := by
  unfold val7
  simp only [p7]
  after_results_simp
  simp only [val6_main_v67, val6_main_v66] <;> rfl
set_option maxRecDepth 8192 in
set_option maxHeartbeats 2000000 in
theorem val7_main_v81 (V0 : Valuation τ sig (Elt F)) : val7 V0 (no_index (Proc.devRef .tc main_v81)) = (Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F)))))))) := by
  unfold val7
  simp only [p7]
  after_results_simp
  simp only [val6_main_arg17, val6_main_v55] <;> rfl
set_option maxRecDepth 8192 in
set_option maxHeartbeats 2000000 in
theorem val7_main_v83 (V0 : Valuation τ sig (Elt F)) : val7 V0 (no_index (Proc.devRef .tc main_v83)) = (broadcastInDim S4096x1 ![0] bcast_S4096_S4096x1_0 : (⟨S4096, .f32⟩ : BufTy).Contents (Elt F) → (⟨S4096x1, .f32⟩ : BufTy).Contents (Elt F)) (((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((constant S_ .f32 0x00000000#32 : (⟨S_, .f32⟩ : BufTy).Contents (Elt F)))) := by
  unfold val7
  simp only [p7]
  after_results_simp
  simp only [val6_main_arg17, val6_main_v55] <;> rfl

/-- The device's buffer contents after the first 8 pieces. -/
def val8 (V0 : Valuation τ sig (Elt F)) : Valuation τ sig (Elt F) := after p8 (val7 V0)
/-- The buffers that piece 8's operations write. -/
abbrev p8_W : List (Ref sig .tc) := [main_v84, main_v85, main_v86, main_v87, main_v88, main_v89, main_v90, main_cst_14, main_v91, main_v92, main_v93, main_v94, main_v95, main_v96, main_v97, main_v98, main_cst_15, main_v99, main_v100, main_v101]
set_option maxRecDepth 8192 in
theorem p8_writes : (p8 : List (HloOp τ sig (Elt F))).Forall fun op => op.writes ⊆ (p8_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that piece 8 does not write keeps its contents through it. -/
theorem val8_keep (V0 : Valuation τ sig (Elt F)) (r : Ref sig .tc) (h : r ∉ p8_W) :
    val8 V0 (Proc.devRef .tc r) = val7 V0 (Proc.devRef .tc r) :=
  after_of_writes_sub p8 _ p8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_arg18 (V0 : Valuation τ sig (Elt F)) : val8 V0 (no_index (Proc.devRef .tc main_arg18)) = V0 (Proc.devRef .tc main_arg18) :=
  (val8_keep V0 main_arg18 (by decide)).trans (val7_main_arg18 V0)
theorem val8_main_arg19 (V0 : Valuation τ sig (Elt F)) : val8 V0 (no_index (Proc.devRef .tc main_arg19)) = V0 (Proc.devRef .tc main_arg19) :=
  (val8_keep V0 main_arg19 (by decide)).trans (val7_main_arg19 V0)
theorem val8_main_arg20 (V0 : Valuation τ sig (Elt F)) : val8 V0 (no_index (Proc.devRef .tc main_arg20)) = V0 (Proc.devRef .tc main_arg20) :=
  (val8_keep V0 main_arg20 (by decide)).trans (val7_main_arg20 V0)
theorem val8_main_arg21 (V0 : Valuation τ sig (Elt F)) : val8 V0 (no_index (Proc.devRef .tc main_arg21)) = V0 (Proc.devRef .tc main_arg21) :=
  (val8_keep V0 main_arg21 (by decide)).trans (val7_main_arg21 V0)
set_option maxRecDepth 8192 in
set_option maxHeartbeats 2000000 in
theorem val8_main_v85 (V0 : Valuation τ sig (Elt F)) : val8 V0 (no_index (Proc.devRef .tc main_v85)) = (Host.divf : (⟨S4096x8, .f32⟩ : BufTy).Contents (Elt F) → (⟨S4096x8, .f32⟩ : BufTy).Contents (Elt F) → (⟨S4096x8, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) (((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((constant S_ .f32 0x00000000#32 : (⟨S_, .f32⟩ : BufTy).Contents (Elt F)))))) := by
  unfold val8
  simp only [p8]
  after_results_simp
  simp only [val7_main_v83, val7_main_v81] <;> rfl
set_option maxRecDepth 8192 in
set_option maxHeartbeats 2000000 in
theorem val8_main_v99 (V0 : Valuation τ sig (Elt F)) : val8 V0 (no_index (Proc.devRef .tc main_v99)) = ((fun x v => Host.reduceAdd x v reducesTo_S4096x8x12_S4096x12_d1 h_S_) : (⟨S4096x8x12, .f32⟩ : BufTy).Contents (Elt F) → (⟨S_, .f32⟩ : BufTy).Contents (Elt F) → (⟨S4096x12, .f32⟩ : BufTy).Contents (Elt F)) ((mulf : (⟨S4096x8x12, .f32⟩ : BufTy).Contents (Elt F) → (⟨S4096x8x12, .f32⟩ : BufTy).Contents (Elt F) → (⟨S4096x8x12, .f32⟩ : BufTy).Contents (Elt F)) ((broadcastInDim S4096x8x12 ![0, 1, 2] bcast_S4096x8x1_S4096x8x12_0_1_2 : (⟨S4096x8x1, .f32⟩ : BufTy).Contents (Elt F) → (⟨S4096x8x12, .f32⟩ : BufTy).Contents (Elt F)) ((broadcastInDim S4096x8x1 ![0, 1] bcast_S4096x8_S4096x8x1_0_1 : (⟨S4096x8, .f32⟩ : BufTy).Contents (Elt F) → (⟨S4096x8x1, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) (((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((constant S_ .f32 0x00000000#32 : (⟨S_, .f32⟩ : BufTy).Contents (Elt F))))))))) (((shapeCast S4096x8x12 · shapeCasts_S4096x96_S4096x8x12) : (⟨S4096x96, .f32⟩ : BufTy).Contents (Elt F) → (⟨S4096x8x12, .f32⟩ : BufTy).Contents (Elt F)) ((addf : (⟨S4096x96, .f32⟩ : BufTy).Contents (Elt F) → (⟨S4096x96, .f32⟩ : BufTy).Contents (Elt F) → (⟨S4096x96, .f32⟩ : BufTy).Contents (Elt F)) (((fun x v => Host.reduceAdd x v reducesTo_S4096x128x96_S4096x96_d1 h_S_) : (⟨S4096x128x96, .f32⟩ : BufTy).Contents (Elt F) → (⟨S_, .f32⟩ : BufTy).Contents (Elt F) → (⟨S4096x96, .f32⟩ : BufTy).Contents (Elt F)) ((mulf : (⟨S4096x128x96, .f32⟩ : BufTy).Contents (Elt F) → (⟨S4096x128x96, .f32⟩ : BufTy).Contents (Elt F) → (⟨S4096x128x96, .f32⟩ : BufTy).Contents (Elt F)) ((broadcastInDim S4096x128x96 ![0, 1, 2] bcast_S4096x128x1_S4096x128x96_0_1_2 : (⟨S4096x128x1, .f32⟩ : BufTy).Contents (Elt F) → (⟨S4096x128x96, .f32⟩ : BufTy).Contents (Elt F)) ((broadcastInDim S4096x128x1 ![0, 1] bcast_S4096x128_S4096x128x1_0_1 : (⟨S4096x128, .f32⟩ : BufTy).Contents (Elt F) → (⟨S4096x128x1, .f32⟩ : BufTy).Contents (Elt F)) (V0 (Proc.devRef .tc main_arg0)))) ((broadcastInDim S4096x128x96 ![0, 1, 2] bcast_S1x128x96_S4096x128x96_0_1_2 : (⟨S1x128x96, .f32⟩ : BufTy).Contents (Elt F) → (⟨S4096x128x96, .f32⟩ : BufTy).Contents (Elt F)) ((broadcastInDim S1x128x96 ![1, 2] bcast_S128x96_S1x128x96_1_2 : (⟨S128x96, .f32⟩ : BufTy).Contents (Elt F) → (⟨S1x128x96, .f32⟩ : BufTy).Contents (Elt F)) (V0 (Proc.devRef .tc main_arg18))))) ((constant S_ .f32 0x00000000#32 : (⟨S_, .f32⟩ : BufTy).Contents (Elt F)))) ((broadcastInDim S4096x96 ![0, 1] bcast_S1x96_S4096x96_0_1 : (⟨S1x96, .f32⟩ : BufTy).Contents (Elt F) → (⟨S4096x96, .f32⟩ : BufTy).Contents (Elt F)) ((broadcastInDim S1x96 ![1] bcast_S96_S1x96_1 : (⟨S96, .f32⟩ : BufTy).Contents (Elt F) → (⟨S1x96, .f32⟩ : BufTy).Contents (Elt F)) (V0 (Proc.devRef .tc main_arg19))))))) ((constant S_ .f32 0x00000000#32 : (⟨S_, .f32⟩ : BufTy).Contents (Elt F))) := by
  unfold val8
  simp only [p8]
  after_results_simp
  simp only [val7_main_arg19, val7_main_arg18, val7_main_arg0, val7_main_v70] <;> rfl
set_option maxRecDepth 8192 in
set_option maxHeartbeats 2000000 in
theorem val8_main_v101 (V0 : Valuation τ sig (Elt F)) : val8 V0 (no_index (Proc.devRef .tc main_v101)) = (broadcastInDim S4096x128x96 ![0, 1, 2] bcast_S4096x128x1_S4096x128x96_0_1_2 : (⟨S4096x128x1, .f32⟩ : BufTy).Contents (Elt F) → (⟨S4096x128x96, .f32⟩ : BufTy).Contents (Elt F)) ((broadcastInDim S4096x128x1 ![0, 1] bcast_S4096x128_S4096x128x1_0_1 : (⟨S4096x128, .f32⟩ : BufTy).Contents (Elt F) → (⟨S4096x128x1, .f32⟩ : BufTy).Contents (Elt F)) (V0 (Proc.devRef .tc main_arg1))) := by
  unfold val8
  simp only [p8]
  after_results_simp
  simp only [val7_main_arg1] <;> rfl

/-- The device's buffer contents after the first 9 pieces. -/
def val9 (V0 : Valuation τ sig (Elt F)) : Valuation τ sig (Elt F) := after p9 (val8 V0)
/-- The buffers that piece 9's operations write. -/
abbrev p9_W : List (Ref sig .tc) := [main_v102, main_v103, main_v104, main_cst_16, main_v105, main_v106, main_v107, main_v108, main_v109, main_v110, main_v111, main_v112, main_cst_17, main_v113, main_v114, main_cst_18, main_v115, main_v116]
set_option maxRecDepth 8192 in
theorem p9_writes : (p9 : List (HloOp τ sig (Elt F))).Forall fun op => op.writes ⊆ (p9_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that piece 9 does not write keeps its contents through it. -/
theorem val9_keep (V0 : Valuation τ sig (Elt F)) (r : Ref sig .tc) (h : r ∉ p9_W) :
    val9 V0 (Proc.devRef .tc r) = val8 V0 (Proc.devRef .tc r) :=
  after_of_writes_sub p9 _ p9_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_arg18 (V0 : Valuation τ sig (Elt F)) : val9 V0 (no_index (Proc.devRef .tc main_arg18)) = V0 (Proc.devRef .tc main_arg18) :=
  (val9_keep V0 main_arg18 (by decide)).trans (val8_main_arg18 V0)
theorem val9_main_arg19 (V0 : Valuation τ sig (Elt F)) : val9 V0 (no_index (Proc.devRef .tc main_arg19)) = V0 (Proc.devRef .tc main_arg19) :=
  (val9_keep V0 main_arg19 (by decide)).trans (val8_main_arg19 V0)
theorem val9_main_arg20 (V0 : Valuation τ sig (Elt F)) : val9 V0 (no_index (Proc.devRef .tc main_arg20)) = V0 (Proc.devRef .tc main_arg20) :=
  (val9_keep V0 main_arg20 (by decide)).trans (val8_main_arg20 V0)
theorem val9_main_arg21 (V0 : Valuation τ sig (Elt F)) : val9 V0 (no_index (Proc.devRef .tc main_arg21)) = V0 (Proc.devRef .tc main_arg21) :=
  (val9_keep V0 main_arg21 (by decide)).trans (val8_main_arg21 V0)
set_option maxRecDepth 8192 in
set_option maxHeartbeats 2000000 in
theorem val9_main_v116 (V0 : Valuation τ sig (Elt F)) : val9 V0 (no_index (Proc.devRef .tc main_v116)) = (mulf : (⟨S4096x12, .f32⟩ : BufTy).Contents (Elt F) → (⟨S4096x12, .f32⟩ : BufTy).Contents (Elt F) → (⟨S4096x12, .f32⟩ : BufTy).Contents (Elt F)) ((broadcastInDim S4096x12 ![] bcast_S_S4096x12 : (⟨S_, .f32⟩ : BufTy).Contents (Elt F) → (⟨S4096x12, .f32⟩ : BufTy).Contents (Elt F)) ((constant S_ .f32 0x3F000000#32 : (⟨S_, .f32⟩ : BufTy).Contents (Elt F)))) ((addf : (⟨S4096x12, .f32⟩ : BufTy).Contents (Elt F) → (⟨S4096x12, .f32⟩ : BufTy).Contents (Elt F) → (⟨S4096x12, .f32⟩ : BufTy).Contents (Elt F)) (((fun x v => Host.reduceAdd x v reducesTo_S4096x8x12_S4096x12_d1 h_S_) : (⟨S4096x8x12, .f32⟩ : BufTy).Contents (Elt F) → (⟨S_, .f32⟩ : BufTy).Contents (Elt F) → (⟨S4096x12, .f32⟩ : BufTy).Contents (Elt F)) ((mulf : (⟨S4096x8x12, .f32⟩ : BufTy).Contents (Elt F) → (⟨S4096x8x12, .f32⟩ : BufTy).Contents (Elt F) → (⟨S4096x8x12, .f32⟩ : BufTy).Contents (Elt F)) ((broadcastInDim S4096x8x12 ![0, 1, 2] bcast_S4096x8x1_S4096x8x12_0_1_2 : (⟨S4096x8x1, .f32⟩ : BufTy).Contents (Elt F) → (⟨S4096x8x12, .f32⟩ : BufTy).Contents (Elt F)) ((broadcastInDim S4096x8x1 ![0, 1] bcast_S4096x8_S4096x8x1_0_1 : (⟨S4096x8, .f32⟩ : BufTy).Contents (Elt F) → (⟨S4096x8x1, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) (((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((constant S_ .f32 0x00000000#32 : (⟨S_, .f32⟩ : BufTy).Contents (Elt F))))))))) (((shapeCast S4096x8x12 · shapeCasts_S4096x96_S4096x8x12) : (⟨S4096x96, .f32⟩ : BufTy).Contents (Elt F) → (⟨S4096x8x12, .f32⟩ : BufTy).Contents (Elt F)) ((addf : (⟨S4096x96, .f32⟩ : BufTy).Contents (Elt F) → (⟨S4096x96, .f32⟩ : BufTy).Contents (Elt F) → (⟨S4096x96, .f32⟩ : BufTy).Contents (Elt F)) (((fun x v => Host.reduceAdd x v reducesTo_S4096x128x96_S4096x96_d1 h_S_) : (⟨S4096x128x96, .f32⟩ : BufTy).Contents (Elt F) → (⟨S_, .f32⟩ : BufTy).Contents (Elt F) → (⟨S4096x96, .f32⟩ : BufTy).Contents (Elt F)) ((mulf : (⟨S4096x128x96, .f32⟩ : BufTy).Contents (Elt F) → (⟨S4096x128x96, .f32⟩ : BufTy).Contents (Elt F) → (⟨S4096x128x96, .f32⟩ : BufTy).Contents (Elt F)) ((broadcastInDim S4096x128x96 ![0, 1, 2] bcast_S4096x128x1_S4096x128x96_0_1_2 : (⟨S4096x128x1, .f32⟩ : BufTy).Contents (Elt F) → (⟨S4096x128x96, .f32⟩ : BufTy).Contents (Elt F)) ((broadcastInDim S4096x128x1 ![0, 1] bcast_S4096x128_S4096x128x1_0_1 : (⟨S4096x128, .f32⟩ : BufTy).Contents (Elt F) → (⟨S4096x128x1, .f32⟩ : BufTy).Contents (Elt F)) (V0 (Proc.devRef .tc main_arg0)))) ((broadcastInDim S4096x128x96 ![0, 1, 2] bcast_S1x128x96_S4096x128x96_0_1_2 : (⟨S1x128x96, .f32⟩ : BufTy).Contents (Elt F) → (⟨S4096x128x96, .f32⟩ : BufTy).Contents (Elt F)) ((broadcastInDim S1x128x96 ![1, 2] bcast_S128x96_S1x128x96_1_2 : (⟨S128x96, .f32⟩ : BufTy).Contents (Elt F) → (⟨S1x128x96, .f32⟩ : BufTy).Contents (Elt F)) (V0 (Proc.devRef .tc main_arg18))))) ((constant S_ .f32 0x00000000#32 : (⟨S_, .f32⟩ : BufTy).Contents (Elt F)))) ((broadcastInDim S4096x96 ![0, 1] bcast_S1x96_S4096x96_0_1 : (⟨S1x96, .f32⟩ : BufTy).Contents (Elt F) → (⟨S4096x96, .f32⟩ : BufTy).Contents (Elt F)) ((broadcastInDim S1x96 ![1] bcast_S96_S1x96_1 : (⟨S96, .f32⟩ : BufTy).Contents (Elt F) → (⟨S1x96, .f32⟩ : BufTy).Contents (Elt F)) (V0 (Proc.devRef .tc main_arg19))))))) ((constant S_ .f32 0x00000000#32 : (⟨S_, .f32⟩ : BufTy).Contents (Elt F)))) (((fun x v => Host.reduceAdd x v reducesTo_S4096x8x12_S4096x12_d1 h_S_) : (⟨S4096x8x12, .f32⟩ : BufTy).Contents (Elt F) → (⟨S_, .f32⟩ : BufTy).Contents (Elt F) → (⟨S4096x12, .f32⟩ : BufTy).Contents (Elt F)) ((mulf : (⟨S4096x8x12, .f32⟩ : BufTy).Contents (Elt F) → (⟨S4096x8x12, .f32⟩ : BufTy).Contents (Elt F) → (⟨S4096x8x12, .f32⟩ : BufTy).Contents (Elt F)) ((broadcastInDim S4096x8x12 ![0, 1, 2] bcast_S4096x8x1_S4096x8x12_0_1_2 : (⟨S4096x8x1, .f32⟩ : BufTy).Contents (Elt F) → (⟨S4096x8x12, .f32⟩ : BufTy).Contents (Elt F)) ((broadcastInDim S4096x8x1 ![0, 1] bcast_S4096x8_S4096x8x1_0_1 : (⟨S4096x8, .f32⟩ : BufTy).Contents (Elt F) → (⟨S4096x8x1, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) (((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((constant S_ .f32 0x00000000#32 : (⟨S_, .f32⟩ : BufTy).Contents (Elt F))))))))) (((shapeCast S4096x8x12 · shapeCasts_S4096x96_S4096x8x12) : (⟨S4096x96, .f32⟩ : BufTy).Contents (Elt F) → (⟨S4096x8x12, .f32⟩ : BufTy).Contents (Elt F)) ((addf : (⟨S4096x96, .f32⟩ : BufTy).Contents (Elt F) → (⟨S4096x96, .f32⟩ : BufTy).Contents (Elt F) → (⟨S4096x96, .f32⟩ : BufTy).Contents (Elt F)) (((fun x v => Host.reduceAdd x v reducesTo_S4096x128x96_S4096x96_d1 h_S_) : (⟨S4096x128x96, .f32⟩ : BufTy).Contents (Elt F) → (⟨S_, .f32⟩ : BufTy).Contents (Elt F) → (⟨S4096x96, .f32⟩ : BufTy).Contents (Elt F)) ((mulf : (⟨S4096x128x96, .f32⟩ : BufTy).Contents (Elt F) → (⟨S4096x128x96, .f32⟩ : BufTy).Contents (Elt F) → (⟨S4096x128x96, .f32⟩ : BufTy).Contents (Elt F)) ((broadcastInDim S4096x128x96 ![0, 1, 2] bcast_S4096x128x1_S4096x128x96_0_1_2 : (⟨S4096x128x1, .f32⟩ : BufTy).Contents (Elt F) → (⟨S4096x128x96, .f32⟩ : BufTy).Contents (Elt F)) ((broadcastInDim S4096x128x1 ![0, 1] bcast_S4096x128_S4096x128x1_0_1 : (⟨S4096x128, .f32⟩ : BufTy).Contents (Elt F) → (⟨S4096x128x1, .f32⟩ : BufTy).Contents (Elt F)) (V0 (Proc.devRef .tc main_arg1)))) ((broadcastInDim S4096x128x96 ![0, 1, 2] bcast_S1x128x96_S4096x128x96_0_1_2 : (⟨S1x128x96, .f32⟩ : BufTy).Contents (Elt F) → (⟨S4096x128x96, .f32⟩ : BufTy).Contents (Elt F)) ((broadcastInDim S1x128x96 ![1, 2] bcast_S128x96_S1x128x96_1_2 : (⟨S128x96, .f32⟩ : BufTy).Contents (Elt F) → (⟨S1x128x96, .f32⟩ : BufTy).Contents (Elt F)) (V0 (Proc.devRef .tc main_arg20))))) ((constant S_ .f32 0x00000000#32 : (⟨S_, .f32⟩ : BufTy).Contents (Elt F)))) ((broadcastInDim S4096x96 ![0, 1] bcast_S1x96_S4096x96_0_1 : (⟨S1x96, .f32⟩ : BufTy).Contents (Elt F) → (⟨S4096x96, .f32⟩ : BufTy).Contents (Elt F)) ((broadcastInDim S1x96 ![1] bcast_S96_S1x96_1 : (⟨S96, .f32⟩ : BufTy).Contents (Elt F) → (⟨S1x96, .f32⟩ : BufTy).Contents (Elt F)) (V0 (Proc.devRef .tc main_arg21))))))) ((constant S_ .f32 0x00000000#32 : (⟨S_, .f32⟩ : BufTy).Contents (Elt F))))) := by
  unfold val9
  simp only [p9]
  after_results_simp
  simp only [val8_main_arg21, val8_main_arg20, val8_main_v101, val8_main_v85, val8_main_v99] <;> rfl

end Cert.ReferenceIdeal.RefRun

end
-- ==== Proof.RefRun.lean ====
/- The reference's run: every weakly fair execution of its @main terminates with the result buffer at ONE pure term
   of the 22 argument arrays — the program's operations composed in program order — and every argument array unchanged. -/
import proofs.«150749_g69896297775690_cont_9to1c4b_828_3_alg».proof.Proof.RefRun.Vals

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's result as a term of its argument arrays `a0 … a21`: the operations of @main in program order, each
    value named as the program names it (`v0 … v116`, the constants `cst…`, `c…`; a call's values `callK_…`: the callee's
    lines over the call's operands). As printed, `_var x n` is: the axis-0 sum of `x` over 4096 (the mean), broadcast and
    subtracted from `x`, squared, summed over axis 0 again, divided by `4096 - n` (the integer `n` converted to a float), and
    selected by `4096 - n > 0` against the broadcast constant of bits `0x7FC00000`; `relu x` is the maximum of `x` with the
    broadcast constant `0`. -/
def out (a0 : (⟨S4096x128, .f32⟩ : BufTy).Contents (Elt F))
    (a1 : (⟨S4096x128, .f32⟩ : BufTy).Contents (Elt F))
    (a2 : (⟨S4096x128, .f32⟩ : BufTy).Contents (Elt F))
    (a3 : (⟨S4096x128, .f32⟩ : BufTy).Contents (Elt F))
    (a4 : (⟨S128x300, .f32⟩ : BufTy).Contents (Elt F))
    (a5 : (⟨S300, .f32⟩ : BufTy).Contents (Elt F))
    (a6 : (⟨S300, .f32⟩ : BufTy).Contents (Elt F))
    (a7 : (⟨S300, .f32⟩ : BufTy).Contents (Elt F))
    (a8 : (⟨S300x300, .f32⟩ : BufTy).Contents (Elt F))
    (a9 : (⟨S300, .f32⟩ : BufTy).Contents (Elt F))
    (a10 : (⟨S128x300, .f32⟩ : BufTy).Contents (Elt F))
    (a11 : (⟨S300, .f32⟩ : BufTy).Contents (Elt F))
    (a12 : (⟨S300, .f32⟩ : BufTy).Contents (Elt F))
    (a13 : (⟨S300, .f32⟩ : BufTy).Contents (Elt F))
    (a14 : (⟨S300x300, .f32⟩ : BufTy).Contents (Elt F))
    (a15 : (⟨S300, .f32⟩ : BufTy).Contents (Elt F))
    (a16 : (⟨S8x300, .f32⟩ : BufTy).Contents (Elt F))
    (a17 : (⟨S8x300, .f32⟩ : BufTy).Contents (Elt F))
    (a18 : (⟨S128x96, .f32⟩ : BufTy).Contents (Elt F))
    (a19 : (⟨S96, .f32⟩ : BufTy).Contents (Elt F))
    (a20 : (⟨S128x96, .f32⟩ : BufTy).Contents (Elt F))
    (a21 : (⟨S96, .f32⟩ : BufTy).Contents (Elt F)) :
    (⟨S4096x12, .f32⟩ : BufTy).Contents (Elt F) :=
  let v0 : (⟨S4096x300, .f32⟩ : BufTy).Contents (Elt F) := ((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) a2 a4
  let v1 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) a5
  let v2 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v1
  let v3 : (⟨S4096x300, .f32⟩ : BufTy).Contents (Elt F) := (addf : (⟨S4096x300, .f32⟩ : BufTy).Contents (Elt F) → (⟨S4096x300, .f32⟩ : BufTy).Contents (Elt F) → (⟨S4096x300, .f32⟩ : BufTy).Contents (Elt F)) v0 v2
  let cst : (⟨S_, .f32⟩ : BufTy).Contents (Elt F) := (constant S_ .f32 0x00000000#32 : (⟨S_, .f32⟩ : BufTy).Contents (Elt F))
  let v4 : (⟨S300, .f32⟩ : BufTy).Contents (Elt F) := ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) v3 cst
  let cst_0 : (⟨S_, .f32⟩ : BufTy).Contents (Elt F) := (constant S_ .f32 0x45800000#32 : (⟨S_, .f32⟩ : BufTy).Contents (Elt F))
  let v5 : (⟨S300, .f32⟩ : BufTy).Contents (Elt F) := (broadcastInDim S300 ![] bcast_S_S300 : (⟨S_, .f32⟩ : BufTy).Contents (Elt F) → (⟨S300, .f32⟩ : BufTy).Contents (Elt F)) cst_0
  let v6 : (⟨S300, .f32⟩ : BufTy).Contents (Elt F) := (Host.divf : (⟨S300, .f32⟩ : BufTy).Contents (Elt F) → (⟨S300, .f32⟩ : BufTy).Contents (Elt F) → (⟨S300, .f32⟩ : BufTy).Contents (Elt F)) v4 v5
  let c : (⟨S_, .i32⟩ : BufTy).Contents (Elt F) := (constantI S_ 32 0#32 : (⟨S_, .i32⟩ : BufTy).Contents (Elt F))
  let call0_cst : (⟨S_, .f32⟩ : BufTy).Contents (Elt F) := (constant S_ .f32 0x00000000#32 : (⟨S_, .f32⟩ : BufTy).Contents (Elt F))
  let call0_v0 : (⟨S300, .f32⟩ : BufTy).Contents (Elt F) := ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) v3 call0_cst
  let call0_v1 : (⟨S1x300, .f32⟩ : BufTy).Contents (Elt F) := ((broadcastInDim S1x300 ![1] bcast_S300_S1x300_1) : (⟨S300, .f32⟩ : BufTy).Contents (Elt F) → (⟨S1x300, .f32⟩ : BufTy).Contents (Elt F)) call0_v0
  let call0_cst_0 : (⟨S_, .f32⟩ : BufTy).Contents (Elt F) := (constant S_ .f32 0x45800000#32 : (⟨S_, .f32⟩ : BufTy).Contents (Elt F))
  let call0_v2 : (⟨S1x300, .f32⟩ : BufTy).Contents (Elt F) := ((broadcastInDim S1x300 ![] bcast_S_S1x300) : (⟨S_, .f32⟩ : BufTy).Contents (Elt F) → (⟨S1x300, .f32⟩ : BufTy).Contents (Elt F)) call0_cst_0
  let call0_v3 : (⟨S1x300, .f32⟩ : BufTy).Contents (Elt F) := (Host.divf : (⟨S1x300, .f32⟩ : BufTy).Contents (Elt F) → (⟨S1x300, .f32⟩ : BufTy).Contents (Elt F) → (⟨S1x300, .f32⟩ : BufTy).Contents (Elt F)) call0_v1 call0_v2
  let call0_v4 : (⟨S4096x300, .f32⟩ : BufTy).Contents (Elt F) := ((broadcastInDim S4096x300 ![0, 1] bcast_S1x300_S4096x300_0_1) : (⟨S1x300, .f32⟩ : BufTy).Contents (Elt F) → (⟨S4096x300, .f32⟩ : BufTy).Contents (Elt F)) call0_v3
  let call0_v5 : (⟨S4096x300, .f32⟩ : BufTy).Contents (Elt F) := (subf : (⟨S4096x300, .f32⟩ : BufTy).Contents (Elt F) → (⟨S4096x300, .f32⟩ : BufTy).Contents (Elt F) → (⟨S4096x300, .f32⟩ : BufTy).Contents (Elt F)) v3 call0_v4
  let call0_v6 : (⟨S4096x300, .f32⟩ : BufTy).Contents (Elt F) := (mulf : (⟨S4096x300, .f32⟩ : BufTy).Contents (Elt F) → (⟨S4096x300, .f32⟩ : BufTy).Contents (Elt F) → (⟨S4096x300, .f32⟩ : BufTy).Contents (Elt F)) call0_v5 call0_v5
  let call0_v7 : (⟨S_, .f32⟩ : BufTy).Contents (Elt F) := ((sitofp .f32) : (⟨S_, .i32⟩ : BufTy).Contents (Elt F) → (⟨S_, .f32⟩ : BufTy).Contents (Elt F)) c
  let call0_cst_1 : (⟨S_, .f32⟩ : BufTy).Contents (Elt F) := (constant S_ .f32 0x45800000#32 : (⟨S_, .f32⟩ : BufTy).Contents (Elt F))
  let call0_v8 : (⟨S_, .f32⟩ : BufTy).Contents (Elt F) := (subf : (⟨S_, .f32⟩ : BufTy).Contents (Elt F) → (⟨S_, .f32⟩ : BufTy).Contents (Elt F) → (⟨S_, .f32⟩ : BufTy).Contents (Elt F)) call0_cst_1 call0_v7
  let call0_cst_2 : (⟨S_, .f32⟩ : BufTy).Contents (Elt F) := (constant S_ .f32 0x00000000#32 : (⟨S_, .f32⟩ : BufTy).Contents (Elt F))
  let call0_v9 : (⟨S300, .f32⟩ : BufTy).Contents (Elt F) := ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) call0_v6 call0_cst_2
  let call0_v10 : (⟨S300, .f32⟩ : BufTy).Contents (Elt F) := ((broadcastInDim S300 ![] bcast_S_S300) : (⟨S_, .f32⟩ : BufTy).Contents (Elt F) → (⟨S300, .f32⟩ : BufTy).Contents (Elt F)) call0_v8
  let call0_v11 : (⟨S300, .f32⟩ : BufTy).Contents (Elt F) := (Host.divf : (⟨S300, .f32⟩ : BufTy).Contents (Elt F) → (⟨S300, .f32⟩ : BufTy).Contents (Elt F) → (⟨S300, .f32⟩ : BufTy).Contents (Elt F)) call0_v9 call0_v10
  let call0_cst_3 : (⟨S_, .f32⟩ : BufTy).Contents (Elt F) := (constant S_ .f32 0x00000000#32 : (⟨S_, .f32⟩ : BufTy).Contents (Elt F))
  let call0_v12 : (⟨S_, .i1⟩ : BufTy).Contents (Elt F) := ((cmpf .ogt) : (⟨S_, .f32⟩ : BufTy).Contents (Elt F) → (⟨S_, .f32⟩ : BufTy).Contents (Elt F) → (⟨S_, .i1⟩ : BufTy).Contents (Elt F)) call0_v8 call0_cst_3
  let call0_cst_4 : (⟨S_, .f32⟩ : BufTy).Contents (Elt F) := (constant S_ .f32 0x7FC00000#32 : (⟨S_, .f32⟩ : BufTy).Contents (Elt F))
  let call0_call0_v0 : (⟨S_, .f32⟩ : BufTy).Contents (Elt F) := (id : (⟨S_, .f32⟩ : BufTy).Contents (Elt F) → (⟨S_, .f32⟩ : BufTy).Contents (Elt F)) call0_cst_4
  let call0_call0_v1 : (⟨S300, .f32⟩ : BufTy).Contents (Elt F) := ((broadcastInDim S300 ![] bcast_S_S300) : (⟨S_, .f32⟩ : BufTy).Contents (Elt F) → (⟨S300, .f32⟩ : BufTy).Contents (Elt F)) call0_call0_v0
  let v7 : (⟨S300, .f32⟩ : BufTy).Contents (Elt F) := ((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) call0_v12 call0_v11 call0_call0_v1
  let v8 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) v6
  let v9 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v8
  let v10 : (⟨S4096x300, .f32⟩ : BufTy).Contents (Elt F) := (subf : (⟨S4096x300, .f32⟩ : BufTy).Contents (Elt F) → (⟨S4096x300, .f32⟩ : BufTy).Contents (Elt F) → (⟨S4096x300, .f32⟩ : BufTy).Contents (Elt F)) v3 v9
  let cst_1 : (⟨S_, .f32⟩ : BufTy).Contents (Elt F) := (constant S_ .f32 0x3727C5AC#32 : (⟨S_, .f32⟩ : BufTy).Contents (Elt F))
  let v11 : (⟨S300, .f32⟩ : BufTy).Contents (Elt F) := (broadcastInDim S300 ![] bcast_S_S300 : (⟨S_, .f32⟩ : BufTy).Contents (Elt F) → (⟨S300, .f32⟩ : BufTy).Contents (Elt F)) cst_1
  let v12 : (⟨S300, .f32⟩ : BufTy).Contents (Elt F) := (addf : (⟨S300, .f32⟩ : BufTy).Contents (Elt F) → (⟨S300, .f32⟩ : BufTy).Contents (Elt F) → (⟨S300, .f32⟩ : BufTy).Contents (Elt F)) v7 v11
  let v13 : (⟨S300, .f32⟩ : BufTy).Contents (Elt F) := (Host.sqrt : (⟨S300, .f32⟩ : BufTy).Contents (Elt F) → (⟨S300, .f32⟩ : BufTy).Contents (Elt F)) v12
  let v14 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) v13
  let v15 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v14
  let v16 : (⟨S4096x300, .f32⟩ : BufTy).Contents (Elt F) := (Host.divf : (⟨S4096x300, .f32⟩ : BufTy).Contents (Elt F) → (⟨S4096x300, .f32⟩ : BufTy).Contents (Elt F) → (⟨S4096x300, .f32⟩ : BufTy).Contents (Elt F)) v10 v15
  let v17 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) a6
  let v18 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v17
  let v19 : (⟨S4096x300, .f32⟩ : BufTy).Contents (Elt F) := (mulf : (⟨S4096x300, .f32⟩ : BufTy).Contents (Elt F) → (⟨S4096x300, .f32⟩ : BufTy).Contents (Elt F) → (⟨S4096x300, .f32⟩ : BufTy).Contents (Elt F)) v16 v18
  let v20 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) a7
  let v21 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v20
  let v22 : (⟨S4096x300, .f32⟩ : BufTy).Contents (Elt F) := (addf : (⟨S4096x300, .f32⟩ : BufTy).Contents (Elt F) → (⟨S4096x300, .f32⟩ : BufTy).Contents (Elt F) → (⟨S4096x300, .f32⟩ : BufTy).Contents (Elt F)) v19 v21
  let call1_cst : (⟨S_, .f32⟩ : BufTy).Contents (Elt F) := (constant S_ .f32 0x00000000#32 : (⟨S_, .f32⟩ : BufTy).Contents (Elt F))
  let call1_v0 : (⟨S4096x300, .f32⟩ : BufTy).Contents (Elt F) := ((broadcastInDim S4096x300 ![] bcast_S_S4096x300) : (⟨S_, .f32⟩ : BufTy).Contents (Elt F) → (⟨S4096x300, .f32⟩ : BufTy).Contents (Elt F)) call1_cst
  let v23 : (⟨S4096x300, .f32⟩ : BufTy).Contents (Elt F) := (maximumf : (⟨S4096x300, .f32⟩ : BufTy).Contents (Elt F) → (⟨S4096x300, .f32⟩ : BufTy).Contents (Elt F) → (⟨S4096x300, .f32⟩ : BufTy).Contents (Elt F)) v22 call1_v0
  let v24 : (⟨S4096x300, .f32⟩ : BufTy).Contents (Elt F) := ((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) v23 a8
  let v25 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) a9
  let v26 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v25
  let v27 : (⟨S4096x300, .f32⟩ : BufTy).Contents (Elt F) := (addf : (⟨S4096x300, .f32⟩ : BufTy).Contents (Elt F) → (⟨S4096x300, .f32⟩ : BufTy).Contents (Elt F) → (⟨S4096x300, .f32⟩ : BufTy).Contents (Elt F)) v24 v26
  let v28 : (⟨S4096x300, .f32⟩ : BufTy).Contents (Elt F) := ((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) a3 a10
  let v29 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) a11
  let v30 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v29
  let v31 : (⟨S4096x300, .f32⟩ : BufTy).Contents (Elt F) := (addf : (⟨S4096x300, .f32⟩ : BufTy).Contents (Elt F) → (⟨S4096x300, .f32⟩ : BufTy).Contents (Elt F) → (⟨S4096x300, .f32⟩ : BufTy).Contents (Elt F)) v28 v30
  let cst_2 : (⟨S_, .f32⟩ : BufTy).Contents (Elt F) := (constant S_ .f32 0x00000000#32 : (⟨S_, .f32⟩ : BufTy).Contents (Elt F))
  let v32 : (⟨S300, .f32⟩ : BufTy).Contents (Elt F) := ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) v31 cst_2
  let cst_3 : (⟨S_, .f32⟩ : BufTy).Contents (Elt F) := (constant S_ .f32 0x45800000#32 : (⟨S_, .f32⟩ : BufTy).Contents (Elt F))
  let v33 : (⟨S300, .f32⟩ : BufTy).Contents (Elt F) := (broadcastInDim S300 ![] bcast_S_S300 : (⟨S_, .f32⟩ : BufTy).Contents (Elt F) → (⟨S300, .f32⟩ : BufTy).Contents (Elt F)) cst_3
  let v34 : (⟨S300, .f32⟩ : BufTy).Contents (Elt F) := (Host.divf : (⟨S300, .f32⟩ : BufTy).Contents (Elt F) → (⟨S300, .f32⟩ : BufTy).Contents (Elt F) → (⟨S300, .f32⟩ : BufTy).Contents (Elt F)) v32 v33
  let c_4 : (⟨S_, .i32⟩ : BufTy).Contents (Elt F) := (constantI S_ 32 0#32 : (⟨S_, .i32⟩ : BufTy).Contents (Elt F))
  let call2_cst : (⟨S_, .f32⟩ : BufTy).Contents (Elt F) := (constant S_ .f32 0x00000000#32 : (⟨S_, .f32⟩ : BufTy).Contents (Elt F))
  let call2_v0 : (⟨S300, .f32⟩ : BufTy).Contents (Elt F) := ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) v31 call2_cst
  let call2_v1 : (⟨S1x300, .f32⟩ : BufTy).Contents (Elt F) := ((broadcastInDim S1x300 ![1] bcast_S300_S1x300_1) : (⟨S300, .f32⟩ : BufTy).Contents (Elt F) → (⟨S1x300, .f32⟩ : BufTy).Contents (Elt F)) call2_v0
  let call2_cst_0 : (⟨S_, .f32⟩ : BufTy).Contents (Elt F) := (constant S_ .f32 0x45800000#32 : (⟨S_, .f32⟩ : BufTy).Contents (Elt F))
  let call2_v2 : (⟨S1x300, .f32⟩ : BufTy).Contents (Elt F) := ((broadcastInDim S1x300 ![] bcast_S_S1x300) : (⟨S_, .f32⟩ : BufTy).Contents (Elt F) → (⟨S1x300, .f32⟩ : BufTy).Contents (Elt F)) call2_cst_0
  let call2_v3 : (⟨S1x300, .f32⟩ : BufTy).Contents (Elt F) := (Host.divf : (⟨S1x300, .f32⟩ : BufTy).Contents (Elt F) → (⟨S1x300, .f32⟩ : BufTy).Contents (Elt F) → (⟨S1x300, .f32⟩ : BufTy).Contents (Elt F)) call2_v1 call2_v2
  let call2_v4 : (⟨S4096x300, .f32⟩ : BufTy).Contents (Elt F) := ((broadcastInDim S4096x300 ![0, 1] bcast_S1x300_S4096x300_0_1) : (⟨S1x300, .f32⟩ : BufTy).Contents (Elt F) → (⟨S4096x300, .f32⟩ : BufTy).Contents (Elt F)) call2_v3
  let call2_v5 : (⟨S4096x300, .f32⟩ : BufTy).Contents (Elt F) := (subf : (⟨S4096x300, .f32⟩ : BufTy).Contents (Elt F) → (⟨S4096x300, .f32⟩ : BufTy).Contents (Elt F) → (⟨S4096x300, .f32⟩ : BufTy).Contents (Elt F)) v31 call2_v4
  let call2_v6 : (⟨S4096x300, .f32⟩ : BufTy).Contents (Elt F) := (mulf : (⟨S4096x300, .f32⟩ : BufTy).Contents (Elt F) → (⟨S4096x300, .f32⟩ : BufTy).Contents (Elt F) → (⟨S4096x300, .f32⟩ : BufTy).Contents (Elt F)) call2_v5 call2_v5
  let call2_v7 : (⟨S_, .f32⟩ : BufTy).Contents (Elt F) := ((sitofp .f32) : (⟨S_, .i32⟩ : BufTy).Contents (Elt F) → (⟨S_, .f32⟩ : BufTy).Contents (Elt F)) c_4
  let call2_cst_1 : (⟨S_, .f32⟩ : BufTy).Contents (Elt F) := (constant S_ .f32 0x45800000#32 : (⟨S_, .f32⟩ : BufTy).Contents (Elt F))
  let call2_v8 : (⟨S_, .f32⟩ : BufTy).Contents (Elt F) := (subf : (⟨S_, .f32⟩ : BufTy).Contents (Elt F) → (⟨S_, .f32⟩ : BufTy).Contents (Elt F) → (⟨S_, .f32⟩ : BufTy).Contents (Elt F)) call2_cst_1 call2_v7
  let call2_cst_2 : (⟨S_, .f32⟩ : BufTy).Contents (Elt F) := (constant S_ .f32 0x00000000#32 : (⟨S_, .f32⟩ : BufTy).Contents (Elt F))
  let call2_v9 : (⟨S300, .f32⟩ : BufTy).Contents (Elt F) := ((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) call2_v6 call2_cst_2
  let call2_v10 : (⟨S300, .f32⟩ : BufTy).Contents (Elt F) := ((broadcastInDim S300 ![] bcast_S_S300) : (⟨S_, .f32⟩ : BufTy).Contents (Elt F) → (⟨S300, .f32⟩ : BufTy).Contents (Elt F)) call2_v8
  let call2_v11 : (⟨S300, .f32⟩ : BufTy).Contents (Elt F) := (Host.divf : (⟨S300, .f32⟩ : BufTy).Contents (Elt F) → (⟨S300, .f32⟩ : BufTy).Contents (Elt F) → (⟨S300, .f32⟩ : BufTy).Contents (Elt F)) call2_v9 call2_v10
  let call2_cst_3 : (⟨S_, .f32⟩ : BufTy).Contents (Elt F) := (constant S_ .f32 0x00000000#32 : (⟨S_, .f32⟩ : BufTy).Contents (Elt F))
  let call2_v12 : (⟨S_, .i1⟩ : BufTy).Contents (Elt F) := ((cmpf .ogt) : (⟨S_, .f32⟩ : BufTy).Contents (Elt F) → (⟨S_, .f32⟩ : BufTy).Contents (Elt F) → (⟨S_, .i1⟩ : BufTy).Contents (Elt F)) call2_v8 call2_cst_3
  let call2_cst_4 : (⟨S_, .f32⟩ : BufTy).Contents (Elt F) := (constant S_ .f32 0x7FC00000#32 : (⟨S_, .f32⟩ : BufTy).Contents (Elt F))
  let call2_call0_v0 : (⟨S_, .f32⟩ : BufTy).Contents (Elt F) := (id : (⟨S_, .f32⟩ : BufTy).Contents (Elt F) → (⟨S_, .f32⟩ : BufTy).Contents (Elt F)) call2_cst_4
  let call2_call0_v1 : (⟨S300, .f32⟩ : BufTy).Contents (Elt F) := ((broadcastInDim S300 ![] bcast_S_S300) : (⟨S_, .f32⟩ : BufTy).Contents (Elt F) → (⟨S300, .f32⟩ : BufTy).Contents (Elt F)) call2_call0_v0
  let v35 : (⟨S300, .f32⟩ : BufTy).Contents (Elt F) := ((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) call2_v12 call2_v11 call2_call0_v1
  let v36 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) v34
  let v37 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v36
  let v38 : (⟨S4096x300, .f32⟩ : BufTy).Contents (Elt F) := (subf : (⟨S4096x300, .f32⟩ : BufTy).Contents (Elt F) → (⟨S4096x300, .f32⟩ : BufTy).Contents (Elt F) → (⟨S4096x300, .f32⟩ : BufTy).Contents (Elt F)) v31 v37
  let cst_5 : (⟨S_, .f32⟩ : BufTy).Contents (Elt F) := (constant S_ .f32 0x3727C5AC#32 : (⟨S_, .f32⟩ : BufTy).Contents (Elt F))
  let v39 : (⟨S300, .f32⟩ : BufTy).Contents (Elt F) := (broadcastInDim S300 ![] bcast_S_S300 : (⟨S_, .f32⟩ : BufTy).Contents (Elt F) → (⟨S300, .f32⟩ : BufTy).Contents (Elt F)) cst_5
  let v40 : (⟨S300, .f32⟩ : BufTy).Contents (Elt F) := (addf : (⟨S300, .f32⟩ : BufTy).Contents (Elt F) → (⟨S300, .f32⟩ : BufTy).Contents (Elt F) → (⟨S300, .f32⟩ : BufTy).Contents (Elt F)) v35 v39
  let v41 : (⟨S300, .f32⟩ : BufTy).Contents (Elt F) := (Host.sqrt : (⟨S300, .f32⟩ : BufTy).Contents (Elt F) → (⟨S300, .f32⟩ : BufTy).Contents (Elt F)) v40
  let v42 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) v41
  let v43 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v42
  let v44 : (⟨S4096x300, .f32⟩ : BufTy).Contents (Elt F) := (Host.divf : (⟨S4096x300, .f32⟩ : BufTy).Contents (Elt F) → (⟨S4096x300, .f32⟩ : BufTy).Contents (Elt F) → (⟨S4096x300, .f32⟩ : BufTy).Contents (Elt F)) v38 v43
  let v45 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) a12
  let v46 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v45
  let v47 : (⟨S4096x300, .f32⟩ : BufTy).Contents (Elt F) := (mulf : (⟨S4096x300, .f32⟩ : BufTy).Contents (Elt F) → (⟨S4096x300, .f32⟩ : BufTy).Contents (Elt F) → (⟨S4096x300, .f32⟩ : BufTy).Contents (Elt F)) v44 v46
  let v48 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) a13
  let v49 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v48
  let v50 : (⟨S4096x300, .f32⟩ : BufTy).Contents (Elt F) := (addf : (⟨S4096x300, .f32⟩ : BufTy).Contents (Elt F) → (⟨S4096x300, .f32⟩ : BufTy).Contents (Elt F) → (⟨S4096x300, .f32⟩ : BufTy).Contents (Elt F)) v47 v49
  let call3_cst : (⟨S_, .f32⟩ : BufTy).Contents (Elt F) := (constant S_ .f32 0x00000000#32 : (⟨S_, .f32⟩ : BufTy).Contents (Elt F))
  let call3_v0 : (⟨S4096x300, .f32⟩ : BufTy).Contents (Elt F) := ((broadcastInDim S4096x300 ![] bcast_S_S4096x300) : (⟨S_, .f32⟩ : BufTy).Contents (Elt F) → (⟨S4096x300, .f32⟩ : BufTy).Contents (Elt F)) call3_cst
  let v51 : (⟨S4096x300, .f32⟩ : BufTy).Contents (Elt F) := (maximumf : (⟨S4096x300, .f32⟩ : BufTy).Contents (Elt F) → (⟨S4096x300, .f32⟩ : BufTy).Contents (Elt F) → (⟨S4096x300, .f32⟩ : BufTy).Contents (Elt F)) v50 call3_v0
  let v52 : (⟨S4096x300, .f32⟩ : BufTy).Contents (Elt F) := ((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) v51 a14
  let v53 : (⟨S1x300, .f32⟩ : BufTy).Contents (Elt F) := (broadcastInDim S1x300 ![1] bcast_S300_S1x300_1 : (⟨S300, .f32⟩ : BufTy).Contents (Elt F) → (⟨S1x300, .f32⟩ : BufTy).Contents (Elt F)) a15
  let v54 : (⟨S4096x300, .f32⟩ : BufTy).Contents (Elt F) := (broadcastInDim S4096x300 ![0, 1] bcast_S1x300_S4096x300_0_1 : (⟨S1x300, .f32⟩ : BufTy).Contents (Elt F) → (⟨S4096x300, .f32⟩ : BufTy).Contents (Elt F)) v53
  let v55 : (⟨S4096x300, .f32⟩ : BufTy).Contents (Elt F) := (addf : (⟨S4096x300, .f32⟩ : BufTy).Contents (Elt F) → (⟨S4096x300, .f32⟩ : BufTy).Contents (Elt F) → (⟨S4096x300, .f32⟩ : BufTy).Contents (Elt F)) v52 v54
  let v56 : (⟨S300x8, .f32⟩ : BufTy).Contents (Elt F) := ((transpose S300x8 [1, 0] · transposes_S8x300_S300x8_1_0) : (⟨S8x300, .f32⟩ : BufTy).Contents (Elt F) → (⟨S300x8, .f32⟩ : BufTy).Contents (Elt F)) a16
  let v57 : (⟨S4096x8, .f32⟩ : BufTy).Contents (Elt F) := ((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) v27 v56
  let cst_6 : (⟨S_, .f32⟩ : BufTy).Contents (Elt F) := (constant S_ .f32 0x3F800000#32 : (⟨S_, .f32⟩ : BufTy).Contents (Elt F))
  let v58 : (⟨S4096x8, .f32⟩ : BufTy).Contents (Elt F) := (broadcastInDim S4096x8 ![] bcast_S_S4096x8 : (⟨S_, .f32⟩ : BufTy).Contents (Elt F) → (⟨S4096x8, .f32⟩ : BufTy).Contents (Elt F)) cst_6
  let v59 : (⟨S4096x8, .f32⟩ : BufTy).Contents (Elt F) := (Host.divf : (⟨S4096x8, .f32⟩ : BufTy).Contents (Elt F) → (⟨S4096x8, .f32⟩ : BufTy).Contents (Elt F) → (⟨S4096x8, .f32⟩ : BufTy).Contents (Elt F)) v57 v58
  let cst_7 : (⟨S_, .f32⟩ : BufTy).Contents (Elt F) := (constant S_ .f32 0xFF800000#32 : (⟨S_, .f32⟩ : BufTy).Contents (Elt F))
  let v60 : (⟨S4096, .f32⟩ : BufTy).Contents (Elt F) := ((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) v59 cst_7
  let cst_8 : (⟨S_, .f32⟩ : BufTy).Contents (Elt F) := (constant S_ .f32 0xFF800000#32 : (⟨S_, .f32⟩ : BufTy).Contents (Elt F))
  let v61 : (⟨S4096, .f32⟩ : BufTy).Contents (Elt F) := (broadcastInDim S4096 ![] bcast_S_S4096 : (⟨S_, .f32⟩ : BufTy).Contents (Elt F) → (⟨S4096, .f32⟩ : BufTy).Contents (Elt F)) cst_8
  let v62 : (⟨S4096, .f32⟩ : BufTy).Contents (Elt F) := (maximumf : (⟨S4096, .f32⟩ : BufTy).Contents (Elt F) → (⟨S4096, .f32⟩ : BufTy).Contents (Elt F) → (⟨S4096, .f32⟩ : BufTy).Contents (Elt F)) v61 v60
  let v63 : (⟨S4096x1, .f32⟩ : BufTy).Contents (Elt F) := (broadcastInDim S4096x1 ![0] bcast_S4096_S4096x1_0 : (⟨S4096, .f32⟩ : BufTy).Contents (Elt F) → (⟨S4096x1, .f32⟩ : BufTy).Contents (Elt F)) v62
  let v64 : (⟨S4096x8, .f32⟩ : BufTy).Contents (Elt F) := (broadcastInDim S4096x8 ![0, 1] bcast_S4096x1_S4096x8_0_1 : (⟨S4096x1, .f32⟩ : BufTy).Contents (Elt F) → (⟨S4096x8, .f32⟩ : BufTy).Contents (Elt F)) v63
  let v65 : (⟨S4096x8, .f32⟩ : BufTy).Contents (Elt F) := (subf : (⟨S4096x8, .f32⟩ : BufTy).Contents (Elt F) → (⟨S4096x8, .f32⟩ : BufTy).Contents (Elt F) → (⟨S4096x8, .f32⟩ : BufTy).Contents (Elt F)) v59 v64
  let v66 : (⟨S4096x8, .f32⟩ : BufTy).Contents (Elt F) := (Host.exp : (⟨S4096x8, .f32⟩ : BufTy).Contents (Elt F) → (⟨S4096x8, .f32⟩ : BufTy).Contents (Elt F)) v65
  let cst_9 : (⟨S_, .f32⟩ : BufTy).Contents (Elt F) := (constant S_ .f32 0x00000000#32 : (⟨S_, .f32⟩ : BufTy).Contents (Elt F))
  let v67 : (⟨S4096, .f32⟩ : BufTy).Contents (Elt F) := ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) v66 cst_9
  let v68 : (⟨S4096x1, .f32⟩ : BufTy).Contents (Elt F) := (broadcastInDim S4096x1 ![0] bcast_S4096_S4096x1_0 : (⟨S4096, .f32⟩ : BufTy).Contents (Elt F) → (⟨S4096x1, .f32⟩ : BufTy).Contents (Elt F)) v67
  let v69 : (⟨S4096x8, .f32⟩ : BufTy).Contents (Elt F) := (broadcastInDim S4096x8 ![0, 1] bcast_S4096x1_S4096x8_0_1 : (⟨S4096x1, .f32⟩ : BufTy).Contents (Elt F) → (⟨S4096x8, .f32⟩ : BufTy).Contents (Elt F)) v68
  let v70 : (⟨S4096x8, .f32⟩ : BufTy).Contents (Elt F) := (Host.divf : (⟨S4096x8, .f32⟩ : BufTy).Contents (Elt F) → (⟨S4096x8, .f32⟩ : BufTy).Contents (Elt F) → (⟨S4096x8, .f32⟩ : BufTy).Contents (Elt F)) v66 v69
  let v71 : (⟨S300x8, .f32⟩ : BufTy).Contents (Elt F) := ((transpose S300x8 [1, 0] · transposes_S8x300_S300x8_1_0) : (⟨S8x300, .f32⟩ : BufTy).Contents (Elt F) → (⟨S300x8, .f32⟩ : BufTy).Contents (Elt F)) a17
  let v72 : (⟨S4096x8, .f32⟩ : BufTy).Contents (Elt F) := ((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) v55 v71
  let cst_10 : (⟨S_, .f32⟩ : BufTy).Contents (Elt F) := (constant S_ .f32 0x3F800000#32 : (⟨S_, .f32⟩ : BufTy).Contents (Elt F))
  let v73 : (⟨S4096x8, .f32⟩ : BufTy).Contents (Elt F) := (broadcastInDim S4096x8 ![] bcast_S_S4096x8 : (⟨S_, .f32⟩ : BufTy).Contents (Elt F) → (⟨S4096x8, .f32⟩ : BufTy).Contents (Elt F)) cst_10
  let v74 : (⟨S4096x8, .f32⟩ : BufTy).Contents (Elt F) := (Host.divf : (⟨S4096x8, .f32⟩ : BufTy).Contents (Elt F) → (⟨S4096x8, .f32⟩ : BufTy).Contents (Elt F) → (⟨S4096x8, .f32⟩ : BufTy).Contents (Elt F)) v72 v73
  let cst_11 : (⟨S_, .f32⟩ : BufTy).Contents (Elt F) := (constant S_ .f32 0xFF800000#32 : (⟨S_, .f32⟩ : BufTy).Contents (Elt F))
  let v75 : (⟨S4096, .f32⟩ : BufTy).Contents (Elt F) := ((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) v74 cst_11
  let cst_12 : (⟨S_, .f32⟩ : BufTy).Contents (Elt F) := (constant S_ .f32 0xFF800000#32 : (⟨S_, .f32⟩ : BufTy).Contents (Elt F))
  let v76 : (⟨S4096, .f32⟩ : BufTy).Contents (Elt F) := (broadcastInDim S4096 ![] bcast_S_S4096 : (⟨S_, .f32⟩ : BufTy).Contents (Elt F) → (⟨S4096, .f32⟩ : BufTy).Contents (Elt F)) cst_12
  let v77 : (⟨S4096, .f32⟩ : BufTy).Contents (Elt F) := (maximumf : (⟨S4096, .f32⟩ : BufTy).Contents (Elt F) → (⟨S4096, .f32⟩ : BufTy).Contents (Elt F) → (⟨S4096, .f32⟩ : BufTy).Contents (Elt F)) v76 v75
  let v78 : (⟨S4096x1, .f32⟩ : BufTy).Contents (Elt F) := (broadcastInDim S4096x1 ![0] bcast_S4096_S4096x1_0 : (⟨S4096, .f32⟩ : BufTy).Contents (Elt F) → (⟨S4096x1, .f32⟩ : BufTy).Contents (Elt F)) v77
  let v79 : (⟨S4096x8, .f32⟩ : BufTy).Contents (Elt F) := (broadcastInDim S4096x8 ![0, 1] bcast_S4096x1_S4096x8_0_1 : (⟨S4096x1, .f32⟩ : BufTy).Contents (Elt F) → (⟨S4096x8, .f32⟩ : BufTy).Contents (Elt F)) v78
  let v80 : (⟨S4096x8, .f32⟩ : BufTy).Contents (Elt F) := (subf : (⟨S4096x8, .f32⟩ : BufTy).Contents (Elt F) → (⟨S4096x8, .f32⟩ : BufTy).Contents (Elt F) → (⟨S4096x8, .f32⟩ : BufTy).Contents (Elt F)) v74 v79
  let v81 : (⟨S4096x8, .f32⟩ : BufTy).Contents (Elt F) := (Host.exp : (⟨S4096x8, .f32⟩ : BufTy).Contents (Elt F) → (⟨S4096x8, .f32⟩ : BufTy).Contents (Elt F)) v80
  let cst_13 : (⟨S_, .f32⟩ : BufTy).Contents (Elt F) := (constant S_ .f32 0x00000000#32 : (⟨S_, .f32⟩ : BufTy).Contents (Elt F))
  let v82 : (⟨S4096, .f32⟩ : BufTy).Contents (Elt F) := ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) v81 cst_13
  let v83 : (⟨S4096x1, .f32⟩ : BufTy).Contents (Elt F) := (broadcastInDim S4096x1 ![0] bcast_S4096_S4096x1_0 : (⟨S4096, .f32⟩ : BufTy).Contents (Elt F) → (⟨S4096x1, .f32⟩ : BufTy).Contents (Elt F)) v82
  let v84 : (⟨S4096x8, .f32⟩ : BufTy).Contents (Elt F) := (broadcastInDim S4096x8 ![0, 1] bcast_S4096x1_S4096x8_0_1 : (⟨S4096x1, .f32⟩ : BufTy).Contents (Elt F) → (⟨S4096x8, .f32⟩ : BufTy).Contents (Elt F)) v83
  let v85 : (⟨S4096x8, .f32⟩ : BufTy).Contents (Elt F) := (Host.divf : (⟨S4096x8, .f32⟩ : BufTy).Contents (Elt F) → (⟨S4096x8, .f32⟩ : BufTy).Contents (Elt F) → (⟨S4096x8, .f32⟩ : BufTy).Contents (Elt F)) v81 v84
  let v86 : (⟨S4096x128x1, .f32⟩ : BufTy).Contents (Elt F) := (broadcastInDim S4096x128x1 ![0, 1] bcast_S4096x128_S4096x128x1_0_1 : (⟨S4096x128, .f32⟩ : BufTy).Contents (Elt F) → (⟨S4096x128x1, .f32⟩ : BufTy).Contents (Elt F)) a0
  let v87 : (⟨S4096x128x96, .f32⟩ : BufTy).Contents (Elt F) := (broadcastInDim S4096x128x96 ![0, 1, 2] bcast_S4096x128x1_S4096x128x96_0_1_2 : (⟨S4096x128x1, .f32⟩ : BufTy).Contents (Elt F) → (⟨S4096x128x96, .f32⟩ : BufTy).Contents (Elt F)) v86
  let v88 : (⟨S1x128x96, .f32⟩ : BufTy).Contents (Elt F) := (broadcastInDim S1x128x96 ![1, 2] bcast_S128x96_S1x128x96_1_2 : (⟨S128x96, .f32⟩ : BufTy).Contents (Elt F) → (⟨S1x128x96, .f32⟩ : BufTy).Contents (Elt F)) a18
  let v89 : (⟨S4096x128x96, .f32⟩ : BufTy).Contents (Elt F) := (broadcastInDim S4096x128x96 ![0, 1, 2] bcast_S1x128x96_S4096x128x96_0_1_2 : (⟨S1x128x96, .f32⟩ : BufTy).Contents (Elt F) → (⟨S4096x128x96, .f32⟩ : BufTy).Contents (Elt F)) v88
  let v90 : (⟨S4096x128x96, .f32⟩ : BufTy).Contents (Elt F) := (mulf : (⟨S4096x128x96, .f32⟩ : BufTy).Contents (Elt F) → (⟨S4096x128x96, .f32⟩ : BufTy).Contents (Elt F) → (⟨S4096x128x96, .f32⟩ : BufTy).Contents (Elt F)) v87 v89
  let cst_14 : (⟨S_, .f32⟩ : BufTy).Contents (Elt F) := (constant S_ .f32 0x00000000#32 : (⟨S_, .f32⟩ : BufTy).Contents (Elt F))
  let v91 : (⟨S4096x96, .f32⟩ : BufTy).Contents (Elt F) := ((fun x v => Host.reduceAdd x v reducesTo_S4096x128x96_S4096x96_d1 h_S_) : (⟨S4096x128x96, .f32⟩ : BufTy).Contents (Elt F) → (⟨S_, .f32⟩ : BufTy).Contents (Elt F) → (⟨S4096x96, .f32⟩ : BufTy).Contents (Elt F)) v90 cst_14
  let v92 : (⟨S1x96, .f32⟩ : BufTy).Contents (Elt F) := (broadcastInDim S1x96 ![1] bcast_S96_S1x96_1 : (⟨S96, .f32⟩ : BufTy).Contents (Elt F) → (⟨S1x96, .f32⟩ : BufTy).Contents (Elt F)) a19
  let v93 : (⟨S4096x96, .f32⟩ : BufTy).Contents (Elt F) := (broadcastInDim S4096x96 ![0, 1] bcast_S1x96_S4096x96_0_1 : (⟨S1x96, .f32⟩ : BufTy).Contents (Elt F) → (⟨S4096x96, .f32⟩ : BufTy).Contents (Elt F)) v92
  let v94 : (⟨S4096x96, .f32⟩ : BufTy).Contents (Elt F) := (addf : (⟨S4096x96, .f32⟩ : BufTy).Contents (Elt F) → (⟨S4096x96, .f32⟩ : BufTy).Contents (Elt F) → (⟨S4096x96, .f32⟩ : BufTy).Contents (Elt F)) v91 v93
  let v95 : (⟨S4096x8x12, .f32⟩ : BufTy).Contents (Elt F) := ((shapeCast S4096x8x12 · shapeCasts_S4096x96_S4096x8x12) : (⟨S4096x96, .f32⟩ : BufTy).Contents (Elt F) → (⟨S4096x8x12, .f32⟩ : BufTy).Contents (Elt F)) v94
  let v96 : (⟨S4096x8x1, .f32⟩ : BufTy).Contents (Elt F) := (broadcastInDim S4096x8x1 ![0, 1] bcast_S4096x8_S4096x8x1_0_1 : (⟨S4096x8, .f32⟩ : BufTy).Contents (Elt F) → (⟨S4096x8x1, .f32⟩ : BufTy).Contents (Elt F)) v70
  let v97 : (⟨S4096x8x12, .f32⟩ : BufTy).Contents (Elt F) := (broadcastInDim S4096x8x12 ![0, 1, 2] bcast_S4096x8x1_S4096x8x12_0_1_2 : (⟨S4096x8x1, .f32⟩ : BufTy).Contents (Elt F) → (⟨S4096x8x12, .f32⟩ : BufTy).Contents (Elt F)) v96
  let v98 : (⟨S4096x8x12, .f32⟩ : BufTy).Contents (Elt F) := (mulf : (⟨S4096x8x12, .f32⟩ : BufTy).Contents (Elt F) → (⟨S4096x8x12, .f32⟩ : BufTy).Contents (Elt F) → (⟨S4096x8x12, .f32⟩ : BufTy).Contents (Elt F)) v97 v95
  let cst_15 : (⟨S_, .f32⟩ : BufTy).Contents (Elt F) := (constant S_ .f32 0x00000000#32 : (⟨S_, .f32⟩ : BufTy).Contents (Elt F))
  let v99 : (⟨S4096x12, .f32⟩ : BufTy).Contents (Elt F) := ((fun x v => Host.reduceAdd x v reducesTo_S4096x8x12_S4096x12_d1 h_S_) : (⟨S4096x8x12, .f32⟩ : BufTy).Contents (Elt F) → (⟨S_, .f32⟩ : BufTy).Contents (Elt F) → (⟨S4096x12, .f32⟩ : BufTy).Contents (Elt F)) v98 cst_15
  let v100 : (⟨S4096x128x1, .f32⟩ : BufTy).Contents (Elt F) := (broadcastInDim S4096x128x1 ![0, 1] bcast_S4096x128_S4096x128x1_0_1 : (⟨S4096x128, .f32⟩ : BufTy).Contents (Elt F) → (⟨S4096x128x1, .f32⟩ : BufTy).Contents (Elt F)) a1
  let v101 : (⟨S4096x128x96, .f32⟩ : BufTy).Contents (Elt F) := (broadcastInDim S4096x128x96 ![0, 1, 2] bcast_S4096x128x1_S4096x128x96_0_1_2 : (⟨S4096x128x1, .f32⟩ : BufTy).Contents (Elt F) → (⟨S4096x128x96, .f32⟩ : BufTy).Contents (Elt F)) v100
  let v102 : (⟨S1x128x96, .f32⟩ : BufTy).Contents (Elt F) := (broadcastInDim S1x128x96 ![1, 2] bcast_S128x96_S1x128x96_1_2 : (⟨S128x96, .f32⟩ : BufTy).Contents (Elt F) → (⟨S1x128x96, .f32⟩ : BufTy).Contents (Elt F)) a20
  let v103 : (⟨S4096x128x96, .f32⟩ : BufTy).Contents (Elt F) := (broadcastInDim S4096x128x96 ![0, 1, 2] bcast_S1x128x96_S4096x128x96_0_1_2 : (⟨S1x128x96, .f32⟩ : BufTy).Contents (Elt F) → (⟨S4096x128x96, .f32⟩ : BufTy).Contents (Elt F)) v102
  let v104 : (⟨S4096x128x96, .f32⟩ : BufTy).Contents (Elt F) := (mulf : (⟨S4096x128x96, .f32⟩ : BufTy).Contents (Elt F) → (⟨S4096x128x96, .f32⟩ : BufTy).Contents (Elt F) → (⟨S4096x128x96, .f32⟩ : BufTy).Contents (Elt F)) v101 v103
  let cst_16 : (⟨S_, .f32⟩ : BufTy).Contents (Elt F) := (constant S_ .f32 0x00000000#32 : (⟨S_, .f32⟩ : BufTy).Contents (Elt F))
  let v105 : (⟨S4096x96, .f32⟩ : BufTy).Contents (Elt F) := ((fun x v => Host.reduceAdd x v reducesTo_S4096x128x96_S4096x96_d1 h_S_) : (⟨S4096x128x96, .f32⟩ : BufTy).Contents (Elt F) → (⟨S_, .f32⟩ : BufTy).Contents (Elt F) → (⟨S4096x96, .f32⟩ : BufTy).Contents (Elt F)) v104 cst_16
  let v106 : (⟨S1x96, .f32⟩ : BufTy).Contents (Elt F) := (broadcastInDim S1x96 ![1] bcast_S96_S1x96_1 : (⟨S96, .f32⟩ : BufTy).Contents (Elt F) → (⟨S1x96, .f32⟩ : BufTy).Contents (Elt F)) a21
  let v107 : (⟨S4096x96, .f32⟩ : BufTy).Contents (Elt F) := (broadcastInDim S4096x96 ![0, 1] bcast_S1x96_S4096x96_0_1 : (⟨S1x96, .f32⟩ : BufTy).Contents (Elt F) → (⟨S4096x96, .f32⟩ : BufTy).Contents (Elt F)) v106
  let v108 : (⟨S4096x96, .f32⟩ : BufTy).Contents (Elt F) := (addf : (⟨S4096x96, .f32⟩ : BufTy).Contents (Elt F) → (⟨S4096x96, .f32⟩ : BufTy).Contents (Elt F) → (⟨S4096x96, .f32⟩ : BufTy).Contents (Elt F)) v105 v107
  let v109 : (⟨S4096x8x12, .f32⟩ : BufTy).Contents (Elt F) := ((shapeCast S4096x8x12 · shapeCasts_S4096x96_S4096x8x12) : (⟨S4096x96, .f32⟩ : BufTy).Contents (Elt F) → (⟨S4096x8x12, .f32⟩ : BufTy).Contents (Elt F)) v108
  let v110 : (⟨S4096x8x1, .f32⟩ : BufTy).Contents (Elt F) := (broadcastInDim S4096x8x1 ![0, 1] bcast_S4096x8_S4096x8x1_0_1 : (⟨S4096x8, .f32⟩ : BufTy).Contents (Elt F) → (⟨S4096x8x1, .f32⟩ : BufTy).Contents (Elt F)) v85
  let v111 : (⟨S4096x8x12, .f32⟩ : BufTy).Contents (Elt F) := (broadcastInDim S4096x8x12 ![0, 1, 2] bcast_S4096x8x1_S4096x8x12_0_1_2 : (⟨S4096x8x1, .f32⟩ : BufTy).Contents (Elt F) → (⟨S4096x8x12, .f32⟩ : BufTy).Contents (Elt F)) v110
  let v112 : (⟨S4096x8x12, .f32⟩ : BufTy).Contents (Elt F) := (mulf : (⟨S4096x8x12, .f32⟩ : BufTy).Contents (Elt F) → (⟨S4096x8x12, .f32⟩ : BufTy).Contents (Elt F) → (⟨S4096x8x12, .f32⟩ : BufTy).Contents (Elt F)) v111 v109
  let cst_17 : (⟨S_, .f32⟩ : BufTy).Contents (Elt F) := (constant S_ .f32 0x00000000#32 : (⟨S_, .f32⟩ : BufTy).Contents (Elt F))
  let v113 : (⟨S4096x12, .f32⟩ : BufTy).Contents (Elt F) := ((fun x v => Host.reduceAdd x v reducesTo_S4096x8x12_S4096x12_d1 h_S_) : (⟨S4096x8x12, .f32⟩ : BufTy).Contents (Elt F) → (⟨S_, .f32⟩ : BufTy).Contents (Elt F) → (⟨S4096x12, .f32⟩ : BufTy).Contents (Elt F)) v112 cst_17
  let v114 : (⟨S4096x12, .f32⟩ : BufTy).Contents (Elt F) := (addf : (⟨S4096x12, .f32⟩ : BufTy).Contents (Elt F) → (⟨S4096x12, .f32⟩ : BufTy).Contents (Elt F) → (⟨S4096x12, .f32⟩ : BufTy).Contents (Elt F)) v99 v113
  let cst_18 : (⟨S_, .f32⟩ : BufTy).Contents (Elt F) := (constant S_ .f32 0x3F000000#32 : (⟨S_, .f32⟩ : BufTy).Contents (Elt F))
  let v115 : (⟨S4096x12, .f32⟩ : BufTy).Contents (Elt F) := (broadcastInDim S4096x12 ![] bcast_S_S4096x12 : (⟨S_, .f32⟩ : BufTy).Contents (Elt F) → (⟨S4096x12, .f32⟩ : BufTy).Contents (Elt F)) cst_18
  let v116 : (⟨S4096x12, .f32⟩ : BufTy).Contents (Elt F) := (mulf : (⟨S4096x12, .f32⟩ : BufTy).Contents (Elt F) → (⟨S4096x12, .f32⟩ : BufTy).Contents (Elt F) → (⟨S4096x12, .f32⟩ : BufTy).Contents (Elt F)) v115 v114
  v116

set_option maxRecDepth 8192 in
set_option maxHeartbeats 4000000 in
/-- The composed term is `out` at the starting contents of the argument buffers: the names unfold. -/
theorem out_eq (V0 : Valuation τ sig (Elt F)) :
    (mulf : (⟨S4096x12, .f32⟩ : BufTy).Contents (Elt F) → (⟨S4096x12, .f32⟩ : BufTy).Contents (Elt F) → (⟨S4096x12, .f32⟩ : BufTy).Contents (Elt F)) ((broadcastInDim S4096x12 ![] bcast_S_S4096x12 : (⟨S_, .f32⟩ : BufTy).Contents (Elt F) → (⟨S4096x12, .f32⟩ : BufTy).Contents (Elt F)) ((constant S_ .f32 0x3F000000#32 : (⟨S_, .f32⟩ : BufTy).Contents (Elt F)))) ((addf : (⟨S4096x12, .f32⟩ : BufTy).Contents (Elt F) → (⟨S4096x12, .f32⟩ : BufTy).Contents (Elt F) → (⟨S4096x12, .f32⟩ : BufTy).Contents (Elt F)) (((fun x v => Host.reduceAdd x v reducesTo_S4096x8x12_S4096x12_d1 h_S_) : (⟨S4096x8x12, .f32⟩ : BufTy).Contents (Elt F) → (⟨S_, .f32⟩ : BufTy).Contents (Elt F) → (⟨S4096x12, .f32⟩ : BufTy).Contents (Elt F)) ((mulf : (⟨S4096x8x12, .f32⟩ : BufTy).Contents (Elt F) → (⟨S4096x8x12, .f32⟩ : BufTy).Contents (Elt F) → (⟨S4096x8x12, .f32⟩ : BufTy).Contents (Elt F)) ((broadcastInDim S4096x8x12 ![0, 1, 2] bcast_S4096x8x1_S4096x8x12_0_1_2 : (⟨S4096x8x1, .f32⟩ : BufTy).Contents (Elt F) → (⟨S4096x8x12, .f32⟩ : BufTy).Contents (Elt F)) ((broadcastInDim S4096x8x1 ![0, 1] bcast_S4096x8_S4096x8x1_0_1 : (⟨S4096x8, .f32⟩ : BufTy).Contents (Elt F) → (⟨S4096x8x1, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) (((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg2)) (V0 (Proc.devRef .tc main_arg4))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg5))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg6))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg7))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg8))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg9))))) (((transpose S300x8 [1, 0] · transposes_S8x300_S300x8_1_0) : (⟨S8x300, .f32⟩ : BufTy).Contents (Elt F) → (⟨S300x8, .f32⟩ : BufTy).Contents (Elt F)) (V0 (Proc.devRef .tc main_arg16)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((constant S_ .f32 0x00000000#32 : (⟨S_, .f32⟩ : BufTy).Contents (Elt F))))))))) (((shapeCast S4096x8x12 · shapeCasts_S4096x96_S4096x8x12) : (⟨S4096x96, .f32⟩ : BufTy).Contents (Elt F) → (⟨S4096x8x12, .f32⟩ : BufTy).Contents (Elt F)) ((addf : (⟨S4096x96, .f32⟩ : BufTy).Contents (Elt F) → (⟨S4096x96, .f32⟩ : BufTy).Contents (Elt F) → (⟨S4096x96, .f32⟩ : BufTy).Contents (Elt F)) (((fun x v => Host.reduceAdd x v reducesTo_S4096x128x96_S4096x96_d1 h_S_) : (⟨S4096x128x96, .f32⟩ : BufTy).Contents (Elt F) → (⟨S_, .f32⟩ : BufTy).Contents (Elt F) → (⟨S4096x96, .f32⟩ : BufTy).Contents (Elt F)) ((mulf : (⟨S4096x128x96, .f32⟩ : BufTy).Contents (Elt F) → (⟨S4096x128x96, .f32⟩ : BufTy).Contents (Elt F) → (⟨S4096x128x96, .f32⟩ : BufTy).Contents (Elt F)) ((broadcastInDim S4096x128x96 ![0, 1, 2] bcast_S4096x128x1_S4096x128x96_0_1_2 : (⟨S4096x128x1, .f32⟩ : BufTy).Contents (Elt F) → (⟨S4096x128x96, .f32⟩ : BufTy).Contents (Elt F)) ((broadcastInDim S4096x128x1 ![0, 1] bcast_S4096x128_S4096x128x1_0_1 : (⟨S4096x128, .f32⟩ : BufTy).Contents (Elt F) → (⟨S4096x128x1, .f32⟩ : BufTy).Contents (Elt F)) (V0 (Proc.devRef .tc main_arg0)))) ((broadcastInDim S4096x128x96 ![0, 1, 2] bcast_S1x128x96_S4096x128x96_0_1_2 : (⟨S1x128x96, .f32⟩ : BufTy).Contents (Elt F) → (⟨S4096x128x96, .f32⟩ : BufTy).Contents (Elt F)) ((broadcastInDim S1x128x96 ![1, 2] bcast_S128x96_S1x128x96_1_2 : (⟨S128x96, .f32⟩ : BufTy).Contents (Elt F) → (⟨S1x128x96, .f32⟩ : BufTy).Contents (Elt F)) (V0 (Proc.devRef .tc main_arg18))))) ((constant S_ .f32 0x00000000#32 : (⟨S_, .f32⟩ : BufTy).Contents (Elt F)))) ((broadcastInDim S4096x96 ![0, 1] bcast_S1x96_S4096x96_0_1 : (⟨S1x96, .f32⟩ : BufTy).Contents (Elt F) → (⟨S4096x96, .f32⟩ : BufTy).Contents (Elt F)) ((broadcastInDim S1x96 ![1] bcast_S96_S1x96_1 : (⟨S96, .f32⟩ : BufTy).Contents (Elt F) → (⟨S1x96, .f32⟩ : BufTy).Contents (Elt F)) (V0 (Proc.devRef .tc main_arg19))))))) ((constant S_ .f32 0x00000000#32 : (⟨S_, .f32⟩ : BufTy).Contents (Elt F)))) (((fun x v => Host.reduceAdd x v reducesTo_S4096x8x12_S4096x12_d1 h_S_) : (⟨S4096x8x12, .f32⟩ : BufTy).Contents (Elt F) → (⟨S_, .f32⟩ : BufTy).Contents (Elt F) → (⟨S4096x12, .f32⟩ : BufTy).Contents (Elt F)) ((mulf : (⟨S4096x8x12, .f32⟩ : BufTy).Contents (Elt F) → (⟨S4096x8x12, .f32⟩ : BufTy).Contents (Elt F) → (⟨S4096x8x12, .f32⟩ : BufTy).Contents (Elt F)) ((broadcastInDim S4096x8x12 ![0, 1, 2] bcast_S4096x8x1_S4096x8x12_0_1_2 : (⟨S4096x8x1, .f32⟩ : BufTy).Contents (Elt F) → (⟨S4096x8x12, .f32⟩ : BufTy).Contents (Elt F)) ((broadcastInDim S4096x8x1 ![0, 1] bcast_S4096x8_S4096x8x1_0_1 : (⟨S4096x8, .f32⟩ : BufTy).Contents (Elt F) → (⟨S4096x8x1, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) (((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.exp : (⟨S4096x8, .f32⟩ : BufTy).Contents (Elt F) → (⟨S4096x8, .f32⟩ : BufTy).Contents (Elt F)) ((subf : (⟨S4096x8, .f32⟩ : BufTy).Contents (Elt F) → (⟨S4096x8, .f32⟩ : BufTy).Contents (Elt F) → (⟨S4096x8, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((broadcastInDim S4096x8 ![0, 1] bcast_S4096x1_S4096x8_0_1 : (⟨S4096x1, .f32⟩ : BufTy).Contents (Elt F) → (⟨S4096x8, .f32⟩ : BufTy).Contents (Elt F)) ((broadcastInDim S4096x1 ![0] bcast_S4096_S4096x1_0 : (⟨S4096, .f32⟩ : BufTy).Contents (Elt F) → (⟨S4096x1, .f32⟩ : BufTy).Contents (Elt F)) ((maximumf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0xFF800000#32 : (⟨S_, .f32⟩ : BufTy).Contents (Elt F)))) (((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)) ((Host.divf : (⟨S4096x8, .f32⟩ : BufTy).Contents (Elt F) → (⟨S4096x8, .f32⟩ : BufTy).Contents (Elt F) → (⟨S4096x8, .f32⟩ : BufTy).Contents (Elt F)) (((fun l r => Host.dotGeneral dot_S4096x300_S300x8_S4096x8_1_0_0_1_n_n none l r) : (⟨S4096x300, .f32⟩ : BufTy).Contents (Elt F) → (⟨S300x8, .f32⟩ : BufTy).Contents (Elt F) → (⟨S4096x8, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x300_S300x300_S4096x300_1_0_0_1_n_n none l r) : (⟨S4096x300, .f32⟩ : BufTy).Contents (Elt F) → (⟨S300x300, .f32⟩ : BufTy).Contents (Elt F) → (⟨S4096x300, .f32⟩ : BufTy).Contents (Elt F)) ((maximumf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((Host.divf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F)))) ((broadcastInDim S300 ![] bcast_S_S300 : (⟨S_, .f32⟩ : BufTy).Contents (Elt F) → (⟨S300, .f32⟩ : BufTy).Contents (Elt F)) ((constant S_ .f32 0x45800000#32 : (⟨S_, .f32⟩ : BufTy).Contents (Elt F)))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) ((Host.sqrt : (⟨S300, .f32⟩ : BufTy).Contents (Elt F) → (⟨S300, .f32⟩ : BufTy).Contents (Elt F)) ((addf : (⟨S300, .f32⟩ : BufTy).Contents (Elt F) → (⟨S300, .f32⟩ : BufTy).Contents (Elt F) → (⟨S300, .f32⟩ : BufTy).Contents (Elt F)) (((fun p a b => select (broadcastInDim S300 ![] bcast_S_S300 p) a b) : (⟨S_, .i1⟩ : BufTy).Contents (Elt F) → (⟨S300, .f32⟩ : BufTy).Contents (Elt F) → (⟨S300, .f32⟩ : BufTy).Contents (Elt F) → (⟨S300, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))) ((constant S_ .f32 0x00000000#32 : (⟨S_, .f32⟩ : BufTy).Contents (Elt F)))) ((Host.divf : (⟨S300, .f32⟩ : BufTy).Contents (Elt F) → (⟨S300, .f32⟩ : BufTy).Contents (Elt F) → (⟨S300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((mulf : (⟨S4096x300, .f32⟩ : BufTy).Contents (Elt F) → (⟨S4096x300, .f32⟩ : BufTy).Contents (Elt F) → (⟨S4096x300, .f32⟩ : BufTy).Contents (Elt F)) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F))))))) ((subf : (⟨S4096x300, .f32⟩ : BufTy).Contents (Elt F) → (⟨S4096x300, .f32⟩ : BufTy).Contents (Elt F) → (⟨S4096x300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) (((broadcastInDim S4096x300 ![0, 1] bcast_S1x300_S4096x300_0_1) : (⟨S1x300, .f32⟩ : BufTy).Contents (Elt F) → (⟨S4096x300, .f32⟩ : BufTy).Contents (Elt F)) ((Host.divf : (⟨S1x300, .f32⟩ : BufTy).Contents (Elt F) → (⟨S1x300, .f32⟩ : BufTy).Contents (Elt F) → (⟨S1x300, .f32⟩ : BufTy).Contents (Elt F)) (((broadcastInDim S1x300 ![1] bcast_S300_S1x300_1) : (⟨S300, .f32⟩ : BufTy).Contents (Elt F) → (⟨S1x300, .f32⟩ : BufTy).Contents (Elt F)) (((fun x v => Host.reduceAdd x v reducesTo_S4096x300_S300_d0 h_S_) : (⟨S4096x300, .f32⟩ : BufTy).Contents (Elt F) → (⟨S_, .f32⟩ : BufTy).Contents (Elt F) → (⟨S300, .f32⟩ : BufTy).Contents (Elt F)) ((addf : (⟨S4096x300, .f32⟩ : BufTy).Contents (Elt F) → (⟨S4096x300, .f32⟩ : BufTy).Contents (Elt F) → (⟨S4096x300, .f32⟩ : BufTy).Contents (Elt F)) (((fun l r => Host.dotGeneral dot_S4096x128_S128x300_S4096x300_1_0_0_1_n_n none l r) : (⟨S4096x128, .f32⟩ : BufTy).Contents (Elt F) → (⟨S128x300, .f32⟩ : BufTy).Contents (Elt F) → (⟨S4096x300, .f32⟩ : BufTy).Contents (Elt F)) (V0 (Proc.devRef .tc main_arg3)) (V0 (Proc.devRef .tc main_arg10))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg11))))) ((constant S_ .f32 0x00000000#32 : (⟨S_, .f32⟩ : BufTy).Contents (Elt F))))) (((broadcastInDim S1x300 ![] bcast_S_S1x300) : (⟨S_, .f32⟩ : BufTy).Contents (Elt F) → (⟨S1x300, .f32⟩ : BufTy).Contents (Elt F)) ((constant S_ .f32 0x45800000#32 : (⟨S_, .f32⟩ : BufTy).Contents (Elt F)))))))) ((constant S_ .f32 0x00000000#32 : (⟨S_, .f32⟩ : BufTy).Contents (Elt F)))) (((broadcastInDim S300 ![] bcast_S_S300) : (⟨S_, .f32⟩ : BufTy).Contents (Elt F) → (⟨S300, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x45800000#32 : (⟨S_, .f32⟩ : BufTy).Contents (Elt F))) (((sitofp .f32) : (⟨S_, .i32⟩ : BufTy).Contents (Elt F) → (⟨S_, .f32⟩ : BufTy).Contents (Elt F)) ((constantI S_ 32 0#32 : (⟨S_, .i32⟩ : BufTy).Contents (Elt F))))))) (((broadcastInDim S300 ![] bcast_S_S300) : (⟨S_, .f32⟩ : BufTy).Contents (Elt F) → (⟨S300, .f32⟩ : BufTy).Contents (Elt F)) ((id : (⟨S_, .f32⟩ : BufTy).Contents (Elt F) → (⟨S_, .f32⟩ : BufTy).Contents (Elt F)) ((constant S_ .f32 0x7FC00000#32 : (⟨S_, .f32⟩ : BufTy).Contents (Elt F)))))) ((broadcastInDim S300 ![] bcast_S_S300 : (⟨S_, .f32⟩ : BufTy).Contents (Elt F) → (⟨S300, .f32⟩ : BufTy).Contents (Elt F)) ((constant S_ .f32 0x3727C5AC#32 : (⟨S_, .f32⟩ : BufTy).Contents (Elt F))))))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg12))))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg13))))) (((broadcastInDim S4096x300 ![] bcast_S_S4096x300) : (⟨S_, .f32⟩ : BufTy).Contents (Elt F) → (⟨S4096x300, .f32⟩ : BufTy).Contents (Elt F)) ((constant S_ .f32 0x00000000#32 : (⟨S_, .f32⟩ : BufTy).Contents (Elt F))))) (V0 (Proc.devRef .tc main_arg14))) ((broadcastInDim S4096x300 ![0, 1] bcast_S1x300_S4096x300_0_1 : (⟨S1x300, .f32⟩ : BufTy).Contents (Elt F) → (⟨S4096x300, .f32⟩ : BufTy).Contents (Elt F)) ((broadcastInDim S1x300 ![1] bcast_S300_S1x300_1 : (⟨S300, .f32⟩ : BufTy).Contents (Elt F) → (⟨S1x300, .f32⟩ : BufTy).Contents (Elt F)) (V0 (Proc.devRef .tc main_arg15))))) (((transpose S300x8 [1, 0] · transposes_S8x300_S300x8_1_0) : (⟨S8x300, .f32⟩ : BufTy).Contents (Elt F) → (⟨S300x8, .f32⟩ : BufTy).Contents (Elt F)) (V0 (Proc.devRef .tc main_arg17)))) ((broadcastInDim S4096x8 ![] bcast_S_S4096x8 : (⟨S_, .f32⟩ : BufTy).Contents (Elt F) → (⟨S4096x8, .f32⟩ : BufTy).Contents (Elt F)) ((constant S_ .f32 0x3F800000#32 : (⟨S_, .f32⟩ : BufTy).Contents (Elt F))))) ((constant S_ .f32 0xFF800000#32 : (⟨S_, .f32⟩ : BufTy).Contents (Elt F))))))))) ((constant S_ .f32 0x00000000#32 : (⟨S_, .f32⟩ : BufTy).Contents (Elt F))))))))) (((shapeCast S4096x8x12 · shapeCasts_S4096x96_S4096x8x12) : (⟨S4096x96, .f32⟩ : BufTy).Contents (Elt F) → (⟨S4096x8x12, .f32⟩ : BufTy).Contents (Elt F)) ((addf : (⟨S4096x96, .f32⟩ : BufTy).Contents (Elt F) → (⟨S4096x96, .f32⟩ : BufTy).Contents (Elt F) → (⟨S4096x96, .f32⟩ : BufTy).Contents (Elt F)) (((fun x v => Host.reduceAdd x v reducesTo_S4096x128x96_S4096x96_d1 h_S_) : (⟨S4096x128x96, .f32⟩ : BufTy).Contents (Elt F) → (⟨S_, .f32⟩ : BufTy).Contents (Elt F) → (⟨S4096x96, .f32⟩ : BufTy).Contents (Elt F)) ((mulf : (⟨S4096x128x96, .f32⟩ : BufTy).Contents (Elt F) → (⟨S4096x128x96, .f32⟩ : BufTy).Contents (Elt F) → (⟨S4096x128x96, .f32⟩ : BufTy).Contents (Elt F)) ((broadcastInDim S4096x128x96 ![0, 1, 2] bcast_S4096x128x1_S4096x128x96_0_1_2 : (⟨S4096x128x1, .f32⟩ : BufTy).Contents (Elt F) → (⟨S4096x128x96, .f32⟩ : BufTy).Contents (Elt F)) ((broadcastInDim S4096x128x1 ![0, 1] bcast_S4096x128_S4096x128x1_0_1 : (⟨S4096x128, .f32⟩ : BufTy).Contents (Elt F) → (⟨S4096x128x1, .f32⟩ : BufTy).Contents (Elt F)) (V0 (Proc.devRef .tc main_arg1)))) ((broadcastInDim S4096x128x96 ![0, 1, 2] bcast_S1x128x96_S4096x128x96_0_1_2 : (⟨S1x128x96, .f32⟩ : BufTy).Contents (Elt F) → (⟨S4096x128x96, .f32⟩ : BufTy).Contents (Elt F)) ((broadcastInDim S1x128x96 ![1, 2] bcast_S128x96_S1x128x96_1_2 : (⟨S128x96, .f32⟩ : BufTy).Contents (Elt F) → (⟨S1x128x96, .f32⟩ : BufTy).Contents (Elt F)) (V0 (Proc.devRef .tc main_arg20))))) ((constant S_ .f32 0x00000000#32 : (⟨S_, .f32⟩ : BufTy).Contents (Elt F)))) ((broadcastInDim S4096x96 ![0, 1] bcast_S1x96_S4096x96_0_1 : (⟨S1x96, .f32⟩ : BufTy).Contents (Elt F) → (⟨S4096x96, .f32⟩ : BufTy).Contents (Elt F)) ((broadcastInDim S1x96 ![1] bcast_S96_S1x96_1 : (⟨S96, .f32⟩ : BufTy).Contents (Elt F) → (⟨S1x96, .f32⟩ : BufTy).Contents (Elt F)) (V0 (Proc.devRef .tc main_arg21))))))) ((constant S_ .f32 0x00000000#32 : (⟨S_, .f32⟩ : BufTy).Contents (Elt F)))))
      = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) := rfl

/-- The contents after the whole line are the contents after its last piece. -/
theorem after_ops (V0 : Valuation τ sig (Elt F)) : after ops V0 = val9 V0 := by
  simp only [ops, after_append]
  rfl

set_option maxRecDepth 8192 in
/-- On every device, for any float values, from any memory with zero counters: every weakly fair execution of @main
    terminates with the result buffer at `out` of the arguments' starting contents and every argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v116) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(h c main_v116).trans (by simp only [after_ops]; exact (val9_main_v116 (launchContents m c)).trans (out_eq (launchContents m c))),
      (h c main_arg0).trans (by simp only [after_ops]; exact val9_main_arg0 (launchContents m c)),
      (h c main_arg1).trans (by simp only [after_ops]; exact val9_main_arg1 (launchContents m c)),
      (h c main_arg2).trans (by simp only [after_ops]; exact val9_main_arg2 (launchContents m c)),
      (h c main_arg3).trans (by simp only [after_ops]; exact val9_main_arg3 (launchContents m c)),
      (h c main_arg4).trans (by simp only [after_ops]; exact val9_main_arg4 (launchContents m c)),
      (h c main_arg5).trans (by simp only [after_ops]; exact val9_main_arg5 (launchContents m c)),
      (h c main_arg6).trans (by simp only [after_ops]; exact val9_main_arg6 (launchContents m c)),
      (h c main_arg7).trans (by simp only [after_ops]; exact val9_main_arg7 (launchContents m c)),
      (h c main_arg8).trans (by simp only [after_ops]; exact val9_main_arg8 (launchContents m c)),
      (h c main_arg9).trans (by simp only [after_ops]; exact val9_main_arg9 (launchContents m c)),
      (h c main_arg10).trans (by simp only [after_ops]; exact val9_main_arg10 (launchContents m c)),
      (h c main_arg11).trans (by simp only [after_ops]; exact val9_main_arg11 (launchContents m c)),
      (h c main_arg12).trans (by simp only [after_ops]; exact val9_main_arg12 (launchContents m c)),
      (h c main_arg13).trans (by simp only [after_ops]; exact val9_main_arg13 (launchContents m c)),
      (h c main_arg14).trans (by simp only [after_ops]; exact val9_main_arg14 (launchContents m c)),
      (h c main_arg15).trans (by simp only [after_ops]; exact val9_main_arg15 (launchContents m c)),
      (h c main_arg16).trans (by simp only [after_ops]; exact val9_main_arg16 (launchContents m c)),
      (h c main_arg17).trans (by simp only [after_ops]; exact val9_main_arg17 (launchContents m c)),
      (h c main_arg18).trans (by simp only [after_ops]; exact val9_main_arg18 (launchContents m c)),
      (h c main_arg19).trans (by simp only [after_ops]; exact val9_main_arg19 (launchContents m c)),
      (h c main_arg20).trans (by simp only [after_ops]; exact val9_main_arg20 (launchContents m c)),
      (h c main_arg21).trans (by simp only [after_ops]; exact val9_main_arg21 (launchContents m c))⟩)
    (run_seq scopedRefs_eq scopedSems_eq defs main (fun _ => ops) main_eq (fun _ => ops_sub) m ρ)

end Cert.ReferenceIdeal.RefRun

end
-- ==== Proof.Stages.lean ====
/-
  The two programs, stage by stage, as pure functions of whole arrays.

  Each program computes, for two groups of inputs, the same chain: a linear layer x·W₁ + b₁; its
  normalisation over the 4096 rows (column mean μ, column variance σ² of the centred values, then
  (h − μ)·γ/√(σ² + ε) + β); the positive part; a second linear layer; the inner products with eight
  cluster rows; a softmax over those eight values; the expert outputs rep·W + b (96 columns, read as
  8 experts × 12 targets); and the softmax-weighted sum over the experts. The result is the mean of the
  two groups' sums. The kernel writes the chain with matrix products and lane reductions and the
  weighted sum as two products with 0/1 matrices; the reference writes it with host products,
  host reductions, a transpose, and a three-axis broadcast, multiply and reduce. The definitions below
  name each stage in each spelling; nothing is proved here.
-/
import proofs.«150749_g69896297775690_cont_9to1c4b_828_3_alg».proof.KernelIdeal
import proofs.«150749_g69896297775690_cont_9to1c4b_828_3_alg».proof.ReferenceIdeal

noncomputable section

open Idealize.ShloMosaic

/-! ## The kernel's spelling -/

namespace Cert.KernelIdeal.Stage

open Cert.KernelIdeal Cert.KernelIdeal.Facts₀ Cert.KernelIdeal.Facts

variable {F : FTy → Type} [FloatOps F] [Facts]

/-- A 300-vector laid along every one of the 4096 rows. -/
def row300 (b : FVec F S300 .f32) : FVec F S4096x300 .f32 :=
  broadcastTo S4096x300 (shapeCast S1x300 b shapeCasts_S300_S1x300) broadcasts_S1x300_S4096x300

/-- x·W + b for a 128-column input and 300 outputs. -/
def lin1 (x : FVec F S4096x128 .f32) (w : FVec F S128x300 .f32) (b : FVec F S300 .f32) : FVec F S4096x300 .f32 :=
  addf (matmul dot_S4096x128_S128x300_S4096x300_1_0_0_1_n_n none x w (constant S4096x300 .f32 0x00000000#32)) (row300 b)

/-- The column sums over the 4096 rows, divided by 4096, as one row. -/
def colAvg (h : FVec F S4096x300 .f32) : FVec F S1x300 .f32 :=
  divf (shapeCast S1x300 (multiReduction .add [0] S300 h 0x00000000#32 reduces_S4096x300_S300 (.inl rfl) rfl) shapeCasts_S300_S1x300)
    (broadcast S1x300 (Scalar.ofBits .f32 0x45800000#32))

/-- Each entry minus its column's mean. -/
def centred (h : FVec F S4096x300 .f32) : FVec F S4096x300 .f32 :=
  subf h (broadcastTo S4096x300 (colAvg h) broadcasts_S1x300_S4096x300)

/-- The normalisation over the rows: (h − μ)·(γ·(σ² + ε)^(−1/2)) + β. -/
def norm (h : FVec F S4096x300 .f32) (g bt : FVec F S300 .f32) : FVec F S4096x300 .f32 :=
  addf
    (mulf (centred h)
      (broadcastTo S4096x300
        (mulf (shapeCast S1x300 g shapeCasts_S300_S1x300)
          (rsqrt (addf (colAvg (mulf (centred h) (centred h))) (broadcast S1x300 (Scalar.ofBits .f32 0x3727C5AC#32)))))
        broadcasts_S1x300_S4096x300))
    (row300 bt)

/-- The positive part. -/
def pos (h : FVec F S4096x300 .f32) : FVec F S4096x300 .f32 :=
  maximumf h (broadcast S4096x300 (Scalar.ofBits .f32 0x00000000#32))

/-- h·W + b for a 300-column input and 300 outputs. -/
def lin2 (h : FVec F S4096x300 .f32) (w : FVec F S300x300 .f32) (b : FVec F S300 .f32) : FVec F S4096x300 .f32 :=
  addf (matmul dot_S4096x300_S300x300_S4096x300_1_0_0_1_n_n none h w (constant S4096x300 .f32 0x00000000#32)) (row300 b)

/-- The inner products of each row with the eight cluster rows. -/
def scores (ge : FVec F S4096x300 .f32) (clu : FVec F S8x300 .f32) : FVec F S4096x8 .f32 :=
  matmul dot_S4096x300_S8x300_S4096x8_1_1_0_0_n_n none ge clu (constant S4096x8 .f32 0x00000000#32)

/-- A value per row laid along that row's eight entries. -/
def col8 (v : FVec F S4096 .f32) : FVec F S4096x8 .f32 :=
  broadcastTo S4096x8 (shapeCast S4096x1 v shapeCasts_S4096_S4096x1) broadcasts_S4096x1_S4096x8

/-- exp of each score minus its row's largest score. -/
def expShift (l : FVec F S4096x8 .f32) : FVec F S4096x8 .f32 :=
  exp (subf l (col8 (multiReduction .maximumf [1] S4096 l 0xFF800000#32 reduces_S4096x8_S4096 (.inl rfl) rfl)))

/-- The softmax over each row's eight scores. -/
def soft (l : FVec F S4096x8 .f32) : FVec F S4096x8 .f32 :=
  divf (expShift l) (col8 (multiReduction .add [1] S4096 (expShift l) 0x00000000#32 reduces_S4096x8_S4096 (.inl rfl) rfl))

/-- The 96 expert outputs rep·W + b of each row. -/
def experts (rep : FVec F S4096x128 .f32) (ew : FVec F S128x96 .f32) (eb : FVec F S96 .f32) : FVec F S4096x96 .f32 :=
  addf (matmul dot_S4096x128_S128x96_S4096x96_1_0_0_1_n_n none rep ew (constant S4096x96 .f32 0x00000000#32))
    (broadcastTo S4096x96 (shapeCast S1x96 eb shapeCasts_S96_S1x96) broadcasts_S1x96_S4096x96)

/-- The weights spread over the 96 columns by the first 0/1 matrix, times the expert outputs, gathered into
    12 columns by the second 0/1 matrix. -/
def combine (q : FVec F S4096x8 .f32) (z : FVec F S4096x96 .f32) (rm : FVec F S8x96 .f32) (sm : FVec F S96x12 .f32) :
    FVec F S4096x12 .f32 :=
  matmul dot_S4096x96_S96x12_S4096x12_1_0_0_1_n_n none
    (mulf (matmul dot_S4096x8_S8x96_S4096x96_1_0_0_1_n_n none q (shapeCast S8x96 rm shapeCasts_S8x96_S8x96)
      (constant S4096x96 .f32 0x00000000#32)) z)
    (shapeCast S96x12 sm shapeCasts_S96x12_S96x12) (constant S4096x12 .f32 0x00000000#32)

/-- One group's whole chain. -/
def half (x rep : FVec F S4096x128 .f32) (w1 : FVec F S128x300 .f32) (b1 g bt : FVec F S300 .f32)
    (w2 : FVec F S300x300 .f32) (b2 : FVec F S300 .f32) (clu : FVec F S8x300 .f32) (ew : FVec F S128x96 .f32)
    (eb : FVec F S96 .f32) (rm : FVec F S8x96 .f32) (sm : FVec F S96x12 .f32) : FVec F S4096x12 .f32 :=
  combine (soft (scores (lin2 (pos (norm (lin1 x w1 b1) g bt)) w2 b2) clu)) (experts rep ew eb) rm sm

/-- Half the sum of the two groups' results. -/
def mean2 (a b : FVec F S4096x12 .f32) : FVec F S4096x12 .f32 :=
  mulf (broadcast S4096x12 (Scalar.ofBits .f32 0x3F000000#32)) (addf a b)

/-- The 8 × 96 matrix with a one where column ⌊·/12⌋ is the row, as the host operations build it. -/
def spread : FVec F S8x96 .f32 :=
  shapeCast S8x96
    (broadcastInDim S8x8x12 ![0, 1] bcast_S8x8_S8x8x12_0_1
      (uitofp (F := F) .f32 (cmpi .eq (addi (iotaInDim S8x8 32 0) (broadcastInDim S8x8 ![] bcast_S_S8x8 (constantI S_ 32 0#32)))
        (iotaInDim S8x8 32 1))))
    shapeCasts_S8x8x12_S8x96

/-- The 96 × 12 matrix with a one where the row, modulo 12, is the column, as the host operations build it. -/
def gather : FVec F S96x12 .f32 :=
  shapeCast S96x12
    (broadcastInDim S8x12x1x12 ![0, 1, 2, 3] bcast_S1x12x1x12_S8x12x1x12_0_1_2_3
      (shapeCast S1x12x1x12
        (uitofp (F := F) .f32 (cmpi .eq (addi (iotaInDim S12x12 32 0) (broadcastInDim S12x12 ![] bcast_S_S12x12 (constantI S_ 32 0#32)))
          (iotaInDim S12x12 32 1)))
        shapeCasts_S12x12_S1x12x1x12))
    shapeCasts_S8x12x1x12_S96x12

end Cert.KernelIdeal.Stage

/-! ## The reference's spelling -/

namespace Cert.ReferenceIdeal.Stage

open Cert.ReferenceIdeal Cert.ReferenceIdeal.Facts₀ Cert.ReferenceIdeal.Facts

variable {F : FTy → Type} [FloatOps F] [Facts]

/-- A 300-vector laid along every one of the 4096 rows. -/
def row300 (b : FVec F S300 .f32) : FVec F S4096x300 .f32 :=
  broadcastInDim S4096x300 ![0, 1] bcast_S1x300_S4096x300_0_1 (broadcastInDim S1x300 ![1] bcast_S300_S1x300_1 b)

/-- x·W + b for a 128-column input and 300 outputs. -/
def lin1 (x : FVec F S4096x128 .f32) (w : FVec F S128x300 .f32) (b : FVec F S300 .f32) : FVec F S4096x300 .f32 :=
  addf (Host.dotGeneral dot_S4096x128_S128x300_S4096x300_1_0_0_1_n_n none x w) (row300 b)

/-- The column means over the 4096 rows. -/
def colAvg (h : FVec F S4096x300 .f32) : FVec F S300 .f32 :=
  Host.divf (Host.reduceAdd h (constant S_ .f32 0x00000000#32) reducesTo_S4096x300_S300_d0 h_S_)
    (broadcastInDim S300 ![] bcast_S_S300 (constant S_ .f32 0x45800000#32))

/-- The column variances: the mean of the squares of the centred values, the divisor the count 4096 minus
    the zero degrees of freedom, guarded by a choice on that divisor being positive. -/
def colVar (h : FVec F S4096x300 .f32) : FVec F S300 .f32 :=
  select
    (broadcastInDim S300 ![] bcast_S_S300
      (cmpf (F := F) .ogt (subf (constant S_ .f32 0x45800000#32) (sitofp .f32 (constantI S_ 32 0#32))) (constant S_ .f32 0x00000000#32)))
    (Host.divf
      (Host.reduceAdd
        (mulf
          (subf h (broadcastInDim S4096x300 ![0, 1] bcast_S1x300_S4096x300_0_1
            (Host.divf (broadcastInDim S1x300 ![1] bcast_S300_S1x300_1
                (Host.reduceAdd h (constant S_ .f32 0x00000000#32) reducesTo_S4096x300_S300_d0 h_S_))
              (broadcastInDim S1x300 ![] bcast_S_S1x300 (constant S_ .f32 0x45800000#32)))))
          (subf h (broadcastInDim S4096x300 ![0, 1] bcast_S1x300_S4096x300_0_1
            (Host.divf (broadcastInDim S1x300 ![1] bcast_S300_S1x300_1
                (Host.reduceAdd h (constant S_ .f32 0x00000000#32) reducesTo_S4096x300_S300_d0 h_S_))
              (broadcastInDim S1x300 ![] bcast_S_S1x300 (constant S_ .f32 0x45800000#32))))))
        (constant S_ .f32 0x00000000#32) reducesTo_S4096x300_S300_d0 h_S_)
      (broadcastInDim S300 ![] bcast_S_S300
        (subf (constant S_ .f32 0x45800000#32) (sitofp .f32 (constantI S_ 32 0#32)))))
    (broadcastInDim S300 ![] bcast_S_S300 (id (constant S_ .f32 0x7FC00000#32)))

/-- The normalisation over the rows: (h − μ)/√(σ² + ε)·γ + β. -/
def norm (h : FVec F S4096x300 .f32) (g bt : FVec F S300 .f32) : FVec F S4096x300 .f32 :=
  addf
    (mulf
      (Host.divf (subf h (row300 (colAvg h)))
        (row300 (Host.sqrt (addf (colVar h) (broadcastInDim S300 ![] bcast_S_S300 (constant S_ .f32 0x3727C5AC#32))))))
      (row300 g))
    (row300 bt)

/-- The positive part. -/
def pos (h : FVec F S4096x300 .f32) : FVec F S4096x300 .f32 :=
  maximumf h (broadcastInDim S4096x300 ![] bcast_S_S4096x300 (constant S_ .f32 0x00000000#32))

/-- h·W + b for a 300-column input and 300 outputs. -/
def lin2 (h : FVec F S4096x300 .f32) (w : FVec F S300x300 .f32) (b : FVec F S300 .f32) : FVec F S4096x300 .f32 :=
  addf (Host.dotGeneral dot_S4096x300_S300x300_S4096x300_1_0_0_1_n_n none h w) (row300 b)

/-- The inner products of each row with the eight cluster rows (the cluster matrix transposed first), over
    the temperature one. -/
def scores (ge : FVec F S4096x300 .f32) (clu : FVec F S8x300 .f32) : FVec F S4096x8 .f32 :=
  Host.divf
    (Host.dotGeneral dot_S4096x300_S300x8_S4096x8_1_0_0_1_n_n none ge (transpose S300x8 [1, 0] clu transposes_S8x300_S300x8_1_0))
    (broadcastInDim S4096x8 ![] bcast_S_S4096x8 (constant S_ .f32 0x3F800000#32))

/-- A value per row laid along that row's eight entries. -/
def col8 (v : FVec F S4096 .f32) : FVec F S4096x8 .f32 :=
  broadcastInDim S4096x8 ![0, 1] bcast_S4096x1_S4096x8_0_1 (broadcastInDim S4096x1 ![0] bcast_S4096_S4096x1_0 v)

/-- exp of each score minus its row's largest score. -/
def expShift (l : FVec F S4096x8 .f32) : FVec F S4096x8 .f32 :=
  Host.exp (subf l (col8
    (maximumf (broadcastInDim S4096 ![] bcast_S_S4096 (constant S_ .f32 0xFF800000#32))
      (Host.reduce FloatOps.maximumf l (constant S_ .f32 0xFF800000#32) reducesTo_S4096x8_S4096_d1 h_S_))))

/-- The softmax over each row's eight scores. -/
def soft (l : FVec F S4096x8 .f32) : FVec F S4096x8 .f32 :=
  Host.divf (expShift l)
    (col8 (Host.reduceAdd (expShift l) (constant S_ .f32 0x00000000#32) reducesTo_S4096x8_S4096_d1 h_S_))

/-- The 96 expert outputs of each row: the products rep[b,k]·W[k,j] summed over k, plus b. -/
def experts (rep : FVec F S4096x128 .f32) (ew : FVec F S128x96 .f32) (eb : FVec F S96 .f32) : FVec F S4096x96 .f32 :=
  addf
    (Host.reduceAdd
      (mulf
        (broadcastInDim S4096x128x96 ![0, 1, 2] bcast_S4096x128x1_S4096x128x96_0_1_2
          (broadcastInDim S4096x128x1 ![0, 1] bcast_S4096x128_S4096x128x1_0_1 rep))
        (broadcastInDim S4096x128x96 ![0, 1, 2] bcast_S1x128x96_S4096x128x96_0_1_2
          (broadcastInDim S1x128x96 ![1, 2] bcast_S128x96_S1x128x96_1_2 ew)))
      (constant S_ .f32 0x00000000#32) reducesTo_S4096x128x96_S4096x96_d1 h_S_)
    (broadcastInDim S4096x96 ![0, 1] bcast_S1x96_S4096x96_0_1 (broadcastInDim S1x96 ![1] bcast_S96_S1x96_1 eb))

/-- The weighted sum over the eight experts: the outputs read as 8 × 12, each expert's twelve values times
    its weight, summed over the experts. -/
def combine (q : FVec F S4096x8 .f32) (z : FVec F S4096x96 .f32) : FVec F S4096x12 .f32 :=
  Host.reduceAdd
    (mulf
      (broadcastInDim S4096x8x12 ![0, 1, 2] bcast_S4096x8x1_S4096x8x12_0_1_2
        (broadcastInDim S4096x8x1 ![0, 1] bcast_S4096x8_S4096x8x1_0_1 q))
      (shapeCast S4096x8x12 z shapeCasts_S4096x96_S4096x8x12))
    (constant S_ .f32 0x00000000#32) reducesTo_S4096x8x12_S4096x12_d1 h_S_

/-- One group's whole chain. -/
def half (x rep : FVec F S4096x128 .f32) (w1 : FVec F S128x300 .f32) (b1 g bt : FVec F S300 .f32)
    (w2 : FVec F S300x300 .f32) (b2 : FVec F S300 .f32) (clu : FVec F S8x300 .f32) (ew : FVec F S128x96 .f32)
    (eb : FVec F S96 .f32) : FVec F S4096x12 .f32 :=
  combine (soft (scores (lin2 (pos (norm (lin1 x w1 b1) g bt)) w2 b2) clu)) (experts rep ew eb)

/-- Half the sum of the two groups' results. -/
def mean2 (a b : FVec F S4096x12 .f32) : FVec F S4096x12 .f32 :=
  mulf (broadcastInDim S4096x12 ![] bcast_S_S4096x12 (constant S_ .f32 0x3F000000#32)) (addf a b)

end Cert.ReferenceIdeal.Stage

end
-- ==== Proof.Rows.lean ====
/-
  The stages that differ only in how a vector is laid along rows or a constant is spread: the row
  broadcast of a 300-vector, the two linear layers (a matrix product into a zero accumulator is the host's
  product of the same operands over the same contraction), the positive part, and the final mean of two.
-/
import proofs.«150749_g69896297775690_cont_9to1c4b_828_3_alg».proof.Proof.Stages
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

variable [Cert.KernelIdeal.Facts] [Cert.ReferenceIdeal.Facts]

/-- The kernel's row broadcast of a 300-vector reads, at (p, c), the vector at c. -/
theorem k_row300_apply (b : FVec Ideal Cert.KernelIdeal.S300 .f32) (p : Fin 4096) (c : Fin 300) :
    Cert.KernelIdeal.Stage.row300 b (ix2 p c) = b (ix1 c) := by
  unfold Cert.KernelIdeal.Stage.row300
  rw [broadcastTo_1b_ab_apply, shapeCast_a_1a_apply]

/-- The reference's row broadcast of a 300-vector reads, at (p, c), the vector at c. -/
theorem r_row300_apply (b : FVec Ideal Cert.ReferenceIdeal.S300 .f32) (p : Fin 4096) (c : Fin 300) :
    Cert.ReferenceIdeal.Stage.row300 b (ix2 p c) = b (ix1 c) := by
  unfold Cert.ReferenceIdeal.Stage.row300
  rw [broadcastInDim_apply _ _ _ (ix2 p c) (ix2 (0 : Fin 1) c)
        (fun a => match a with | ⟨0, _⟩ => rfl | ⟨1, _⟩ => rfl),
      broadcastInDim_apply _ _ _ (ix2 (0 : Fin 1) c) (ix1 c) (fun a => match a with | ⟨0, _⟩ => rfl)]

/-- The two row broadcasts are one function. -/
theorem row300_eq (b : FVec Ideal Cert.KernelIdeal.S300 .f32) :
    Cert.KernelIdeal.Stage.row300 b = Cert.ReferenceIdeal.Stage.row300 b := by
  funext j
  obtain ⟨p, c, rfl⟩ : ∃ (p : Fin 4096) (c : Fin 300), j = ix2 p c := ⟨j 0, j 1, eq_ix2 j⟩
  rw [k_row300_apply, r_row300_apply]

/-- The first linear layer: the two spellings are one function. -/
theorem lin1_eq (x : FVec Ideal Cert.KernelIdeal.S4096x128 .f32) (w : FVec Ideal Cert.KernelIdeal.S128x300 .f32)
    (b : FVec Ideal Cert.KernelIdeal.S300 .f32) :
    Cert.KernelIdeal.Stage.lin1 x w b = Cert.ReferenceIdeal.Stage.lin1 x w b := by
  unfold Cert.KernelIdeal.Stage.lin1 Cert.ReferenceIdeal.Stage.lin1
  rw [row300_eq]
  refine congrArg (fun t => addf t _) ?_
  funext j
  exact (Ideal.matmul_constant_zero_apply _ none x w j).trans (Ideal.dotGeneral_apply _ none .single x w j).symm

/-- The second linear layer: the two spellings are one function. -/
theorem lin2_eq (h : FVec Ideal Cert.KernelIdeal.S4096x300 .f32) (w : FVec Ideal Cert.KernelIdeal.S300x300 .f32)
    (b : FVec Ideal Cert.KernelIdeal.S300 .f32) :
    Cert.KernelIdeal.Stage.lin2 h w b = Cert.ReferenceIdeal.Stage.lin2 h w b := by
  unfold Cert.KernelIdeal.Stage.lin2 Cert.ReferenceIdeal.Stage.lin2
  rw [row300_eq]
  refine congrArg (fun t => addf t _) ?_
  funext j
  exact (Ideal.matmul_constant_zero_apply _ none h w j).trans (Ideal.dotGeneral_apply _ none .single h w j).symm

/-- The positive part: a splat of zero is the zero constant spread over the shape. -/
theorem pos_eq (h : FVec Ideal Cert.KernelIdeal.S4096x300 .f32) :
    Cert.KernelIdeal.Stage.pos h = Cert.ReferenceIdeal.Stage.pos h := by
  unfold Cert.KernelIdeal.Stage.pos Cert.ReferenceIdeal.Stage.pos
  refine congrArg (fun t => maximumf h t) ?_
  funext j
  rw [broadcastInDim_apply _ _ _ j ix0 (fun a => a.elim0)]
  rfl

/-- The final mean of two: a splat of one half is the constant one half spread over the shape. -/
theorem mean2_eq (a b : FVec Ideal Cert.KernelIdeal.S4096x12 .f32) :
    Cert.KernelIdeal.Stage.mean2 a b = Cert.ReferenceIdeal.Stage.mean2 a b := by
  unfold Cert.KernelIdeal.Stage.mean2 Cert.ReferenceIdeal.Stage.mean2
  refine congrArg (fun t => mulf t (addf a b)) ?_
  funext j
  rw [broadcastInDim_apply _ _ _ j ix0 (fun a => a.elim0)]
  rfl

end Cert.Bridge

end
-- ==== Proof.Scalars.lean ====
/-
  Facts about single extended reals: the values of the float words the two programs spell, division by one,
  the maximum with −∞, the nonnegativity of a mean of squares, and the identity that joins the two
  spellings of the normalisation — for 0 < x (x = +∞ allowed), d / √x · g = d · (g · x^(−1/2)): at a positive
  real both sides are d·g·(√x)⁻¹ by commutativity and associativity alone, and at +∞ both are 0.
-/
import Idealize.ShloMosaic.PureOps.Ideal

noncomputable section

namespace Cert.Scalars

open Idealize.ShloMosaic

/-- The word of +0.0 is 0. -/
theorem ofBits_zero : Ideal.ofBits .f32 0x00000000#32 = 0 := by
  simp [Ideal.ofBits, Ideal.ieee]

/-- The word of 4096.0 is the real 4096. -/
theorem ofBits_4096 : Ideal.ofBits .f32 0x45800000#32 = ((4096 : ℝ) : EReal) := by
  simp [Ideal.ofBits, Ideal.ieee, -EReal.coe_mul]; norm_num

/-- The word of 1.0 is 1. -/
theorem ofBits_one : Ideal.ofBits .f32 0x3F800000#32 = 1 := by
  simp [Ideal.ofBits, Ideal.ieee, -EReal.coe_mul]; norm_num

/-- The word of 0.5 is the real 1/2. -/
theorem ofBits_half : Ideal.ofBits .f32 0x3F000000#32 = ((1 / 2 : ℝ) : EReal) := by
  simp [Ideal.ofBits, Ideal.ieee, -EReal.coe_mul]; norm_num

/-- The word of −∞ is ⊥. -/
theorem ofBits_negInf : Ideal.ofBits .f32 0xFF800000#32 = ⊥ := by
  simp [Ideal.ofBits, Ideal.ieee]

/-- The small constant added to the variance is a positive real. -/
theorem eps_pos : 0 < Ideal.ofBits .f32 0x3727C5AC#32 := by
  simp [Ideal.ofBits, Ideal.ieee, -EReal.coe_mul]

/-- The variance's divisor, the count 4096 less zero degrees of freedom, is the count. -/
theorem count_sub_zero :
    Ideal.ofBits .f32 0x45800000#32 - (((0#32 : BitVec 32).toInt : ℝ) : EReal) = Ideal.ofBits .f32 0x45800000#32 := by
  simp

/-- The count is above zero, so the guarded choice takes the quotient. -/
theorem count_pos_guard : Ideal.cmp .ogt (Ideal.ofBits .f32 0x45800000#32) (Ideal.ofBits .f32 0x00000000#32) = 1#1 := by
  rw [ofBits_4096, ofBits_zero]
  simp [Ideal.cmp]

/-- Division by one changes nothing. -/
theorem div_one (x : EReal) : Ideal.div x 1 = x := by
  have h : (1 : EReal) = ((1 : ℝ) : EReal) := rfl
  rw [h, Ideal.div_coe one_ne_zero, div_self one_ne_zero, EReal.coe_one, mul_one]

/-- A square is nonnegative, at the infinities too. -/
theorem mul_self_nonneg (y : EReal) : 0 ≤ y * y := by
  induction y using EReal.rec with
  | bot => simp
  | top => simp
  | coe r => rw [← EReal.coe_mul]; exact_mod_cast _root_.mul_self_nonneg r

/-- A nonnegative value divided by 4096 is nonnegative. -/
theorem div_4096_nonneg {s : EReal} (hs : 0 ≤ s) : 0 ≤ Ideal.div s ((4096 : ℝ) : EReal) := by
  rw [Ideal.div_coe (by norm_num)]
  exact mul_nonneg hs (by exact_mod_cast (by norm_num : (0 : ℝ) ≤ 1 / 4096))

/-- A mean of squares plus the small constant is positive. -/
theorem var_eps_pos {n : ℕ} (f : Fin n → EReal) :
    0 < Ideal.div (∑ r, f r * f r) ((4096 : ℝ) : EReal) + Ideal.ofBits .f32 0x3727C5AC#32 :=
  lt_of_lt_of_le eps_pos (le_add_of_nonneg_left (div_4096_nonneg (Finset.sum_nonneg fun r _ => mul_self_nonneg (f r))))

/-- The two spellings of the normalisation's scale agree wherever the variance term is positive. -/
theorem div_sqrt_mul (x d g : EReal) (hx : 0 < x) :
    Ideal.div d (Ideal.sqrt x) * g = d * (g * Ideal.rsqrt x) := by
  induction x using EReal.rec with
  | bot => exact absurd hx (not_lt.mpr bot_le)
  | top =>
    rw [Ideal.sqrt_top, Ideal.rsqrt_top, Ideal.div, if_neg EReal.top_ne_zero, EReal.inv_top, mul_zero, zero_mul, mul_zero,
      mul_zero]
  | coe r =>
    have hr : 0 < r := by exact_mod_cast hx
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_div, mul_assoc, mul_comm _ g]

end Cert.Scalars

end
-- ==== Proof.Norm.lean ====
/-
  The normalisation over the 4096 rows. For a column c write μ for the mean of the column and σ² for the
  mean of the squares of the entries less μ. The kernel's stage is (h − μ)·(γ·(σ² + ε)^(−1/2)) + β and the
  reference's is (h − μ)/√(σ² + ε)·γ + β, its σ² computed by a variance function whose divisor is the count less zero
  degrees of freedom, under a choice that the divisor is positive. σ² + ε is positive whatever the entries are
  (a square is nonnegative on the extended reals and ε > 0), so the two agree.
-/
import proofs.«150749_g69896297775690_cont_9to1c4b_828_3_alg».proof.Proof.Stages
import proofs.«150749_g69896297775690_cont_9to1c4b_828_3_alg».proof.Proof.Rows
import proofs.«150749_g69896297775690_cont_9to1c4b_828_3_alg».proof.Proof.Scalars
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

variable [Cert.KernelIdeal.Facts] [Cert.ReferenceIdeal.Facts]

/-- The mean of column c over the 4096 rows. -/
def colMean (y : FVec Ideal Cert.KernelIdeal.S4096x300 .f32) (c : Fin 300) : EReal :=
  Ideal.div (∑ r : Fin 4096, y (ix2 r c)) (Ideal.ofBits .f32 0x45800000#32)

/-- The variance of column c: the mean of the squares of the entries less the column's mean. -/
def colVariance (h : FVec Ideal Cert.KernelIdeal.S4096x300 .f32) (c : Fin 300) : EReal :=
  Ideal.div (∑ r : Fin 4096, (h (ix2 r c) - colMean h c) * (h (ix2 r c) - colMean h c)) (Ideal.ofBits .f32 0x45800000#32)

/-- The variance term under the root is positive. -/
theorem colVariance_eps_pos (h : FVec Ideal Cert.KernelIdeal.S4096x300 .f32) (c : Fin 300) :
    0 < colVariance h c + Ideal.ofBits .f32 0x3727C5AC#32 := by
  unfold colVariance
  rw [Scalars.ofBits_4096]
  exact Scalars.var_eps_pos fun r => h (ix2 r c) - colMean h c

/-! ## The kernel's spelling read at an index -/

/-- Inserting row r into the column index c gives (r, c). -/
theorem k_lift (hr : Cert.KernelIdeal.S4096x300.Reduces [0] Cert.KernelIdeal.S300) (c : Fin 300) (r : Fin 4096) :
    hr.lift (ix1 c) r = ix2 r c :=
  funext fun a => Fin.ext (match a with | ⟨0, _⟩ => rfl | ⟨1, _⟩ => rfl)

theorem k_colAvg_apply (y : FVec Ideal Cert.KernelIdeal.S4096x300 .f32) (u : Fin 1) (c : Fin 300) :
    Cert.KernelIdeal.Stage.colAvg y (ix2 u c) = colMean y c := by
  unfold Cert.KernelIdeal.Stage.colAvg colMean
  rw [divf_apply, shapeCast_a_1a_apply]
  refine congrArg₂ Ideal.div ?_ rfl
  refine (Ideal.multiReduction_add_single y 0x00000000#32 Cert.KernelIdeal.Facts₀.reduces_S4096x300_S300 (.inl rfl) rfl
    (ix1 c)).trans ?_
  exact Finset.sum_congr rfl fun r _ => congrArg y (k_lift _ c r)

theorem k_centred_apply (h : FVec Ideal Cert.KernelIdeal.S4096x300 .f32) (p : Fin 4096) (c : Fin 300) :
    Cert.KernelIdeal.Stage.centred h (ix2 p c) = h (ix2 p c) - colMean h c := by
  unfold Cert.KernelIdeal.Stage.centred
  rw [subf_apply, broadcastTo_1b_ab_apply, k_colAvg_apply]

theorem k_var_apply (h : FVec Ideal Cert.KernelIdeal.S4096x300 .f32) (u : Fin 1) (c : Fin 300) :
    Cert.KernelIdeal.Stage.colAvg (mulf (Cert.KernelIdeal.Stage.centred h) (Cert.KernelIdeal.Stage.centred h)) (ix2 u c)
      = colVariance h c := by
  rw [k_colAvg_apply]
  unfold colMean colVariance
  refine congrArg₂ Ideal.div (Finset.sum_congr rfl fun r _ => ?_) rfl
  rw [mulf_apply, k_centred_apply]

theorem k_norm_apply (h : FVec Ideal Cert.KernelIdeal.S4096x300 .f32) (g bt : FVec Ideal Cert.KernelIdeal.S300 .f32)
    (p : Fin 4096) (c : Fin 300) :
    Cert.KernelIdeal.Stage.norm h g bt (ix2 p c)
      = (h (ix2 p c) - colMean h c) * (g (ix1 c) * Ideal.rsqrt (colVariance h c + Ideal.ofBits .f32 0x3727C5AC#32))
        + bt (ix1 c) := by
  unfold Cert.KernelIdeal.Stage.norm
  rw [addf_apply, mulf_apply, k_centred_apply, broadcastTo_1b_ab_apply, mulf_apply, shapeCast_a_1a_apply, k_row300_apply]
  show _ * (_ * Ideal.rsqrt (Cert.KernelIdeal.Stage.colAvg (F := Ideal) _ (ix2 (0 : Fin 1) c) + Ideal.ofBits .f32 0x3727C5AC#32)) + _ = _
  rw [k_var_apply]

/-! ## The reference's spelling read at an index -/

/-- The host's quotient and square root act entry by entry. -/
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

theorem r_lift (hr : Cert.ReferenceIdeal.S4096x300.Reduces [0] Cert.ReferenceIdeal.S300) (c : Fin 300) (r : Fin 4096) :
    hr.lift (ix1 c) r = ix2 r c :=
  funext fun a => Fin.ext (match a with | ⟨0, _⟩ => rfl | ⟨1, _⟩ => rfl)

/-- The host's column sum from zero is the sum over the rows. -/
theorem r_sum_apply (y : FVec Ideal Cert.ReferenceIdeal.S4096x300 .f32) (c : Fin 300) :
    Host.reduceAdd y (constant (F := Ideal) Cert.ReferenceIdeal.S_ .f32 0x00000000#32)
        Cert.ReferenceIdeal.Facts₀.reducesTo_S4096x300_S300_d0 Cert.ReferenceIdeal.Facts₀.h_S_ (ix1 c)
      = ∑ r : Fin 4096, y (ix2 r c) := by
  refine (Ideal.hostReduceAdd_single Cert.ReferenceIdeal.Facts₀.reducesTo_S4096x300_S300_d0
    (by decide : Cert.ReferenceIdeal.S4096x300.Reduces [0] Cert.ReferenceIdeal.S300) y _ (ix1 c)).trans ?_
  rw [constant_apply, Scalars.ofBits_zero, zero_add]
  exact Finset.sum_congr rfl fun r _ => congrArg y (r_lift _ c r)

theorem r_colAvg_apply (y : FVec Ideal Cert.ReferenceIdeal.S4096x300 .f32) (c : Fin 300) :
    Cert.ReferenceIdeal.Stage.colAvg y (ix1 c) = colMean y c := by
  unfold Cert.ReferenceIdeal.Stage.colAvg colMean
  show Ideal.div (Host.reduceAdd y _ _ _ (ix1 c)) (Ideal.ofBits .f32 0x45800000#32) = _
  rw [r_sum_apply]

/-- The variance function's own centred values: the entry less the column's mean. -/
theorem r_dev_apply (h : FVec Ideal Cert.ReferenceIdeal.S4096x300 .f32) (r : Fin 4096) (c : Fin 300) :
    subf h (broadcastInDim Cert.ReferenceIdeal.S4096x300 ![0, 1] Cert.ReferenceIdeal.Facts₀.bcast_S1x300_S4096x300_0_1
        (Host.divf (broadcastInDim Cert.ReferenceIdeal.S1x300 ![1] Cert.ReferenceIdeal.Facts₀.bcast_S300_S1x300_1
            (Host.reduceAdd h (constant (F := Ideal) Cert.ReferenceIdeal.S_ .f32 0x00000000#32)
              Cert.ReferenceIdeal.Facts₀.reducesTo_S4096x300_S300_d0 Cert.ReferenceIdeal.Facts₀.h_S_))
          (broadcastInDim Cert.ReferenceIdeal.S1x300 ![] Cert.ReferenceIdeal.Facts₀.bcast_S_S1x300
            (constant (F := Ideal) Cert.ReferenceIdeal.S_ .f32 0x45800000#32)))) (ix2 r c)
      = h (ix2 r c) - colMean h c := by
  rw [subf_apply, broadcastInDim_apply _ _ _ (ix2 r c) (ix2 (0 : Fin 1) c)
    (fun a => match a with | ⟨0, _⟩ => rfl | ⟨1, _⟩ => rfl), hostDivf_apply,
    broadcastInDim_apply _ _ _ (ix2 (0 : Fin 1) c) (ix1 c) (fun a => match a with | ⟨0, _⟩ => rfl), r_sum_apply]
  rfl

theorem r_colVar_apply (h : FVec Ideal Cert.ReferenceIdeal.S4096x300 .f32) (c : Fin 300) :
    Cert.ReferenceIdeal.Stage.colVar h (ix1 c) = colVariance h c := by
  unfold Cert.ReferenceIdeal.Stage.colVar
  rw [select_apply]
  show Scalar.select
      (Ideal.cmp .ogt (Ideal.ofBits .f32 0x45800000#32 - (((0#32 : BitVec 32).toInt : ℝ) : EReal)) (Ideal.ofBits .f32 0x00000000#32))
      (Ideal.div (Host.reduceAdd (F := Ideal) _ _ _ _ (ix1 c))
        (Ideal.ofBits .f32 0x45800000#32 - (((0#32 : BitVec 32).toInt : ℝ) : EReal))) _ = _
  rw [Scalars.count_sub_zero, Scalars.count_pos_guard, select_one, r_sum_apply]
  unfold colVariance
  refine congrArg₂ Ideal.div (Finset.sum_congr rfl fun r _ => ?_) rfl
  rw [mulf_apply, r_dev_apply]

theorem r_norm_apply (h : FVec Ideal Cert.ReferenceIdeal.S4096x300 .f32) (g bt : FVec Ideal Cert.ReferenceIdeal.S300 .f32)
    (p : Fin 4096) (c : Fin 300) :
    Cert.ReferenceIdeal.Stage.norm h g bt (ix2 p c)
      = Ideal.div (h (ix2 p c) - colMean h c) (Ideal.sqrt (colVariance h c + Ideal.ofBits .f32 0x3727C5AC#32)) * g (ix1 c)
        + bt (ix1 c) := by
  unfold Cert.ReferenceIdeal.Stage.norm
  rw [addf_apply, mulf_apply, hostDivf_apply, subf_apply, r_row300_apply, r_row300_apply, r_row300_apply, r_row300_apply,
    r_colAvg_apply, hostSqrt_apply, addf_apply, r_colVar_apply]
  rfl

/-! ## The two spellings are one function -/

theorem norm_eq (h : FVec Ideal Cert.KernelIdeal.S4096x300 .f32) (g bt : FVec Ideal Cert.KernelIdeal.S300 .f32) :
    Cert.KernelIdeal.Stage.norm h g bt = Cert.ReferenceIdeal.Stage.norm h g bt := by
  funext j
  obtain ⟨p, c, rfl⟩ : ∃ (p : Fin 4096) (c : Fin 300), j = ix2 p c := ⟨j 0, j 1, eq_ix2 j⟩
  rw [k_norm_apply, r_norm_apply, Scalars.div_sqrt_mul _ _ _ (colVariance_eps_pos h c)]

end Cert.Bridge

end
-- ==== Proof.Scores.lean ====
/-
  The eight scores of a row: its inner products with the eight cluster rows. The kernel contracts the 300
  columns of both operands directly; the reference transposes the cluster matrix and contracts its rows, then
  divides by the temperature one. Both are ∑ₖ ge(p,k)·clu(e,k).
-/
import proofs.«150749_g69896297775690_cont_9to1c4b_828_3_alg».proof.Proof.Stages
import proofs.«150749_g69896297775690_cont_9to1c4b_828_3_alg».proof.Proof.Scalars
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

variable [Cert.KernelIdeal.Facts] [Cert.ReferenceIdeal.Facts]

/-! ## The kernel's contraction: the operands' indices at output (p, e) and contraction index q -/

theorem k_sc_lhs0 (i : Cert.KernelIdeal.S4096x8.Idx) (q : Cert.KernelIdeal.dot_S4096x300_S8x300_S4096x8_1_1_0_0_n_n.contr.Idx) :
    (Cert.KernelIdeal.dot_S4096x300_S8x300_S4096x8_1_1_0_0_n_n.lhsIdx i q 0).val = (i 0).val := by
  unfold DotDims.lhsIdx
  rw [dif_neg (show ¬(0 : Fin Cert.KernelIdeal.S4096x300.rank) ∈ Cert.KernelIdeal.dot_S4096x300_S8x300_S4096x8_1_1_0_0_n_n.lhsBatch from fun h => by cases h),
    dif_pos (show (0 : Fin Cert.KernelIdeal.S4096x300.rank) ∈ Cert.KernelIdeal.dot_S4096x300_S8x300_S4096x8_1_1_0_0_n_n.lhsNonContracting from List.Mem.head _)]
  rfl

theorem k_sc_lhs1 (i : Cert.KernelIdeal.S4096x8.Idx) (q : Cert.KernelIdeal.dot_S4096x300_S8x300_S4096x8_1_1_0_0_n_n.contr.Idx) :
    (Cert.KernelIdeal.dot_S4096x300_S8x300_S4096x8_1_1_0_0_n_n.lhsIdx i q 1).val = (q ⟨0, Nat.one_pos⟩).val :=
  Cert.KernelIdeal.dot_S4096x300_S8x300_S4096x8_1_1_0_0_n_n.lhsIdx_val_of_single rfl i q

theorem k_sc_rhs0 (i : Cert.KernelIdeal.S4096x8.Idx) (q : Cert.KernelIdeal.dot_S4096x300_S8x300_S4096x8_1_1_0_0_n_n.contr.Idx) :
    (Cert.KernelIdeal.dot_S4096x300_S8x300_S4096x8_1_1_0_0_n_n.rhsIdx i q 0).val = (i 1).val := by
  unfold DotDims.rhsIdx
  rw [dif_neg (show ¬(0 : Fin Cert.KernelIdeal.S8x300.rank) ∈ Cert.KernelIdeal.dot_S4096x300_S8x300_S4096x8_1_1_0_0_n_n.rhsBatch from fun h => by cases h),
    dif_pos (show (0 : Fin Cert.KernelIdeal.S8x300.rank) ∈ Cert.KernelIdeal.dot_S4096x300_S8x300_S4096x8_1_1_0_0_n_n.rhsNonContracting from List.Mem.head _)]
  rfl

theorem k_sc_rhs1 (i : Cert.KernelIdeal.S4096x8.Idx) (q : Cert.KernelIdeal.dot_S4096x300_S8x300_S4096x8_1_1_0_0_n_n.contr.Idx) :
    (Cert.KernelIdeal.dot_S4096x300_S8x300_S4096x8_1_1_0_0_n_n.rhsIdx i q 1).val = (q ⟨0, Nat.one_pos⟩).val :=
  Cert.KernelIdeal.dot_S4096x300_S8x300_S4096x8_1_1_0_0_n_n.rhsIdx_val_of_single rfl i q

/-- The kernel's score of row p against cluster row e. -/
theorem k_scores_apply (ge : FVec Ideal Cert.KernelIdeal.S4096x300 .f32) (clu : FVec Ideal Cert.KernelIdeal.S8x300 .f32)
    (p : Fin 4096) (e : Fin 8) :
    Cert.KernelIdeal.Stage.scores ge clu (ix2 p e) = ∑ k : Fin 300, ge (ix2 p k) * clu (ix2 e k) := by
  unfold Cert.KernelIdeal.Stage.scores
  refine (Ideal.matmul_constant_zero_apply _ none ge clu (ix2 p e)).trans ?_
  rw [← Equiv.sum_comp (contrEquiv1 Cert.KernelIdeal.dot_S4096x300_S8x300_S4096x8_1_1_0_0_n_n 300 rfl rfl).symm]
  refine Finset.sum_congr rfl fun k _ => ?_
  have hk := contrEquiv1_symm_val Cert.KernelIdeal.dot_S4096x300_S8x300_S4096x8_1_1_0_0_n_n 300 rfl rfl k
  have el : Cert.KernelIdeal.dot_S4096x300_S8x300_S4096x8_1_1_0_0_n_n.lhsIdx (ix2 p e) ((contrEquiv1 Cert.KernelIdeal.dot_S4096x300_S8x300_S4096x8_1_1_0_0_n_n 300 rfl rfl).symm k) = ix2 p k :=
    funext fun a => Fin.ext (by
      match a with
      | ⟨0, _⟩ => exact k_sc_lhs0 _ _
      | ⟨1, _⟩ => exact (k_sc_lhs1 _ _).trans hk)
  have er : Cert.KernelIdeal.dot_S4096x300_S8x300_S4096x8_1_1_0_0_n_n.rhsIdx (ix2 p e) ((contrEquiv1 Cert.KernelIdeal.dot_S4096x300_S8x300_S4096x8_1_1_0_0_n_n 300 rfl rfl).symm k) = ix2 e k :=
    funext fun a => Fin.ext (by
      match a with
      | ⟨0, _⟩ => exact k_sc_rhs0 _ _
      | ⟨1, _⟩ => exact (k_sc_rhs1 _ _).trans hk)
  rw [el, er]

/-! ## The reference's contraction -/

theorem r_sc_lhs0 (i : Cert.ReferenceIdeal.S4096x8.Idx) (q : Cert.ReferenceIdeal.dot_S4096x300_S300x8_S4096x8_1_0_0_1_n_n.contr.Idx) :
    (Cert.ReferenceIdeal.dot_S4096x300_S300x8_S4096x8_1_0_0_1_n_n.lhsIdx i q 0).val = (i 0).val := by
  unfold DotDims.lhsIdx
  rw [dif_neg (show ¬(0 : Fin Cert.ReferenceIdeal.S4096x300.rank) ∈ Cert.ReferenceIdeal.dot_S4096x300_S300x8_S4096x8_1_0_0_1_n_n.lhsBatch from fun h => by cases h),
    dif_pos (show (0 : Fin Cert.ReferenceIdeal.S4096x300.rank) ∈ Cert.ReferenceIdeal.dot_S4096x300_S300x8_S4096x8_1_0_0_1_n_n.lhsNonContracting from List.Mem.head _)]
  rfl

theorem r_sc_lhs1 (i : Cert.ReferenceIdeal.S4096x8.Idx) (q : Cert.ReferenceIdeal.dot_S4096x300_S300x8_S4096x8_1_0_0_1_n_n.contr.Idx) :
    (Cert.ReferenceIdeal.dot_S4096x300_S300x8_S4096x8_1_0_0_1_n_n.lhsIdx i q 1).val = (q ⟨0, Nat.one_pos⟩).val :=
  Cert.ReferenceIdeal.dot_S4096x300_S300x8_S4096x8_1_0_0_1_n_n.lhsIdx_val_of_single rfl i q

theorem r_sc_rhs0 (i : Cert.ReferenceIdeal.S4096x8.Idx) (q : Cert.ReferenceIdeal.dot_S4096x300_S300x8_S4096x8_1_0_0_1_n_n.contr.Idx) :
    (Cert.ReferenceIdeal.dot_S4096x300_S300x8_S4096x8_1_0_0_1_n_n.rhsIdx i q 0).val = (q ⟨0, Nat.one_pos⟩).val :=
  Cert.ReferenceIdeal.dot_S4096x300_S300x8_S4096x8_1_0_0_1_n_n.rhsIdx_val_of_single rfl i q

theorem r_sc_rhs1 (i : Cert.ReferenceIdeal.S4096x8.Idx) (q : Cert.ReferenceIdeal.dot_S4096x300_S300x8_S4096x8_1_0_0_1_n_n.contr.Idx) :
    (Cert.ReferenceIdeal.dot_S4096x300_S300x8_S4096x8_1_0_0_1_n_n.rhsIdx i q 1).val = (i 1).val := by
  unfold DotDims.rhsIdx
  rw [dif_neg (show ¬(1 : Fin Cert.ReferenceIdeal.S300x8.rank) ∈ Cert.ReferenceIdeal.dot_S4096x300_S300x8_S4096x8_1_0_0_1_n_n.rhsBatch from fun h => by cases h),
    dif_pos (show (1 : Fin Cert.ReferenceIdeal.S300x8.rank) ∈ Cert.ReferenceIdeal.dot_S4096x300_S300x8_S4096x8_1_0_0_1_n_n.rhsNonContracting from List.Mem.head _)]
  rfl

/-- The reference's score of row p against cluster row e. -/
theorem r_scores_apply (ge : FVec Ideal Cert.ReferenceIdeal.S4096x300 .f32) (clu : FVec Ideal Cert.ReferenceIdeal.S8x300 .f32)
    (p : Fin 4096) (e : Fin 8) :
    Cert.ReferenceIdeal.Stage.scores ge clu (ix2 p e) = ∑ k : Fin 300, ge (ix2 p k) * clu (ix2 e k) := by
  unfold Cert.ReferenceIdeal.Stage.scores
  show Ideal.div (Host.dotGeneral Cert.ReferenceIdeal.dot_S4096x300_S300x8_S4096x8_1_0_0_1_n_n none ge _ (ix2 p e)) (Ideal.ofBits .f32 0x3F800000#32) = _
  rw [Scalars.ofBits_one, Scalars.div_one]
  refine (Ideal.dotGeneral_apply Cert.ReferenceIdeal.dot_S4096x300_S300x8_S4096x8_1_0_0_1_n_n none .single ge _ (ix2 p e)).trans ?_
  rw [← Equiv.sum_comp (contrEquiv1 Cert.ReferenceIdeal.dot_S4096x300_S300x8_S4096x8_1_0_0_1_n_n 300 rfl rfl).symm]
  refine Finset.sum_congr rfl fun k _ => ?_
  have hk := contrEquiv1_symm_val Cert.ReferenceIdeal.dot_S4096x300_S300x8_S4096x8_1_0_0_1_n_n 300 rfl rfl k
  have el : Cert.ReferenceIdeal.dot_S4096x300_S300x8_S4096x8_1_0_0_1_n_n.lhsIdx (ix2 p e) ((contrEquiv1 Cert.ReferenceIdeal.dot_S4096x300_S300x8_S4096x8_1_0_0_1_n_n 300 rfl rfl).symm k) = ix2 p k :=
    funext fun a => Fin.ext (by
      match a with
      | ⟨0, _⟩ => exact r_sc_lhs0 _ _
      | ⟨1, _⟩ => exact (r_sc_lhs1 _ _).trans hk)
  have er : Cert.ReferenceIdeal.dot_S4096x300_S300x8_S4096x8_1_0_0_1_n_n.rhsIdx (ix2 p e) ((contrEquiv1 Cert.ReferenceIdeal.dot_S4096x300_S300x8_S4096x8_1_0_0_1_n_n 300 rfl rfl).symm k) = ix2 k e :=
    funext fun a => Fin.ext (by
      match a with
      | ⟨0, _⟩ => exact (r_sc_rhs0 _ _).trans hk
      | ⟨1, _⟩ => exact r_sc_rhs1 _ _)
  rw [el, er, transpose_ix2_apply]

/-- The two spellings of the scores are one function. -/
theorem scores_eq (ge : FVec Ideal Cert.KernelIdeal.S4096x300 .f32) (clu : FVec Ideal Cert.KernelIdeal.S8x300 .f32) :
    Cert.KernelIdeal.Stage.scores ge clu = Cert.ReferenceIdeal.Stage.scores ge clu := by
  funext j
  obtain ⟨p, e, rfl⟩ : ∃ (p : Fin 4096) (e : Fin 8), j = ix2 p e := ⟨j 0, j 1, eq_ix2 j⟩
  rw [k_scores_apply, r_scores_apply]

end Cert.Bridge

end
-- ==== Proof.Soft.lean ====
/-
  The softmax over a row's eight scores: exp of each score less the row's maximum, divided by the sum of those
  eight exponentials. The kernel takes the maximum and the sum by lane reductions and lays each along the row by
  a cast and a broadcast; the reference takes them by host reductions (its maximum once more against −∞) and two
  broadcasts. The maximum of eight extended reals from −∞ is a fold of max either way, and the sum a sum.
-/
import proofs.«150749_g69896297775690_cont_9to1c4b_828_3_alg».proof.Proof.Stages
import proofs.«150749_g69896297775690_cont_9to1c4b_828_3_alg».proof.Proof.Scalars
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

variable [Cert.KernelIdeal.Facts] [Cert.ReferenceIdeal.Facts]

/-- The largest of row p's eight values, from −∞. -/
def rowMax (l : FVec Ideal Cert.KernelIdeal.S4096x8 .f32) (p : Fin 4096) : EReal :=
  (Finset.univ : Finset (Fin 8)).fold max (Ideal.ofBits .f32 0xFF800000#32) (fun e => l (ix2 p e))

/-! ## A value per row laid along the row -/

theorem k_col8_apply (v : FVec Ideal Cert.KernelIdeal.S4096 .f32) (p : Fin 4096) (e : Fin 8) :
    Cert.KernelIdeal.Stage.col8 v (ix2 p e) = v (ix1 p) := by
  unfold Cert.KernelIdeal.Stage.col8
  rw [broadcastTo_apply _ _ (ix2 p e) (ix2 p (0 : Fin 1)) (fun a => match a with | ⟨0, _⟩ => rfl | ⟨1, _⟩ => rfl)]
  exact shapeCast_apply v _ (ix2 p (0 : Fin 1)) (ix1 p) (by
    rw [Shape.rowMajor_val_two, Shape.rowMajor_val_one]
    show p.val = p.val * 1 + 0
    omega)

theorem r_col8_apply (v : FVec Ideal Cert.ReferenceIdeal.S4096 .f32) (p : Fin 4096) (e : Fin 8) :
    Cert.ReferenceIdeal.Stage.col8 v (ix2 p e) = v (ix1 p) := by
  unfold Cert.ReferenceIdeal.Stage.col8
  rw [broadcastInDim_apply _ _ _ (ix2 p e) (ix2 p (0 : Fin 1)) (fun a => match a with | ⟨0, _⟩ => rfl | ⟨1, _⟩ => rfl),
    broadcastInDim_apply _ _ _ (ix2 p (0 : Fin 1)) (ix1 p) (fun a => match a with | ⟨0, _⟩ => rfl)]

/-! ## Inserting a lane into a row index -/

theorem k_lift8 (hr : Cert.KernelIdeal.S4096x8.Reduces [1] Cert.KernelIdeal.S4096) (p : Fin 4096) (e : Fin 8) :
    hr.lift (ix1 p) e = ix2 p e :=
  funext fun a => Fin.ext (match a with | ⟨0, _⟩ => rfl | ⟨1, _⟩ => rfl)

theorem r_lift8 (hr : Cert.ReferenceIdeal.S4096x8.Reduces [1] Cert.ReferenceIdeal.S4096) (p : Fin 4096) (e : Fin 8) :
    hr.lift (ix1 p) e = ix2 p e :=
  funext fun a => Fin.ext (match a with | ⟨0, _⟩ => rfl | ⟨1, _⟩ => rfl)

/-! ## The row maximum -/

theorem k_max_apply (l : FVec Ideal Cert.KernelIdeal.S4096x8 .f32) (p : Fin 4096)
    (hr : Cert.KernelIdeal.S4096x8.Reduces [1] Cert.KernelIdeal.S4096)
    (hacc : (0xFF800000#32 : BitVec 32) = 0xFF800000#32) :
    multiReduction .maximumf [1] Cert.KernelIdeal.S4096 l 0xFF800000#32 hr (.inl rfl) hacc (ix1 p) = rowMax l p := by
  refine (Ideal.multiReduction_maximumf_single l 0xFF800000#32 hr (.inl rfl) hacc (ix1 p)).trans ?_
  unfold rowMax
  exact congrArg (fun f => Finset.fold max (Ideal.ofBits .f32 0xFF800000#32) f (Finset.univ : Finset (Fin 8)))
    (funext fun e => congrArg l (k_lift8 hr p e))

theorem r_max_apply (l : FVec Ideal Cert.ReferenceIdeal.S4096x8 .f32) (p : Fin 4096)
    (h' : Cert.ReferenceIdeal.S4096x8.ReducesTo [1] Cert.ReferenceIdeal.S4096)
    (hr : Cert.ReferenceIdeal.S4096x8.Reduces [1] Cert.ReferenceIdeal.S4096) (hu : 0 < Cert.ReferenceIdeal.S_.numel) :
    Host.reduce FloatOps.maximumf l (constant (F := Ideal) Cert.ReferenceIdeal.S_ .f32 0xFF800000#32) h' hu (ix1 p)
      = rowMax l p := by
  rw [Host.reduce_eq_fold_single FloatOps.maximumf l _ h' hr hu]
  unfold rowMax
  exact congrArg (fun f => Finset.fold max (Ideal.ofBits .f32 0xFF800000#32) f (Finset.univ : Finset (Fin 8)))
    (funext fun e => congrArg l (r_lift8 hr p e))

/-! ## exp of the score less the row maximum -/

private theorem exp_apply8 {s : Shape} (a : FVec Ideal s .f32) (i : s.Idx) : exp a i = Ideal.exp (a i) := rfl
private theorem hostExp_apply8 {s : Shape} (a : FVec Ideal s .f32) (i : s.Idx) : Host.exp a i = Ideal.exp (a i) := rfl

theorem k_expShift_apply (l : FVec Ideal Cert.KernelIdeal.S4096x8 .f32) (p : Fin 4096) (e : Fin 8) :
    Cert.KernelIdeal.Stage.expShift l (ix2 p e) = Ideal.exp (l (ix2 p e) - rowMax l p) := by
  unfold Cert.KernelIdeal.Stage.expShift
  rw [exp_apply8, subf_apply, k_col8_apply, k_max_apply]

theorem r_expShift_apply (l : FVec Ideal Cert.ReferenceIdeal.S4096x8 .f32) (p : Fin 4096) (e : Fin 8) :
    Cert.ReferenceIdeal.Stage.expShift l (ix2 p e) = Ideal.exp (l (ix2 p e) - rowMax l p) := by
  unfold Cert.ReferenceIdeal.Stage.expShift
  rw [hostExp_apply8, subf_apply, r_col8_apply, maximumf_apply, r_max_apply l p _ (by decide) _,
    broadcastInDim_apply _ _ _ (ix1 p) ix0 (fun a => a.elim0), constant_apply, Scalars.ofBits_negInf, max_bot_left]

theorem expShift_eq (l : FVec Ideal Cert.KernelIdeal.S4096x8 .f32) :
    Cert.KernelIdeal.Stage.expShift l = Cert.ReferenceIdeal.Stage.expShift l := by
  funext j
  obtain ⟨p, e, rfl⟩ : ∃ (p : Fin 4096) (e : Fin 8), j = ix2 p e := ⟨j 0, j 1, eq_ix2 j⟩
  rw [k_expShift_apply, r_expShift_apply]

/-! ## The row sums and the quotient -/

theorem k_rowSum_apply (x : FVec Ideal Cert.KernelIdeal.S4096x8 .f32) (p : Fin 4096) :
    multiReduction .add [1] Cert.KernelIdeal.S4096 x 0x00000000#32 Cert.KernelIdeal.Facts₀.reduces_S4096x8_S4096
        (.inl rfl) rfl (ix1 p) = ∑ e : Fin 8, x (ix2 p e) := by
  refine (Ideal.multiReduction_add_single x 0x00000000#32 Cert.KernelIdeal.Facts₀.reduces_S4096x8_S4096 (.inl rfl) rfl
    (ix1 p)).trans ?_
  exact Finset.sum_congr rfl fun e _ => congrArg x (k_lift8 _ p e)

theorem r_rowSum_apply (x : FVec Ideal Cert.ReferenceIdeal.S4096x8 .f32) (p : Fin 4096) :
    Host.reduceAdd x (constant (F := Ideal) Cert.ReferenceIdeal.S_ .f32 0x00000000#32)
        Cert.ReferenceIdeal.Facts₀.reducesTo_S4096x8_S4096_d1 Cert.ReferenceIdeal.Facts₀.h_S_ (ix1 p)
      = ∑ e : Fin 8, x (ix2 p e) := by
  refine (Ideal.hostReduceAdd_single Cert.ReferenceIdeal.Facts₀.reducesTo_S4096x8_S4096_d1
    (by decide : Cert.ReferenceIdeal.S4096x8.Reduces [1] Cert.ReferenceIdeal.S4096) x _ (ix1 p)).trans ?_
  rw [constant_apply, Scalars.ofBits_zero, zero_add]
  exact Finset.sum_congr rfl fun e _ => congrArg x (r_lift8 _ p e)

private theorem hostDivf_apply8 {s : Shape} (a b : FVec Ideal s .f32) (i : s.Idx) :
    Host.divf a b i = Ideal.div (a i) (b i) := rfl

/-- The two spellings of the softmax are one function. -/
theorem soft_eq (l : FVec Ideal Cert.KernelIdeal.S4096x8 .f32) :
    Cert.KernelIdeal.Stage.soft l = Cert.ReferenceIdeal.Stage.soft l := by
  unfold Cert.KernelIdeal.Stage.soft Cert.ReferenceIdeal.Stage.soft
  rw [expShift_eq]
  generalize Cert.ReferenceIdeal.Stage.expShift l = x
  funext j
  obtain ⟨p, e, rfl⟩ : ∃ (p : Fin 4096) (e : Fin 8), j = ix2 p e := ⟨j 0, j 1, eq_ix2 j⟩
  rw [divf_apply, hostDivf_apply8, k_col8_apply, r_col8_apply, k_rowSum_apply, r_rowSum_apply]

end Cert.Bridge

end
-- ==== Proof.Experts.lean ====
/-
  The expert outputs rep·W + b. One program writes the product as a matrix product into a zero accumulator;
  the other lays rep along a third axis of length 96 and W along a first axis of length 4096, multiplies
  entry by entry and sums over the middle axis, from the initial value zero. At (b, j) both are the sum over
  k of rep(b,k)·W(k,j); both bias rows read the bias at j.
-/
import proofs.«150749_g69896297775690_cont_9to1c4b_828_3_alg».proof.Proof.Stages
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx
open scoped BigOperators

variable [Cert.KernelIdeal.Facts] [Cert.ReferenceIdeal.Facts]

theorem lhs_mm96_0 (i : Cert.KernelIdeal.S4096x96.Idx) (q : Cert.KernelIdeal.dot_S4096x128_S128x96_S4096x96_1_0_0_1_n_n.contr.Idx) : (Cert.KernelIdeal.dot_S4096x128_S128x96_S4096x96_1_0_0_1_n_n.lhsIdx i q 0).val = (i 0).val := by
  unfold DotDims.lhsIdx
  rw [dif_neg (show ¬(0 : Fin Cert.KernelIdeal.S4096x128.rank) ∈ Cert.KernelIdeal.dot_S4096x128_S128x96_S4096x96_1_0_0_1_n_n.lhsBatch from List.not_mem_nil),
    dif_pos (show (0 : Fin Cert.KernelIdeal.S4096x128.rank) ∈ Cert.KernelIdeal.dot_S4096x128_S128x96_S4096x96_1_0_0_1_n_n.lhsNonContracting from List.mem_singleton.mpr rfl)]
  rfl

theorem rhs_mm96_1 (i : Cert.KernelIdeal.S4096x96.Idx) (q : Cert.KernelIdeal.dot_S4096x128_S128x96_S4096x96_1_0_0_1_n_n.contr.Idx) : (Cert.KernelIdeal.dot_S4096x128_S128x96_S4096x96_1_0_0_1_n_n.rhsIdx i q 1).val = (i 1).val := by
  unfold DotDims.rhsIdx
  rw [dif_neg (show ¬(1 : Fin Cert.KernelIdeal.S128x96.rank) ∈ Cert.KernelIdeal.dot_S4096x128_S128x96_S4096x96_1_0_0_1_n_n.rhsBatch from List.not_mem_nil),
    dif_pos (show (1 : Fin Cert.KernelIdeal.S128x96.rank) ∈ Cert.KernelIdeal.dot_S4096x128_S128x96_S4096x96_1_0_0_1_n_n.rhsNonContracting from List.mem_singleton.mpr rfl)]
  rfl

/-- The product of a 4096 × 128 and a 128 × 96 matrix into the zero accumulator, at (b, j): the sum over k of x(b,k)·w(k,j). -/
theorem k_mm96_apply (x : FVec Ideal Cert.KernelIdeal.S4096x128 .f32) (w : FVec Ideal Cert.KernelIdeal.S128x96 .f32) (b : Fin 4096) (j : Fin 96) :
    matmul Cert.KernelIdeal.dot_S4096x128_S128x96_S4096x96_1_0_0_1_n_n none x w (constant Cert.KernelIdeal.S4096x96 .f32 0x00000000#32) (ix2 b j)
      = ∑ k : Fin 128, x (ix2 b k) * w (ix2 k j) := by
  simp only [matmul]
  rw [Ideal.matmul_constant_zero_apply, ← Equiv.sum_comp (contrEquiv1 Cert.KernelIdeal.dot_S4096x128_S128x96_S4096x96_1_0_0_1_n_n 128 rfl rfl).symm]
  refine Finset.sum_congr rfl fun k _ => ?_
  have hk := contrEquiv1_symm_val Cert.KernelIdeal.dot_S4096x128_S128x96_S4096x96_1_0_0_1_n_n 128 rfl rfl k
  have el : Cert.KernelIdeal.dot_S4096x128_S128x96_S4096x96_1_0_0_1_n_n.lhsIdx (ix2 b j) ((contrEquiv1 Cert.KernelIdeal.dot_S4096x128_S128x96_S4096x96_1_0_0_1_n_n 128 rfl rfl).symm k) = ix2 b k :=
    funext fun a => Fin.ext (by
      match a with
      | ⟨0, _⟩ => exact lhs_mm96_0 _ _
      | ⟨1, _⟩ => exact (Cert.KernelIdeal.dot_S4096x128_S128x96_S4096x96_1_0_0_1_n_n.lhsIdx_val_of_single rfl _ _).trans hk)
  have er : Cert.KernelIdeal.dot_S4096x128_S128x96_S4096x96_1_0_0_1_n_n.rhsIdx (ix2 b j) ((contrEquiv1 Cert.KernelIdeal.dot_S4096x128_S128x96_S4096x96_1_0_0_1_n_n 128 rfl rfl).symm k) = ix2 k j :=
    funext fun a => Fin.ext (by
      match a with
      | ⟨0, _⟩ => exact (Cert.KernelIdeal.dot_S4096x128_S128x96_S4096x96_1_0_0_1_n_n.rhsIdx_val_of_single rfl _ _).trans hk
      | ⟨1, _⟩ => exact rhs_mm96_1 _ _)
  rw [el, er]

/-- The 96-vector laid along every row, in the first spelling, reads the vector at j. -/
theorem k_bias96_apply (eb : FVec Ideal Cert.KernelIdeal.S96 .f32) (b : Fin 4096) (j : Fin 96) :
    broadcastTo Cert.KernelIdeal.S4096x96 (shapeCast Cert.KernelIdeal.S1x96 eb Cert.KernelIdeal.Facts₀.shapeCasts_S96_S1x96)
        Cert.KernelIdeal.Facts₀.broadcasts_S1x96_S4096x96 (ix2 b j) = eb (ix1 j) := by
  rw [broadcastTo_1b_ab_apply, shapeCast_a_1a_apply]

/-- The 96-vector laid along every row, in the second spelling, reads the vector at j. -/
theorem r_bias96_apply (eb : FVec Ideal Cert.ReferenceIdeal.S96 .f32) (b : Fin 4096) (j : Fin 96) :
    broadcastInDim Cert.ReferenceIdeal.S4096x96 ![0, 1] Cert.ReferenceIdeal.Facts₀.bcast_S1x96_S4096x96_0_1
        (broadcastInDim Cert.ReferenceIdeal.S1x96 ![1] Cert.ReferenceIdeal.Facts₀.bcast_S96_S1x96_1 eb) (ix2 b j) = eb (ix1 j) := by
  rw [broadcastInDim_apply _ _ _ (ix2 b j) (ix2 (0 : Fin 1) j)
        (fun a => match a with | ⟨0, _⟩ => rfl | ⟨1, _⟩ => rfl),
      broadcastInDim_apply _ _ _ (ix2 (0 : Fin 1) j) (ix1 j) (fun a => match a with | ⟨0, _⟩ => rfl)]

/-- rep laid along a third axis reads, at (b, k, j), rep at (b, k). -/
theorem r_rep3_apply (rep : FVec Ideal Cert.ReferenceIdeal.S4096x128 .f32) (b : Fin 4096) (k : Fin 128) (j : Fin 96) :
    broadcastInDim Cert.ReferenceIdeal.S4096x128x96 ![0, 1, 2] Cert.ReferenceIdeal.Facts₀.bcast_S4096x128x1_S4096x128x96_0_1_2
        (broadcastInDim Cert.ReferenceIdeal.S4096x128x1 ![0, 1] Cert.ReferenceIdeal.Facts₀.bcast_S4096x128_S4096x128x1_0_1 rep) (ix3 b k j)
      = rep (ix2 b k) := by
  rw [broadcastInDim_apply _ _ _ (ix3 b k j) (ix3 b k (0 : Fin 1))
        (fun a => match a with | ⟨0, _⟩ => rfl | ⟨1, _⟩ => rfl | ⟨2, _⟩ => rfl),
      broadcastInDim_apply _ _ _ (ix3 b k (0 : Fin 1)) (ix2 b k)
        (fun a => match a with | ⟨0, _⟩ => rfl | ⟨1, _⟩ => rfl)]

/-- W laid along a first axis reads, at (b, k, j), W at (k, j). -/
theorem r_ew3_apply (ew : FVec Ideal Cert.ReferenceIdeal.S128x96 .f32) (b : Fin 4096) (k : Fin 128) (j : Fin 96) :
    broadcastInDim Cert.ReferenceIdeal.S4096x128x96 ![0, 1, 2] Cert.ReferenceIdeal.Facts₀.bcast_S1x128x96_S4096x128x96_0_1_2
        (broadcastInDim Cert.ReferenceIdeal.S1x128x96 ![1, 2] Cert.ReferenceIdeal.Facts₀.bcast_S128x96_S1x128x96_1_2 ew) (ix3 b k j)
      = ew (ix2 k j) := by
  rw [broadcastInDim_apply _ _ _ (ix3 b k j) (ix3 (0 : Fin 1) k j)
        (fun a => match a with | ⟨0, _⟩ => rfl | ⟨1, _⟩ => rfl | ⟨2, _⟩ => rfl),
      broadcastInDim_apply _ _ _ (ix3 (0 : Fin 1) k j) (ix2 k j)
        (fun a => match a with | ⟨0, _⟩ => rfl | ⟨1, _⟩ => rfl)]

/-- The sum over the middle axis of a 4096 × 128 × 96 array from the initial value zero, at (b, j): the sum
    over k of the array at (b, k, j). -/
theorem r_sum128_apply (v : FVec Ideal Cert.ReferenceIdeal.S4096x128x96 .f32) (b : Fin 4096) (j : Fin 96) :
    Host.reduceAdd v (constant Cert.ReferenceIdeal.S_ .f32 0x00000000#32) Cert.ReferenceIdeal.Facts₀.reducesTo_S4096x128x96_S4096x96_d1
        Cert.ReferenceIdeal.Facts₀.h_S_ (ix2 b j)
      = ∑ k : Fin 128, v (ix3 b k j) := by
  unfold Host.reduceAdd
  rw [Ideal.hostReduceAdd_def, Ideal.hostReduceAdd_single Cert.ReferenceIdeal.Facts₀.reducesTo_S4096x128x96_S4096x96_d1 (by decide)]
  rw [constant_apply, Ideal.ofBits_zero_f32, zero_add]
  refine Finset.sum_congr rfl fun k _ => ?_
  exact congrArg v (funext fun a => Fin.ext (by match a with | ⟨0, _⟩ => rfl | ⟨1, _⟩ => rfl | ⟨2, _⟩ => rfl))

/-- The expert outputs: the two spellings are one function. -/
theorem experts_eq (rep : FVec Ideal Cert.KernelIdeal.S4096x128 .f32) (ew : FVec Ideal Cert.KernelIdeal.S128x96 .f32)
    (eb : FVec Ideal Cert.KernelIdeal.S96 .f32) :
    Cert.KernelIdeal.Stage.experts rep ew eb = Cert.ReferenceIdeal.Stage.experts rep ew eb := by
  funext i
  obtain ⟨b, j, rfl⟩ : ∃ (b : Fin 4096) (j : Fin 96), i = ix2 b j := ⟨i 0, i 1, eq_ix2 i⟩
  unfold Cert.KernelIdeal.Stage.experts Cert.ReferenceIdeal.Stage.experts
  rw [addf_apply, addf_apply, k_mm96_apply, k_bias96_apply, r_bias96_apply, r_sum128_apply]
  refine congrArg (· + eb (ix1 j)) (Finset.sum_congr rfl fun k _ => ?_)
  rw [mulf_apply, r_rep3_apply, r_ew3_apply]

end Cert.Bridge

end
-- ==== Proof.Combine.lean ====
/-
  The softmax-weighted sum over the eight experts. One program multiplies the weights by an 8 × 96 matrix of
  zeros and ones (a one at (e, a) when ⌊a/12⌋ = e), multiplies the result entry by entry with the 96 expert
  outputs, and multiplies that by a 96 × 12 matrix of zeros and ones (a one at (a, t) when a mod 12 = t). The
  other reads the 96 outputs as 8 × 12, lays the weights along the last axis, multiplies and sums over the
  experts. At (b, t) both are the sum over e of q(b,e)·z(b, 12·e + t). The values are extended reals, so the
  argument uses only x·1 = x, x·0 = 0, 0 + x = x and the reordering of finite sums.
-/
import proofs.«150749_g69896297775690_cont_9to1c4b_828_3_alg».proof.Proof.Stages
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.Bridge

open Idealize.ShloMosaic Idealize.ShloMosaic.ValueIdx
open scoped BigOperators

variable [Cert.KernelIdeal.Facts] [Cert.ReferenceIdeal.Facts]

/-- Two coordinates below 8, as 32-bit words (the first plus the zero word), are equal exactly when they are equal. -/
theorem eqWord8 : ∀ e g : Fin 8,
    IntOp.cmpi .eq (IntOp.addi (BitVec.ofNat 32 e.val) 0#32) (BitVec.ofNat 32 g.val) = if e = g then 1#1 else 0#1 := by
  decide

/-- The same below 12. -/
theorem eqWord12 : ∀ e g : Fin 12,
    IntOp.cmpi .eq (IntOp.addi (BitVec.ofNat 32 e.val) 0#32) (BitVec.ofNat 32 g.val) = if e = g then 1#1 else 0#1 := by
  decide

/-- The one-bit word 1 converts to the real 1, the word 0 to 0. -/
theorem uitofp_bit (c : Prop) [Decidable c] :
    (FloatOps.uitofp (F := Ideal) .f32 (if c then 1#1 else 0#1) : EReal) = if c then 1 else 0 := by
  by_cases h : c
  · rw [if_pos h, if_pos h]
    show (((1#1 : BitVec 1).toNat : ℝ) : EReal) = 1
    norm_num
  · rw [if_neg h, if_neg h]
    show (((0#1 : BitVec 1).toNat : ℝ) : EReal) = 0
    norm_num

/-- The 8 × 8 identity pattern as the host operations build it. -/
theorem eye8_apply (e g : Fin 8) :
    uitofp (F := Ideal) .f32 (cmpi .eq (addi (iotaInDim Cert.KernelIdeal.S8x8 32 0)
        (broadcastInDim Cert.KernelIdeal.S8x8 ![] Cert.KernelIdeal.Facts₀.bcast_S_S8x8 (constantI Cert.KernelIdeal.S_ 32 0#32)))
      (iotaInDim Cert.KernelIdeal.S8x8 32 1)) (ix2 e g) = if e = g then 1 else 0 := by
  show FloatOps.uitofp (F := Ideal) .f32 (IntOp.cmpi .eq (IntOp.addi (BitVec.ofNat 32 e.val)
      (broadcastInDim Cert.KernelIdeal.S8x8 ![] Cert.KernelIdeal.Facts₀.bcast_S_S8x8 (constantI Cert.KernelIdeal.S_ 32 0#32) (ix2 e g)))
      (BitVec.ofNat 32 g.val)) = _
  rw [broadcastInDim_scalar_apply, constantI_apply, eqWord8, uitofp_bit]

/-- The 12 × 12 identity pattern as the host operations build it. -/
theorem eye12_apply (e g : Fin 12) :
    uitofp (F := Ideal) .f32 (cmpi .eq (addi (iotaInDim Cert.KernelIdeal.S12x12 32 0)
        (broadcastInDim Cert.KernelIdeal.S12x12 ![] Cert.KernelIdeal.Facts₀.bcast_S_S12x12 (constantI Cert.KernelIdeal.S_ 32 0#32)))
      (iotaInDim Cert.KernelIdeal.S12x12 32 1)) (ix2 e g) = if e = g then 1 else 0 := by
  show FloatOps.uitofp (F := Ideal) .f32 (IntOp.cmpi .eq (IntOp.addi (BitVec.ofNat 32 e.val)
      (broadcastInDim Cert.KernelIdeal.S12x12 ![] Cert.KernelIdeal.Facts₀.bcast_S_S12x12 (constantI Cert.KernelIdeal.S_ 32 0#32) (ix2 e g)))
      (BitVec.ofNat 32 g.val)) = _
  rw [broadcastInDim_scalar_apply, constantI_apply, eqWord12, uitofp_bit]

/-- The first 0/1 matrix at (e, a): one exactly when ⌊a/12⌋ = e. The 8 × 8 identity is laid along a third axis
    of length 12 and the last two axes are read as one of length 96, so (e, a) reads the identity at (e, ⌊a/12⌋). -/
theorem spread_apply (e : Fin 8) (a : Fin 96) :
    Cert.KernelIdeal.Stage.spread (F := Ideal) (ix2 e a) = if e.val = a.val / 12 then 1 else 0 := by
  have hg : a.val / 12 < 8 := by omega
  have hs : a.val % 12 < 12 := by omega
  unfold Cert.KernelIdeal.Stage.spread
  rw [shapeCast_apply _ _ (ix2 e a) (ix3 e (⟨a.val / 12, hg⟩ : Fin 8) (⟨a.val % 12, hs⟩ : Fin 12)) (by
        rw [Shape.rowMajor_val_three, Shape.rowMajor_val_two]
        show (e.val * 8 + a.val / 12) * 12 + a.val % 12 = e.val * 96 + a.val
        omega),
      broadcastInDim_apply _ _ _ (ix3 e (⟨a.val / 12, hg⟩ : Fin 8) (⟨a.val % 12, hs⟩ : Fin 12))
        (ix2 e (⟨a.val / 12, hg⟩ : Fin 8)) (fun x => match x with | ⟨0, _⟩ => rfl | ⟨1, _⟩ => rfl),
      eye8_apply]
  exact if_congr Fin.ext_iff rfl rfl

/-- The second 0/1 matrix at (a, t): one exactly when a mod 12 = t. The 12 × 12 identity is read as
    1 × 12 × 1 × 12, laid along a first axis of length 8, and read as 96 × 12, so (a, t) reads the identity at
    (a mod 12, t). -/
theorem gather_apply (a : Fin 96) (t : Fin 12) :
    Cert.KernelIdeal.Stage.gather (F := Ideal) (ix2 a t) = if a.val % 12 = t.val then 1 else 0 := by
  have hg : a.val / 12 < 8 := by omega
  have hs : a.val % 12 < 12 := by omega
  unfold Cert.KernelIdeal.Stage.gather
  rw [shapeCast_apply _ _ (ix2 a t)
        (ix4 (⟨a.val / 12, hg⟩ : Fin 8) (⟨a.val % 12, hs⟩ : Fin 12) (0 : Fin 1) t) (by
        rw [Shape.rowMajor_val_four, Shape.rowMajor_val_two]
        show (((a.val / 12) * 12 + a.val % 12) * 1 + 0) * 12 + t.val = a.val * 12 + t.val
        omega),
      broadcastInDim_apply _ _ _ (ix4 (⟨a.val / 12, hg⟩ : Fin 8) (⟨a.val % 12, hs⟩ : Fin 12) (0 : Fin 1) t)
        (ix4 (0 : Fin 1) (⟨a.val % 12, hs⟩ : Fin 12) (0 : Fin 1) t)
        (fun x => match x with | ⟨0, _⟩ => rfl | ⟨1, _⟩ => rfl | ⟨2, _⟩ => rfl | ⟨3, _⟩ => rfl),
      shapeCast_apply _ _ (ix4 (0 : Fin 1) (⟨a.val % 12, hs⟩ : Fin 12) (0 : Fin 1) t)
        (ix2 (⟨a.val % 12, hs⟩ : Fin 12) t) (by
        rw [Shape.rowMajor_val_two, Shape.rowMajor_val_four]
        show (a.val % 12) * 12 + t.val = ((0 * 12 + a.val % 12) * 1 + 0) * 12 + t.val
        omega),
      eye12_apply]
  exact if_congr Fin.ext_iff rfl rfl

/-- A column index below 96 is 12·e + s with e below 8 and s below 12. -/
def split96 : Fin 8 × Fin 12 ≃ Fin 96 where
  toFun p := ⟨12 * p.1.val + p.2.val, by omega⟩
  invFun a := (⟨a.val / 12, by omega⟩, ⟨a.val % 12, by omega⟩)
  left_inv := fun ⟨e, s⟩ => Prod.ext (Fin.ext (by show (12 * e.val + s.val) / 12 = e.val; omega))
    (Fin.ext (by show (12 * e.val + s.val) % 12 = s.val; omega))
  right_inv := fun a => Fin.ext (by show 12 * (a.val / 12) + a.val % 12 = a.val; omega)

/-- A sum over the 96 columns against the pattern "a mod 12 = t" keeps the eight columns 12·e + t. Only
    x·1 = x, x·0 = 0 and the reordering of a finite sum are used. -/
theorem sum96_mod (f : Fin 96 → EReal) (t : Fin 12) :
    ∑ a : Fin 96, f a * (if a.val % 12 = t.val then 1 else 0)
      = ∑ e : Fin 8, f ⟨12 * e.val + t.val, by omega⟩ := by
  rw [← Equiv.sum_comp split96, Fintype.sum_prod_type]
  refine Finset.sum_congr rfl fun e _ => ?_
  rw [Finset.sum_eq_single t]
  · show f ⟨12 * e.val + t.val, _⟩ * (if (12 * e.val + t.val) % 12 = t.val then 1 else 0) = _
    rw [if_pos (by omega), mul_one]
  · intro s _ hne
    show f ⟨12 * e.val + s.val, _⟩ * (if (12 * e.val + s.val) % 12 = t.val then 1 else 0) = 0
    rw [if_neg (fun h => hne (Fin.ext (by omega))), mul_zero]
  · intro h; exact absurd (Finset.mem_univ _) h

/-- A sum over the eight rows against the pattern "e = g" keeps the row g. -/
theorem sum8_pick (f : Fin 8 → EReal) (g : ℕ) (hg : g < 8) :
    ∑ e : Fin 8, f e * (if e.val = g then 1 else 0) = f ⟨g, hg⟩ := by
  rw [Finset.sum_eq_single (⟨g, hg⟩ : Fin 8)]
  · rw [if_pos rfl, mul_one]
  · intro e _ hne
    rw [if_neg (fun h => hne (Fin.ext h)), mul_zero]
  · intro h; exact absurd (Finset.mem_univ _) h

theorem lhs_mm8_0 (i : Cert.KernelIdeal.S4096x96.Idx) (q : Cert.KernelIdeal.dot_S4096x8_S8x96_S4096x96_1_0_0_1_n_n.contr.Idx) : (Cert.KernelIdeal.dot_S4096x8_S8x96_S4096x96_1_0_0_1_n_n.lhsIdx i q 0).val = (i 0).val := by
  unfold DotDims.lhsIdx
  rw [dif_neg (show ¬(0 : Fin Cert.KernelIdeal.S4096x8.rank) ∈ Cert.KernelIdeal.dot_S4096x8_S8x96_S4096x96_1_0_0_1_n_n.lhsBatch from List.not_mem_nil),
    dif_pos (show (0 : Fin Cert.KernelIdeal.S4096x8.rank) ∈ Cert.KernelIdeal.dot_S4096x8_S8x96_S4096x96_1_0_0_1_n_n.lhsNonContracting from List.mem_singleton.mpr rfl)]
  rfl

theorem rhs_mm8_1 (i : Cert.KernelIdeal.S4096x96.Idx) (q : Cert.KernelIdeal.dot_S4096x8_S8x96_S4096x96_1_0_0_1_n_n.contr.Idx) : (Cert.KernelIdeal.dot_S4096x8_S8x96_S4096x96_1_0_0_1_n_n.rhsIdx i q 1).val = (i 1).val := by
  unfold DotDims.rhsIdx
  rw [dif_neg (show ¬(1 : Fin Cert.KernelIdeal.S8x96.rank) ∈ Cert.KernelIdeal.dot_S4096x8_S8x96_S4096x96_1_0_0_1_n_n.rhsBatch from List.not_mem_nil),
    dif_pos (show (1 : Fin Cert.KernelIdeal.S8x96.rank) ∈ Cert.KernelIdeal.dot_S4096x8_S8x96_S4096x96_1_0_0_1_n_n.rhsNonContracting from List.mem_singleton.mpr rfl)]
  rfl

/-- The product of a 4096 × 8 and an 8 × 96 matrix into the zero accumulator, at (b, a): the sum over e of x(b,e)·w(e,a). -/
theorem k_mm8_apply (x : FVec Ideal Cert.KernelIdeal.S4096x8 .f32) (w : FVec Ideal Cert.KernelIdeal.S8x96 .f32) (b : Fin 4096) (j : Fin 96) :
    matmul Cert.KernelIdeal.dot_S4096x8_S8x96_S4096x96_1_0_0_1_n_n none x w (constant Cert.KernelIdeal.S4096x96 .f32 0x00000000#32) (ix2 b j)
      = ∑ k : Fin 8, x (ix2 b k) * w (ix2 k j) := by
  simp only [matmul]
  rw [Ideal.matmul_constant_zero_apply, ← Equiv.sum_comp (contrEquiv1 Cert.KernelIdeal.dot_S4096x8_S8x96_S4096x96_1_0_0_1_n_n 8 rfl rfl).symm]
  refine Finset.sum_congr rfl fun k _ => ?_
  have hk := contrEquiv1_symm_val Cert.KernelIdeal.dot_S4096x8_S8x96_S4096x96_1_0_0_1_n_n 8 rfl rfl k
  have el : Cert.KernelIdeal.dot_S4096x8_S8x96_S4096x96_1_0_0_1_n_n.lhsIdx (ix2 b j) ((contrEquiv1 Cert.KernelIdeal.dot_S4096x8_S8x96_S4096x96_1_0_0_1_n_n 8 rfl rfl).symm k) = ix2 b k :=
    funext fun a => Fin.ext (by
      match a with
      | ⟨0, _⟩ => exact lhs_mm8_0 _ _
      | ⟨1, _⟩ => exact (Cert.KernelIdeal.dot_S4096x8_S8x96_S4096x96_1_0_0_1_n_n.lhsIdx_val_of_single rfl _ _).trans hk)
  have er : Cert.KernelIdeal.dot_S4096x8_S8x96_S4096x96_1_0_0_1_n_n.rhsIdx (ix2 b j) ((contrEquiv1 Cert.KernelIdeal.dot_S4096x8_S8x96_S4096x96_1_0_0_1_n_n 8 rfl rfl).symm k) = ix2 k j :=
    funext fun a => Fin.ext (by
      match a with
      | ⟨0, _⟩ => exact (Cert.KernelIdeal.dot_S4096x8_S8x96_S4096x96_1_0_0_1_n_n.rhsIdx_val_of_single rfl _ _).trans hk
      | ⟨1, _⟩ => exact rhs_mm8_1 _ _)
  rw [el, er]

theorem lhs_mm12_0 (i : Cert.KernelIdeal.S4096x12.Idx) (q : Cert.KernelIdeal.dot_S4096x96_S96x12_S4096x12_1_0_0_1_n_n.contr.Idx) : (Cert.KernelIdeal.dot_S4096x96_S96x12_S4096x12_1_0_0_1_n_n.lhsIdx i q 0).val = (i 0).val := by
  unfold DotDims.lhsIdx
  rw [dif_neg (show ¬(0 : Fin Cert.KernelIdeal.S4096x96.rank) ∈ Cert.KernelIdeal.dot_S4096x96_S96x12_S4096x12_1_0_0_1_n_n.lhsBatch from List.not_mem_nil),
    dif_pos (show (0 : Fin Cert.KernelIdeal.S4096x96.rank) ∈ Cert.KernelIdeal.dot_S4096x96_S96x12_S4096x12_1_0_0_1_n_n.lhsNonContracting from List.mem_singleton.mpr rfl)]
  rfl

theorem rhs_mm12_1 (i : Cert.KernelIdeal.S4096x12.Idx) (q : Cert.KernelIdeal.dot_S4096x96_S96x12_S4096x12_1_0_0_1_n_n.contr.Idx) : (Cert.KernelIdeal.dot_S4096x96_S96x12_S4096x12_1_0_0_1_n_n.rhsIdx i q 1).val = (i 1).val := by
  unfold DotDims.rhsIdx
  rw [dif_neg (show ¬(1 : Fin Cert.KernelIdeal.S96x12.rank) ∈ Cert.KernelIdeal.dot_S4096x96_S96x12_S4096x12_1_0_0_1_n_n.rhsBatch from List.not_mem_nil),
    dif_pos (show (1 : Fin Cert.KernelIdeal.S96x12.rank) ∈ Cert.KernelIdeal.dot_S4096x96_S96x12_S4096x12_1_0_0_1_n_n.rhsNonContracting from List.mem_singleton.mpr rfl)]
  rfl

/-- The product of a 4096 × 96 and a 96 × 12 matrix into the zero accumulator, at (b, t): the sum over a of x(b,a)·w(a,t). -/
theorem k_mm12_apply (x : FVec Ideal Cert.KernelIdeal.S4096x96 .f32) (w : FVec Ideal Cert.KernelIdeal.S96x12 .f32) (b : Fin 4096) (j : Fin 12) :
    matmul Cert.KernelIdeal.dot_S4096x96_S96x12_S4096x12_1_0_0_1_n_n none x w (constant Cert.KernelIdeal.S4096x12 .f32 0x00000000#32) (ix2 b j)
      = ∑ k : Fin 96, x (ix2 b k) * w (ix2 k j) := by
  simp only [matmul]
  rw [Ideal.matmul_constant_zero_apply, ← Equiv.sum_comp (contrEquiv1 Cert.KernelIdeal.dot_S4096x96_S96x12_S4096x12_1_0_0_1_n_n 96 rfl rfl).symm]
  refine Finset.sum_congr rfl fun k _ => ?_
  have hk := contrEquiv1_symm_val Cert.KernelIdeal.dot_S4096x96_S96x12_S4096x12_1_0_0_1_n_n 96 rfl rfl k
  have el : Cert.KernelIdeal.dot_S4096x96_S96x12_S4096x12_1_0_0_1_n_n.lhsIdx (ix2 b j) ((contrEquiv1 Cert.KernelIdeal.dot_S4096x96_S96x12_S4096x12_1_0_0_1_n_n 96 rfl rfl).symm k) = ix2 b k :=
    funext fun a => Fin.ext (by
      match a with
      | ⟨0, _⟩ => exact lhs_mm12_0 _ _
      | ⟨1, _⟩ => exact (Cert.KernelIdeal.dot_S4096x96_S96x12_S4096x12_1_0_0_1_n_n.lhsIdx_val_of_single rfl _ _).trans hk)
  have er : Cert.KernelIdeal.dot_S4096x96_S96x12_S4096x12_1_0_0_1_n_n.rhsIdx (ix2 b j) ((contrEquiv1 Cert.KernelIdeal.dot_S4096x96_S96x12_S4096x12_1_0_0_1_n_n 96 rfl rfl).symm k) = ix2 k j :=
    funext fun a => Fin.ext (by
      match a with
      | ⟨0, _⟩ => exact (Cert.KernelIdeal.dot_S4096x96_S96x12_S4096x12_1_0_0_1_n_n.rhsIdx_val_of_single rfl _ _).trans hk
      | ⟨1, _⟩ => exact rhs_mm12_1 _ _)
  rw [el, er]

/-- The weights laid along a third axis of length 12 read, at (b, e, t), the weight at (b, e). -/
theorem r_q3_apply (q : FVec Ideal Cert.ReferenceIdeal.S4096x8 .f32) (b : Fin 4096) (e : Fin 8) (t : Fin 12) :
    broadcastInDim Cert.ReferenceIdeal.S4096x8x12 ![0, 1, 2] Cert.ReferenceIdeal.Facts₀.bcast_S4096x8x1_S4096x8x12_0_1_2
        (broadcastInDim Cert.ReferenceIdeal.S4096x8x1 ![0, 1] Cert.ReferenceIdeal.Facts₀.bcast_S4096x8_S4096x8x1_0_1 q) (ix3 b e t)
      = q (ix2 b e) := by
  rw [broadcastInDim_apply _ _ _ (ix3 b e t) (ix3 b e (0 : Fin 1))
        (fun a => match a with | ⟨0, _⟩ => rfl | ⟨1, _⟩ => rfl | ⟨2, _⟩ => rfl),
      broadcastInDim_apply _ _ _ (ix3 b e (0 : Fin 1)) (ix2 b e)
        (fun a => match a with | ⟨0, _⟩ => rfl | ⟨1, _⟩ => rfl)]

/-- The 96 columns read as 8 × 12: (b, e, t) reads column 12·e + t. -/
theorem r_z3_apply (z : FVec Ideal Cert.ReferenceIdeal.S4096x96 .f32) (b : Fin 4096) (e : Fin 8) (t : Fin 12) :
    shapeCast Cert.ReferenceIdeal.S4096x8x12 z Cert.ReferenceIdeal.Facts₀.shapeCasts_S4096x96_S4096x8x12 (ix3 b e t)
      = z (ix2 b (⟨12 * e.val + t.val, by omega⟩ : Fin 96)) := by
  refine shapeCast_apply z _ (ix3 b e t) (ix2 b (⟨12 * e.val + t.val, by omega⟩ : Fin 96)) ?_
  rw [Shape.rowMajor_val_two, Shape.rowMajor_val_three]
  show b.val * 96 + (12 * e.val + t.val) = (b.val * 8 + e.val) * 12 + t.val
  omega

/-- The sum over the middle axis of a 4096 × 8 × 12 array from the initial value zero, at (b, t): the sum over
    e of the array at (b, e, t). -/
theorem r_sum8_apply (v : FVec Ideal Cert.ReferenceIdeal.S4096x8x12 .f32) (b : Fin 4096) (t : Fin 12) :
    Host.reduceAdd v (constant Cert.ReferenceIdeal.S_ .f32 0x00000000#32) Cert.ReferenceIdeal.Facts₀.reducesTo_S4096x8x12_S4096x12_d1
        Cert.ReferenceIdeal.Facts₀.h_S_ (ix2 b t)
      = ∑ e : Fin 8, v (ix3 b e t) := by
  unfold Host.reduceAdd
  rw [Ideal.hostReduceAdd_def, Ideal.hostReduceAdd_single Cert.ReferenceIdeal.Facts₀.reducesTo_S4096x8x12_S4096x12_d1 (by decide)]
  rw [constant_apply, Ideal.ofBits_zero_f32, zero_add]
  refine Finset.sum_congr rfl fun e _ => ?_
  exact congrArg v (funext fun a => Fin.ext (by match a with | ⟨0, _⟩ => rfl | ⟨1, _⟩ => rfl | ⟨2, _⟩ => rfl))

/-- The second spelling at (b, t): the sum over the eight experts of weight times the expert's t-th value. -/
theorem r_combine_apply (q : FVec Ideal Cert.ReferenceIdeal.S4096x8 .f32) (z : FVec Ideal Cert.ReferenceIdeal.S4096x96 .f32) (b : Fin 4096) (t : Fin 12) :
    Cert.ReferenceIdeal.Stage.combine q z (ix2 b t)
      = ∑ e : Fin 8, q (ix2 b e) * z (ix2 b (⟨12 * e.val + t.val, by omega⟩ : Fin 96)) := by
  unfold Cert.ReferenceIdeal.Stage.combine
  rw [r_sum8_apply]
  refine Finset.sum_congr rfl fun e _ => ?_
  rw [mulf_apply, r_q3_apply, r_z3_apply]

/-- The first spelling at (b, t). The inner product against the first 0/1 matrix keeps the weight of expert
    ⌊a/12⌋; the outer product against the second keeps the columns a = 12·e + t. -/
theorem k_combine_apply (q : FVec Ideal Cert.KernelIdeal.S4096x8 .f32) (z : FVec Ideal Cert.KernelIdeal.S4096x96 .f32) (b : Fin 4096) (t : Fin 12) :
    Cert.KernelIdeal.Stage.combine q z Cert.KernelIdeal.Stage.spread Cert.KernelIdeal.Stage.gather (ix2 b t)
      = ∑ e : Fin 8, q (ix2 b e) * z (ix2 b (⟨12 * e.val + t.val, by omega⟩ : Fin 96)) := by
  unfold Cert.KernelIdeal.Stage.combine
  rw [k_mm12_apply, shapeCast_self, shapeCast_self]
  let f : Fin 96 → EReal := fun a => q (ix2 b (⟨a.val / 12, by omega⟩ : Fin 8)) * z (ix2 b a)
  have h1 : ∀ a : Fin 96,
      mulf (matmul Cert.KernelIdeal.dot_S4096x8_S8x96_S4096x96_1_0_0_1_n_n none q Cert.KernelIdeal.Stage.spread (constant Cert.KernelIdeal.S4096x96 .f32 0x00000000#32)) z (ix2 b a)
          * Cert.KernelIdeal.Stage.gather (F := Ideal) (ix2 a t)
        = f a * (if a.val % 12 = t.val then 1 else 0) := by
    intro a
    rw [mulf_apply, k_mm8_apply, gather_apply]
    have h2 : ∑ e : Fin 8, q (ix2 b e) * Cert.KernelIdeal.Stage.spread (F := Ideal) (ix2 e a)
        = q (ix2 b (⟨a.val / 12, by omega⟩ : Fin 8)) := by
      rw [← sum8_pick (fun e => q (ix2 b e)) (a.val / 12) (by omega)]
      exact Finset.sum_congr rfl fun e _ => by rw [spread_apply]
    rw [h2]
  refine (Finset.sum_congr rfl fun a _ => h1 a).trans ?_
  refine (sum96_mod f t).trans ?_
  refine Finset.sum_congr rfl fun e _ => ?_
  have he : (⟨(12 * e.val + t.val) / 12, by omega⟩ : Fin 8) = e :=
    Fin.ext (by show (12 * e.val + t.val) / 12 = e.val; omega)
  exact congrArg (fun g : Fin 8 => q (ix2 b g) * z (ix2 b (⟨12 * e.val + t.val, by omega⟩ : Fin 96))) he

/-- The weighted sum over the experts: the two spellings are one function. -/
theorem combine_eq (q : FVec Ideal Cert.KernelIdeal.S4096x8 .f32) (z : FVec Ideal Cert.KernelIdeal.S4096x96 .f32) :
    Cert.KernelIdeal.Stage.combine q z Cert.KernelIdeal.Stage.spread Cert.KernelIdeal.Stage.gather = Cert.ReferenceIdeal.Stage.combine q z := by
  funext i
  obtain ⟨b, t, rfl⟩ : ∃ (b : Fin 4096) (t : Fin 12), i = ix2 b t := ⟨i 0, i 1, eq_ix2 i⟩
  rw [k_combine_apply, r_combine_apply]

end Cert.Bridge

end
-- ==== Proof.Bridge.lean ====
/-
  One group's whole chain, and the mean of the two groups, in the two spellings: each stage's two spellings are
  one function (the row layouts and linear layers, the normalisation, the positive part, the scores, the softmax,
  the expert outputs, the weighted sum over the experts), so the chains are.
-/
import proofs.«150749_g69896297775690_cont_9to1c4b_828_3_alg».proof.Proof.Stages
import proofs.«150749_g69896297775690_cont_9to1c4b_828_3_alg».proof.Proof.Rows
import proofs.«150749_g69896297775690_cont_9to1c4b_828_3_alg».proof.Proof.Norm
import proofs.«150749_g69896297775690_cont_9to1c4b_828_3_alg».proof.Proof.Scores
import proofs.«150749_g69896297775690_cont_9to1c4b_828_3_alg».proof.Proof.Soft
import proofs.«150749_g69896297775690_cont_9to1c4b_828_3_alg».proof.Proof.Experts
import proofs.«150749_g69896297775690_cont_9to1c4b_828_3_alg».proof.Proof.Combine

noncomputable section

namespace Cert.Bridge

open Idealize.ShloMosaic

variable [Cert.KernelIdeal.Facts] [Cert.ReferenceIdeal.Facts]

/-- One group's chain: the kernel's, with the two 0/1 matrices the host operations build, is the reference's. -/
theorem half_eq (x rep : FVec Ideal Cert.KernelIdeal.S4096x128 .f32) (w1 : FVec Ideal Cert.KernelIdeal.S128x300 .f32)
    (b1 g bt : FVec Ideal Cert.KernelIdeal.S300 .f32) (w2 : FVec Ideal Cert.KernelIdeal.S300x300 .f32) (b2 : FVec Ideal Cert.KernelIdeal.S300 .f32)
    (clu : FVec Ideal Cert.KernelIdeal.S8x300 .f32) (ew : FVec Ideal Cert.KernelIdeal.S128x96 .f32) (eb : FVec Ideal Cert.KernelIdeal.S96 .f32) :
    Cert.KernelIdeal.Stage.half x rep w1 b1 g bt w2 b2 clu ew eb Cert.KernelIdeal.Stage.spread Cert.KernelIdeal.Stage.gather
      = Cert.ReferenceIdeal.Stage.half x rep w1 b1 g bt w2 b2 clu ew eb := by
  unfold Cert.KernelIdeal.Stage.half Cert.ReferenceIdeal.Stage.half
  rw [lin1_eq, norm_eq, pos_eq, lin2_eq, scores_eq, soft_eq, experts_eq, combine_eq]

/-- The mean of the two groups' chains. -/
theorem whole_eq (a0 a1 a2 a3 : FVec Ideal Cert.KernelIdeal.S4096x128 .f32) (a4 : FVec Ideal Cert.KernelIdeal.S128x300 .f32)
    (a5 a6 a7 : FVec Ideal Cert.KernelIdeal.S300 .f32) (a8 : FVec Ideal Cert.KernelIdeal.S300x300 .f32) (a9 : FVec Ideal Cert.KernelIdeal.S300 .f32)
    (a10 : FVec Ideal Cert.KernelIdeal.S128x300 .f32) (a11 a12 a13 : FVec Ideal Cert.KernelIdeal.S300 .f32) (a14 : FVec Ideal Cert.KernelIdeal.S300x300 .f32)
    (a15 : FVec Ideal Cert.KernelIdeal.S300 .f32) (a16 a17 : FVec Ideal Cert.KernelIdeal.S8x300 .f32) (a18 : FVec Ideal Cert.KernelIdeal.S128x96 .f32)
    (a19 : FVec Ideal Cert.KernelIdeal.S96 .f32) (a20 : FVec Ideal Cert.KernelIdeal.S128x96 .f32) (a21 : FVec Ideal Cert.KernelIdeal.S96 .f32) :
    Cert.KernelIdeal.Stage.mean2 (Cert.KernelIdeal.Stage.half a2 a0 a4 a5 a6 a7 a8 a9 a16 a18 a19 Cert.KernelIdeal.Stage.spread Cert.KernelIdeal.Stage.gather)
        (Cert.KernelIdeal.Stage.half a3 a1 a10 a11 a12 a13 a14 a15 a17 a20 a21 Cert.KernelIdeal.Stage.spread Cert.KernelIdeal.Stage.gather)
      = Cert.ReferenceIdeal.Stage.mean2 (Cert.ReferenceIdeal.Stage.half a2 a0 a4 a5 a6 a7 a8 a9 a16 a18 a19) (Cert.ReferenceIdeal.Stage.half a3 a1 a10 a11 a12 a13 a14 a15 a17 a20 a21) := by
  rw [half_eq, half_eq, mean2_eq]

end Cert.Bridge

end
-- ==== Proof.Whole.lean ====
/-
  The kernel's result array, as a term of the argument arrays, is the reference's. The kernel's body applied
  to the whole arrays and the two 0/1 matrices is the mean of its two groups' chains (by unfolding); the
  reference's term is the mean of its two groups' chains (by unfolding); and the chains agree stage by stage.
-/
import proofs.«150749_g69896297775690_cont_9to1c4b_828_3_alg».proof.Proof.KernelValue
import proofs.«150749_g69896297775690_cont_9to1c4b_828_3_alg».proof.Proof.RefRun
import proofs.«150749_g69896297775690_cont_9to1c4b_828_3_alg».proof.Proof.Bridge

noncomputable section

namespace Cert.Bridge

open Idealize.ShloMosaic

/-- The kernel's body of the argument arrays is the reference's composed term of them. -/
theorem pay_eq_out (a0 : FVec Ideal Cert.KernelIdeal.S4096x128 .f32) (a1 : FVec Ideal Cert.KernelIdeal.S4096x128 .f32) (a2 : FVec Ideal Cert.KernelIdeal.S4096x128 .f32) (a3 : FVec Ideal Cert.KernelIdeal.S4096x128 .f32) (a4 : FVec Ideal Cert.KernelIdeal.S128x300 .f32) (a5 : FVec Ideal Cert.KernelIdeal.S300 .f32) (a6 : FVec Ideal Cert.KernelIdeal.S300 .f32) (a7 : FVec Ideal Cert.KernelIdeal.S300 .f32) (a8 : FVec Ideal Cert.KernelIdeal.S300x300 .f32) (a9 : FVec Ideal Cert.KernelIdeal.S300 .f32) (a10 : FVec Ideal Cert.KernelIdeal.S128x300 .f32) (a11 : FVec Ideal Cert.KernelIdeal.S300 .f32) (a12 : FVec Ideal Cert.KernelIdeal.S300 .f32) (a13 : FVec Ideal Cert.KernelIdeal.S300 .f32) (a14 : FVec Ideal Cert.KernelIdeal.S300x300 .f32) (a15 : FVec Ideal Cert.KernelIdeal.S300 .f32) (a16 : FVec Ideal Cert.KernelIdeal.S8x300 .f32) (a17 : FVec Ideal Cert.KernelIdeal.S8x300 .f32) (a18 : FVec Ideal Cert.KernelIdeal.S128x96 .f32) (a19 : FVec Ideal Cert.KernelIdeal.S96 .f32) (a20 : FVec Ideal Cert.KernelIdeal.S128x96 .f32) (a21 : FVec Ideal Cert.KernelIdeal.S96 .f32) :
    Cert.KernelIdeal.KVal.pay (F := Ideal) a2 a3 a0 a1 a4 a5 a6 a7 a8 a9 a10 a11 a12 a13 a14 a15 a16 a17 a18 a19 a20 a21 (Cert.KernelIdeal.KVal.expandMat (F := Ideal)) (Cert.KernelIdeal.KVal.gatherMat (F := Ideal))
      = Cert.ReferenceIdeal.RefRun.out (F := Ideal) a0 a1 a2 a3 a4 a5 a6 a7 a8 a9 a10 a11 a12 a13 a14 a15 a16 a17 a18 a19 a20 a21 :=
  (show _ = Cert.KernelIdeal.Stage.mean2 (Cert.KernelIdeal.Stage.half a2 a0 a4 a5 a6 a7 a8 a9 a16 a18 a19 Cert.KernelIdeal.Stage.spread Cert.KernelIdeal.Stage.gather)
      (Cert.KernelIdeal.Stage.half a3 a1 a10 a11 a12 a13 a14 a15 a17 a20 a21 Cert.KernelIdeal.Stage.spread Cert.KernelIdeal.Stage.gather) from rfl).trans
    ((whole_eq a0 a1 a2 a3 a4 a5 a6 a7 a8 a9 a10 a11 a12 a13 a14 a15 a16 a17 a18 a19 a20 a21).trans
      (show Cert.ReferenceIdeal.Stage.mean2 (Cert.ReferenceIdeal.Stage.half a2 a0 a4 a5 a6 a7 a8 a9 a16 a18 a19) (Cert.ReferenceIdeal.Stage.half a3 a1 a10 a11 a12 a13 a14 a15 a17 a20 a21)
        = _ from rfl))

end Cert.Bridge

end
-- ==== Proof.lean ====
/-
  Two groups of inputs each pass through a linear layer, a normalisation over the 4096 rows, the positive part, a
  second linear layer, the inner products with eight cluster rows, a softmax over those eight, and a softmax-weighted
  sum of eight experts' twelve outputs; the result is the mean of the two groups' sums. The kernel and the reference
  spell every stage differently — a matrix product into a zero accumulator against a host product; lane reductions
  against host reductions; (h − μ)·(γ·(σ² + ε)^(−1/2)) against (h − μ)/√(σ² + ε)·γ; the weighted sum as two products
  with 0/1 matrices against a three-axis multiply and reduce — and on the extended reals every pair of spellings is
  one function: sums and products commute and associate, x·0 = 0 and x·1 = x hold at the infinities too, and
  σ² + ε is positive whatever the entries are, which is all the normalisation's two forms need. No finiteness of
  the inputs is used. The kernel's idealisation rewrote no operation, so there is nothing to preserve.
-/
import proofs.«150749_g69896297775690_cont_9to1c4b_828_3_alg».proof.Defs
import proofs.«150749_g69896297775690_cont_9to1c4b_828_3_alg».proof.Proof.Gen.Kernel
import proofs.«150749_g69896297775690_cont_9to1c4b_828_3_alg».proof.Proof.Gen.Kernel.Skeleton
import proofs.«150749_g69896297775690_cont_9to1c4b_828_3_alg».proof.Proof.Gen.Kernel.Launch
import proofs.«150749_g69896297775690_cont_9to1c4b_828_3_alg».proof.Proof.Gen.Kernel.Points
import proofs.«150749_g69896297775690_cont_9to1c4b_828_3_alg».proof.Proof.Gen.Kernel.Frame
import proofs.«150749_g69896297775690_cont_9to1c4b_828_3_alg».proof.Proof.Gen.KernelIdeal
import proofs.«150749_g69896297775690_cont_9to1c4b_828_3_alg».proof.Proof.Gen.KernelIdeal.Skeleton
import proofs.«150749_g69896297775690_cont_9to1c4b_828_3_alg».proof.Proof.Gen.KernelIdeal.Launch
import proofs.«150749_g69896297775690_cont_9to1c4b_828_3_alg».proof.Proof.Gen.KernelIdeal.Points
import proofs.«150749_g69896297775690_cont_9to1c4b_828_3_alg».proof.Proof.Gen.KernelIdeal.Frame
import proofs.«150749_g69896297775690_cont_9to1c4b_828_3_alg».proof.Proof.Gen.KernelIdeal.Value
import proofs.«150749_g69896297775690_cont_9to1c4b_828_3_alg».proof.Proof.Gen.ReferenceIdeal
import proofs.«150749_g69896297775690_cont_9to1c4b_828_3_alg».proof.Proof.Gen.Pre_finite_inputs
import proofs.«150749_g69896297775690_cont_9to1c4b_828_3_alg».proof.Proof.KernelValue
import proofs.«150749_g69896297775690_cont_9to1c4b_828_3_alg».proof.Proof.RefRun
import proofs.«150749_g69896297775690_cont_9to1c4b_828_3_alg».proof.Proof.Whole
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- The idealised kernel runs and keeps its arguments. -/
theorem frame_ki : Cert.frame_KernelIdeal := fun m ρ _ => Cert.KernelIdeal.Gen.frame m ρ

/-- The idealised reference runs and keeps its arguments: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealisation rewrote nothing. -/
theorem preserves : Cert.preserves_Kernel_KernelIdeal := trivial

/-- From memories agreeing on the arguments the two idealised programs end with one result: the kernel's array is its body
    of the argument arrays, the reference's is its composed term of them, and the two terms are one function. -/
theorem algebraic : Cert.algebraic_KernelIdeal_ReferenceIdeal := by
  intro m ρ m' ρ' _ hagree
  refine ⟨_, Cert.KernelIdeal.KVal.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]
  exact (Cert.Bridge.pay_eq_out _ _ _ _ _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
